-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v100)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v100) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v143) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x128 : Shape := ⟨2, ![65536, 128]⟩
abbrev S2x1048576 : Shape := ⟨2, ![2, 1048576]⟩
abbrev S32x128 : Shape := ⟨2, ![32, 128]⟩
abbrev S33 : Shape := ⟨1, ![33]⟩
abbrev S128x1 : Shape := ⟨2, ![128, 1]⟩
abbrev S128x128 : Shape := ⟨2, ![128, 128]⟩
abbrev S3x128x128 : Shape := ⟨3, ![3, 128, 128]⟩
abbrev S3x128 : Shape := ⟨2, ![3, 128]⟩
abbrev S40x128 : Shape := ⟨2, ![40, 128]⟩
abbrev S40 : Shape := ⟨1, ![40]⟩
abbrev S_ : Shape := ⟨0, ![]⟩

class Facts : Prop where
  bcast_S_S65536x128 : S_.BroadcastsInDim S65536x128 (![] : Fin 0 → Fin S65536x128.rank)
  reducesTo_S65536x128_S_d0_1 : S65536x128.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128x1 : S_.BroadcastsInDim S128x1 (![] : Fin 0 → Fin S128x1.rank)
  reducesTo_S128x1_S_d0_1 : S128x1.ReducesTo [0, 1] S_
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S40 .f32) (main_v33 : IVec S_ 1) : IVec S_ 1 :=
  let main_v34 : FVec F S40 .f32 := Host.absf main_arg9
  let main_cst_12 : FVec F S_ .f32 := constant S_ .f32 0x7F800000#32
  let main_v35 : FVec F S40 .f32 := broadcastInDim S40 ![] bcast_S_S40 main_cst_12
  let main_v36 : IVec S40 1 := cmpf .olt main_v34 main_v35
  let main_c_13 : IVec S_ 1 := constantI S_ 1 1#1
  let main_v37 : IVec S_ 1 := (fun x v => Host.reduce IntOp.andi x v reducesTo_S40_S_d0 h_S_) main_v36 main_c_13
  let main_v38 : IVec S_ 1 := andi main_v33 main_v37
  main_v38

def fn_part1 {F : FTy → Type} [FloatOps F] (main_arg6 : FVec F S3x128x128 .f32) (main_arg7 : FVec F S3x128 .f32) (main_arg8 : FVec F S40x128 .f32) (main_arg9 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S40x128 .f32 := Host.absf main_arg8
  let main_cst_10 : FVec F S_ .f32 := constant S_ .f32 0x7F800000#32
  let main_v30 : FVec F S40x128 .f32 := broadcastInDim S40x128 ![] bcast_S_S40x128 main_cst_10
  let main_v31 : IVec S40x128 1 := cmpf .olt main_v29 main_v30
  let main_c_11 : IVec S_ 1 := constantI S_ 1 1#1
  let main_v32 : IVec S_ 1 := (fun x v => Host.reduce IntOp.andi x v reducesTo_S40x128_S_d0_1 h_S_) main_v31 main_c_11
  let main_v33 : IVec S_ 1 := andi main_v28 main_v32
  fn_part2 (F := F) main_arg9 main_v33

def fn {F : FTy → Type} [FloatOps F] (main_arg0 : FVec F S65536x128 .f32) (main_arg1 : IVec S2x1048576 32) (main_arg2 : FVec F S32x128 .f32) (main_arg3 : IVec S33 32) (main_arg4 : FVec F S128x1 .f32) (main_arg5 : FVec F S128x128 .f32) (main_arg6 : FVec F S3x128x128 .f32) (main_arg7 : FVec F S3x128 .f32) (main_arg8 : FVec F S40x128 .f32) (main_arg9 : FVec F S40 .f32) : IVec S_ 1 :=
  let main_v0 : FVec F S65536x128 .f32 := Host.absf main_arg0
  let main_cst : FVec F S_ .f32 := constant S_ .f32 0x7F800000#32
  let main_v1 : FVec F S65536x128 .f32 := broadcastInDim S65536x128 ![] bcast_S_S65536x128 main_cst
  let main_v2 : IVec S65536x128 1 := cmpf .olt main_v0 main_v1
  let main_c : IVec S_ 1 := constantI S_ 1 1#1
  let main_v3 : IVec S_ 1 := (fun x v => Host.reduce IntOp.andi x v reducesTo_S65536x128_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128x1 .f32 := Host.absf main_arg4
  let main_cst_2 : FVec F S_ .f32 := constant S_ .f32 0x7F800000#32
  let main_v10 : FVec F S128x1 .f32 := broadcastInDim S128x1 ![] bcast_S_S128x1 main_cst_2
  let main_v11 : IVec S128x1 1 := cmpf .olt main_v9 main_v10
  let main_c_3 : IVec S_ 1 := constantI S_ 1 1#1
  let main_v12 : IVec S_ 1 := (fun x v => Host.reduce IntOp.andi x v reducesTo_S128x1_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_v13 main_v16
-- ==== Kernel.lean ====
abbrev S65536x128 : Shape := ⟨2, ![65536, 128]⟩
abbrev S2x1048576 : Shape := ⟨2, ![2, 1048576]⟩
abbrev S32x128 : Shape := ⟨2, ![32, 128]⟩
abbrev S33 : Shape := ⟨1, ![33]⟩
abbrev S128x1 : Shape := ⟨2, ![128, 1]⟩
abbrev S128x128 : Shape := ⟨2, ![128, 128]⟩
abbrev S3x128x128 : Shape := ⟨3, ![3, 128, 128]⟩
abbrev S3x128 : Shape := ⟨2, ![3, 128]⟩
abbrev S40x128 : Shape := ⟨2, ![40, 128]⟩
abbrev S40 : Shape := ⟨1, ![40]⟩
abbrev S32x1x128 : Shape := ⟨3, ![32, 1, 128]⟩
abbrev S2048x128 : Shape := ⟨2, ![2048, 128]⟩
abbrev S1x1x128 : Shape := ⟨3, ![1, 1, 128]⟩
abbrev S1x128 : Shape := ⟨2, ![1, 128]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S_ : Shape := ⟨0, ![]⟩
abbrev S1114112x1 : Shape := ⟨2, ![1114112, 1]⟩
abbrev S1x128x128 : Shape := ⟨3, ![1, 128, 128]⟩
abbrev S4096x128 : Shape := ⟨2, ![4096, 128]⟩
abbrev S1114112x128 : Shape := ⟨2, ![1114112, 128]⟩
abbrev S128 : Shape := ⟨1, ![128]⟩
abbrev S128x40 : Shape := ⟨2, ![128, 40]⟩
abbrev S1x40 : Shape := ⟨2, ![1, 40]⟩
abbrev S65536x40 : Shape := ⟨2, ![65536, 40]⟩
abbrev S4096x40 : Shape := ⟨2, ![4096, 40]⟩
abbrev S4096 : Shape := ⟨1, ![4096]⟩
abbrev S4096x1 : Shape := ⟨2, ![4096, 1]⟩

abbrev nBuf : Space → Nat
  | .hbm => 136
  | .vmem => 29
  | .smem => 0
  | _ => 0

abbrev hbmTy0_0 (i : Nat) : BufTy := match i % 128 with
  | 0 => ⟨S65536x128, .f32⟩
  | 1 => ⟨S2x1048576, .i32⟩
  | 2 => ⟨S32x128, .f32⟩
  | 3 => ⟨S33, .i32⟩
  | 4 => ⟨S128x1, .f32⟩
  | 5 => ⟨S128x128, .f32⟩
  | 6 => ⟨S3x128x128, .f32⟩
  | 7 => ⟨S3x128, .f32⟩
  | 8 => ⟨S40x128, .f32⟩
  | 9 => ⟨S40, .f32⟩
  | 10 => ⟨S32x1x128, .f32⟩
  | 11 => ⟨S65536x128, .f32⟩
  | 12 => ⟨S65536, .i32⟩
  | 13 => ⟨S1x1048576, .i32⟩
  | 14 => ⟨S1048576, .i32⟩
  | 15 => ⟨S1114112, .i32⟩
  | 16 => ⟨S1x1048576, .i32⟩
  | 17 => ⟨S1048576, .i32⟩
  | 18 => ⟨S1114112, .i32⟩
  | 19 => ⟨S_, .f32⟩
  | 20 => ⟨S1114112, .f32⟩
  | 21 => ⟨S_, .f32⟩
  | 22 => ⟨S65536, .f32⟩
  | 23 => ⟨S1114112x1, .i32⟩
  | 24 => ⟨S65536, .f32⟩
  | 25 => ⟨S_, .f32⟩
  | 26 => ⟨S65536, .f32⟩
  | 27 => ⟨S65536, .i1⟩
  | 28 => ⟨S65536, .f32⟩
  | 29 => ⟨S_, .f32⟩
  | 30 => ⟨S_, .f32⟩
  | 31 => ⟨S65536, .f32⟩
  | 32 => ⟨S65536, .f32⟩
  | 33 => ⟨S_, .i32⟩
  | 34 => ⟨S1114112, .i32⟩
  | 35 => ⟨S1114112, .i1⟩
  | 36 => ⟨S_, .i32⟩
  | 37 => ⟨S1114112, .i32⟩
  | 38 => ⟨S1114112, .i32⟩
  | 39 => ⟨S1114112, .i32⟩
  | 40 => ⟨S1114112x1, .i32⟩
  | 41 => ⟨S1114112, .f32⟩
  | 42 => ⟨S_, .i32⟩
  | 43 => ⟨S1114112, .i32⟩
  | 44 => ⟨S1114112, .i1⟩
  | 45 => ⟨S_, .i32⟩
  | 46 => ⟨S1114112, .i32⟩
  | 47 => ⟨S1114112, .i32⟩
  | 48 => ⟨S1114112, .i32⟩
  | 49 => ⟨S1114112x1, .i32⟩
  | 50 => ⟨S1114112, .f32⟩
  | 51 => ⟨S1114112, .f32⟩
  | 52 => ⟨S1x128x128, .f32⟩
  | 53 => ⟨S128x128, .f32⟩
  | 54 => ⟨S65536x128, .f32⟩
  | 55 => ⟨S_, .i32⟩
  | 56 => ⟨S1114112, .i32⟩
  | 57 => ⟨S1114112, .i1⟩
  | 58 => ⟨S_, .i32⟩
  | 59 => ⟨S1114112, .i32⟩
  | 60 => ⟨S1114112, .i32⟩
  | 61 => ⟨S1114112, .i32⟩
  | 62 => ⟨S1114112x1, .i32⟩
  | 63 => ⟨S1114112x128, .f32⟩
  | 64 => ⟨S1114112x1, .f32⟩
  | 65 => ⟨S1114112x128, .f32⟩
  | 66 => ⟨S1114112x128, .f32⟩
  | 67 => ⟨S_, .f32⟩
  | 68 => ⟨S65536x128, .f32⟩
  | 69 => ⟨S1114112x1, .i32⟩
  | 70 => ⟨S65536x128, .f32⟩
  | 71 => ⟨S1x128, .f32⟩
  | 72 => ⟨S128, .f32⟩
  | 73 => ⟨S1x128, .f32⟩
  | 74 => ⟨S65536x128, .f32⟩
  | 75 => ⟨S65536x128, .f32⟩
  | 76 => ⟨S_, .f32⟩
  | 77 => ⟨S65536x128, .f32⟩
  | 78 => ⟨S65536x128, .f32⟩
  | 79 => ⟨S1x128x128, .f32⟩
  | 80 => ⟨S128x128, .f32⟩
  | 81 => ⟨S65536x128, .f32⟩
  | 82 => ⟨S_, .i32⟩
  | 83 => ⟨S1114112, .i32⟩
  | 84 => ⟨S1114112, .i1⟩
  | 85 => ⟨S_, .i32⟩
  | 86 => ⟨S1114112, .i32⟩
  | 87 => ⟨S1114112, .i32⟩
  | 88 => ⟨S1114112, .i32⟩
  | 89 => ⟨S1114112x1, .i32⟩
  | 90 => ⟨S1114112x128, .f32⟩
  | 91 => ⟨S1114112x1, .f32⟩
  | 92 => ⟨S1114112x128, .f32⟩
  | 93 => ⟨S1114112x128, .f32⟩
  | 94 => ⟨S_, .f32⟩
  | 95 => ⟨S65536x128, .f32⟩
  | 96 => ⟨S1114112x1, .i32⟩
  | 97 => ⟨S65536x128, .f32⟩
  | 98 => ⟨S1x128, .f32⟩
  | 99 => ⟨S128, .f32⟩
  | 100 => ⟨S1x128, .f32⟩
  | 101 => ⟨S65536x128, .f32⟩
  | 102 => ⟨S65536x128, .f32⟩
  | 103 => ⟨S_, .f32⟩
  | 104 => ⟨S65536x128, .f32⟩
  | 105 => ⟨S65536x128, .f32⟩
  | 106 => ⟨S1x128x128, .f32⟩
  | 107 => ⟨S128x128, .f32⟩
  | 108 => ⟨S65536x128, .f32⟩
  | 109 => ⟨S_, .i32⟩
  | 110 => ⟨S1114112, .i32⟩
  | 111 => ⟨S1114112, .i1⟩
  | 112 => ⟨S_, .i32⟩
  | 113 => ⟨S1114112, .i32⟩
  | 114 => ⟨S1114112, .i32⟩
  | 115 => ⟨S1114112, .i32⟩
  | 116 => ⟨S1114112x1, .i32⟩
  | 117 => ⟨S1114112x128, .f32⟩
  | 118 => ⟨S1114112x1, .f32⟩
  | 119 => ⟨S1114112x128, .f32⟩
  | 120 => ⟨S1114112x128, .f32⟩
  | 121 => ⟨S_, .f32⟩
  | 122 => ⟨S65536x128, .f32⟩
  | 123 => ⟨S1114112x1, .i32⟩
  | 124 => ⟨S65536x128, .f32⟩
  | 125 => ⟨S1x128, .f32⟩
  | 126 => ⟨S128, .f32⟩
  | 127 => ⟨S1x128, .f32⟩
  | _ => ⟨S65536x128, .f32⟩

abbrev hbmTy0_1 (i : Nat) : BufTy := match i % 128 with
  | 0 => ⟨S65536x128, .f32⟩
  | 1 => ⟨S65536x128, .f32⟩
  | 2 => ⟨S_, .f32⟩
  | 3 => ⟨S65536x128, .f32⟩
  | 4 => ⟨S65536x128, .f32⟩
  | 5 => ⟨S128x40, .f32⟩
  | 6 => ⟨S1x40, .f32⟩
  | 7 => ⟨S65536x40, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | .local _ .vmem, ⟨0, _⟩ => ⟨S2048x128, .f32⟩
  | .local _ .vmem, ⟨1, _⟩ => ⟨S2048x128, .f32⟩
  | .local _ .vmem, ⟨2, _⟩ => ⟨S1x1x128, .f32⟩
  | .local _ .vmem, ⟨3, _⟩ => ⟨S1x1x128, .f32⟩
  | .local _ .vmem, ⟨4, _⟩ => ⟨S128x1, .f32⟩
  | .local _ .vmem, ⟨5, _⟩ => ⟨S128x128, .f32⟩
  | .local _ .vmem, ⟨6, _⟩ => ⟨S2048x128, .f32⟩
  | .local _ .vmem, ⟨7, _⟩ => ⟨S2048x128, .f32⟩
  | .local _ .vmem, ⟨8, _⟩ => ⟨S4096x128, .f32⟩
  | .local _ .vmem, ⟨9, _⟩ => ⟨S4096x128, .f32⟩
  | .local _ .vmem, ⟨10, _⟩ => ⟨S128x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | .local _ .vmem, ⟨14, _⟩ => ⟨S4096x128, .f32⟩
  | .local _ .vmem, ⟨15, _⟩ => ⟨S128x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S128x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S128x40, .f32⟩
  | .local _ .vmem, ⟨26, _⟩ => ⟨S1x40, .f32⟩
  | .local _ .vmem, ⟨27, _⟩ => ⟨S4096x40, .f32⟩
  | .local _ .vmem, ⟨28, _⟩ => ⟨S4096x40, .f32⟩
  | _, _ => ⟨S65536x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_call0_v0 : Ref sig .tc := ⟨.hbm, 30, rfl⟩
abbrev main_call0_v1 : Ref sig .tc := ⟨.hbm, 31, rfl⟩
abbrev main_v16 : Ref sig .tc := ⟨.hbm, 32, rfl⟩
abbrev main_c : Ref sig .tc := ⟨.hbm, 33, rfl⟩
abbrev main_v17 : Ref sig .tc := ⟨.hbm, 34, rfl⟩
abbrev main_v18 : Ref sig .tc := ⟨.hbm, 35, rfl⟩
abbrev main_c_3 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_8 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_call1_cst : Ref sig .tc := ⟨.hbm, 76, rfl⟩
abbrev main_call1_v0 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_9 : Ref sig .tc := ⟨.hbm, 82, rfl⟩
abbrev main_v57 : Ref sig .tc := ⟨.hbm, 83, rfl⟩
abbrev main_v58 : Ref sig .tc := ⟨.hbm, 84, rfl⟩
abbrev main_c_10 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_cst_11 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_call2_cst : Ref sig .tc := ⟨.hbm, 103, rfl⟩
abbrev main_call2_v0 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_c_12 : Ref sig .tc := ⟨.hbm, 109, rfl⟩
abbrev main_v79 : Ref sig .tc := ⟨.hbm, 110, rfl⟩
abbrev main_v80 : Ref sig .tc := ⟨.hbm, 111, rfl⟩
abbrev main_c_13 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_cst_14 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_call3_cst : Ref sig .tc := ⟨.hbm, 130, rfl⟩
abbrev main_call3_v0 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc4_stg0_0 : Ref sig .tc := ⟨.vmem, 23, rfl⟩
abbrev cc4_stg0_1 : Ref sig .tc := ⟨.vmem, 24, rfl⟩
abbrev cc4_stg1_0 : Ref sig .tc := ⟨.vmem, 25, rfl⟩
abbrev cc4_stg2_0 : Ref sig .tc := ⟨.vmem, 26, rfl⟩
abbrev cc4_stg3_0 : Ref sig .tc := ⟨.vmem, 27, rfl⟩
abbrev cc4_stg3_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc4_sem0_0 : DmaSem sig := 23
abbrev cc4_sem0_1 : DmaSem sig := 24
abbrev cc4_sem1_0 : DmaSem sig := 25
abbrev cc4_sem2_0 : DmaSem sig := 26
abbrev cc4_sem3_0 : DmaSem sig := 27
abbrev cc4_sem3_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4096x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![16], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4096x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4096x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![16], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x40 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S4096x40 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  shapeCasts_S32x128_S32x1x128 : S32x128.ShapeCasts S32x1x128
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  shapeCasts_S1x1x128_S1x128 : S1x1x128.ShapeCasts S1x128
  inb_S128x1_S128x1_0_0 : ∀ a, (![0, 0] : Fin 2 → Nat) a + S128x1.size a ≤ S128x1.size a
  h_S128x1 : 0 < S128x1.numel
  broadcasts_S128x1_S128x128 : S128x1.Broadcasts S128x128
  broadcasts_S1x128_S128x128 : S1x128.Broadcasts S128x128
  inb_S128x128_S128x128_0_0 : ∀ a, (![0, 0] : Fin 2 → Nat) a + S128x128.size a ≤ S128x128.size a
  h_S128x128 : 0 < S128x128.numel
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  slices_S3x128x128_S1x128x128_0_0_0 : S3x128x128.Slices ![0, 0, 0] S1x128x128
  shapeCasts_S1x128x128_S128x128 : S1x128x128.ShapeCasts S128x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S128x128_S128x128 : S128x128.ShapeCasts S128x128
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S4096x40 : S1x40.Broadcasts S4096x40
  reduces_S4096x40_S4096 : S4096x40.Reduces [1] S4096
  shapeCasts_S4096_S4096x1 : S4096.ShapeCasts S4096x1
  broadcasts_S4096x1_S4096x40 : S4096x1.Broadcasts S4096x40
  inb_S4096x40_S4096x40_0_0 : ∀ a, (![0, 0] : Fin 2 → Nat) a + S4096x40.size a ≤ S4096x40.size a
  h_S4096x40 : 0 < S4096x40.numel
  dot_S2048x128_S128x128_S2048x128_1_0_0_1_n_n_wf : DotDims.WF S2048x128 S128x128 S2048x128 [1] [0] [0] [1] [] []
  scatter_S65536_S1114112x1_S1114112_n_0_0_1_wf : ScatterDims.WF S65536 S1114112x1 S1114112 [] [0] [0] 1
  gather_S65536_S1114112x1_S1114112_n_0_n_n_0_1_1_wf : GatherDims.WF S65536 S1114112x1 S1114112 [] [0] [] [0] [] 1 ![1]
  dot_S4096x128_S128x128_S4096x128_1_0_0_1_n_n_wf : DotDims.WF S4096x128 S128x128 S4096x128 [1] [0] [0] [1] [] []
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S4096x128_S128x40_S4096x40_1_0_0_1_n_n_wf : DotDims.WF S4096x128 S128x40 S4096x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S65536x128.size a
  hwx0_0 : ∀ i : grid0.Coords, EltTy.bits .f32 = 32 ∨ (Rect.block (s := S65536x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x128.size a ≤ S32x1x128.size a
  hwx0_1 : ∀ i : grid0.Coords, EltTy.bits .f32 = 32 ∨ (Rect.block (s := S32x1x128) S1x1x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S128x1.size a
  hwx0_2 : ∀ i : grid0.Coords, EltTy.bits .f32 = 32 ∨ (Rect.block (s := S128x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x128.size a ≤ S65536x128.size a
  hwx0_4 : ∀ i : grid0.Coords, EltTy.bits .f32 = 32 ∨ (Rect.block (s := S65536x128) S2048x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S65536x128.size a
  hwx1_0 : ∀ i : grid1.Coords, EltTy.bits .f32 = 32 ∨ (Rect.block (s := S65536x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S65536x128.size a
  hwx1_2 : ∀ i : grid1.Coords, EltTy.bits .f32 = 32 ∨ (Rect.block (s := S65536x128) S4096x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x128.size a ≤ S65536x128.size a
  hwx2_0 : ∀ i : grid2.Coords, EltTy.bits .f32 = 32 ∨ (Rect.block (s := S65536x128) S4096x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x128.size a ≤ S65536x128.size a
  hwx2_2 : ∀ i : grid2.Coords, EltTy.bits .f32 = 32 ∨ (Rect.block (s := S65536x128) S4096x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4096x128.size a ≤ S65536x128.size a
  hwx3_0 : ∀ i : grid3.Coords, EltTy.bits .f32 = 32 ∨ (Rect.block (s := S65536x128) S4096x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4096x128.size a ≤ S65536x128.size a
  hwx3_2 : ∀ i : grid3.Coords, EltTy.bits .f32 = 32 ∨ (Rect.block (s := S65536x128) S4096x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x128.size a ≤ S65536x128.size a
  hwx4_0 : ∀ i : grid4.Coords, EltTy.bits .f32 = 32 ∨ (Rect.block (s := S65536x128) S4096x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x40.size a ≤ S1x40.size a
  hwx4_2 : ∀ i : grid4.Coords, EltTy.bits .f32 = 32 ∨ (Rect.block (s := S1x40) S1x40.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S4096x40.size a ≤ S65536x40.size a
  hwx4_3 : ∀ i : grid4.Coords, EltTy.bits .f32 = 32 ∨ (Rect.block (s := S65536x40) S4096x40.size (cc4_transform_3 i) (hinb4_3 i)).WholeWords (EltTy.packing .f32)

variable [Facts₀]

def dot_S2048x128_S128x128_S2048x128_1_0_0_1_n_n : DotDims S2048x128 S128x128 S2048x128 where
  lhsContracting := [1]
  rhsContracting := [0]
  lhsNonContracting := [0]
  rhsNonContracting := [1]
  lhsBatch := []
  rhsBatch := []
  wf := dot_S2048x128_S128x128_S2048x128_1_0_0_1_n_n_wf
def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S4096x128_S128x40_S4096x40_1_0_0_1_n_n : DotDims S4096x128 S128x40 S4096x40 where
  lhsContracting := [1]
  rhsContracting := [0]
  lhsNonContracting := [0]
  rhsNonContracting := [1]
  lhsBatch := []
  rhsBatch := []
  wf := dot_S4096x128_S128x40_S4096x40_1_0_0_1_n_n_wf

abbrev win0_0 : Pipeline.Window sig grid0 :=
  Pipeline.Window.ofSpec (Memref.whole main_arg0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2048x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v34) S4096x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S4096x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v56) S4096x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v75) S4096x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v77) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v78) S4096x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v97) S4096x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v99) S1x40.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v100) S4096x40.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S65536x128 : Shape := ⟨2, ![65536, 128]⟩
abbrev S2x1048576 : Shape := ⟨2, ![2, 1048576]⟩
abbrev S32x128 : Shape := ⟨2, ![32, 128]⟩
abbrev S33 : Shape := ⟨1, ![33]⟩
abbrev S128x1 : Shape := ⟨2, ![128, 1]⟩
abbrev S128x128 : Shape := ⟨2, ![128, 128]⟩
abbrev S3x128x128 : Shape := ⟨3, ![3, 128, 128]⟩
abbrev S3x128 : Shape := ⟨2, ![3, 128]⟩
abbrev S40x128 : Shape := ⟨2, ![40, 128]⟩
abbrev S40 : Shape := ⟨1, ![40]⟩
abbrev S1x128x1 : Shape := ⟨3, ![1, 128, 1]⟩
abbrev S32x1x128 : Shape := ⟨3, ![32, 1, 128]⟩
abbrev S32x128x128 : Shape := ⟨3, ![32, 128, 128]⟩
abbrev S1x128x128 : Shape := ⟨3, ![1, 128, 128]⟩
abbrev S_ : Shape := ⟨0, ![]⟩
abbrev S32x2048x128 : Shape := ⟨3, ![32, 2048, 128]⟩
abbrev S65536 : Shape := ⟨1, ![65536]⟩
abbrev S1x1048576 : Shape := ⟨2, ![1, 1048576]⟩
abbrev S1048576 : Shape := ⟨1, ![1048576]⟩
abbrev S1114112 : Shape := ⟨1, ![1114112]⟩
abbrev S1114112x1 : Shape := ⟨2, ![1114112, 1]⟩
abbrev S1x128 : Shape := ⟨2, ![1, 128]⟩
abbrev S128 : Shape := ⟨1, ![128]⟩
abbrev S1114112x128 : Shape := ⟨2, ![1114112, 128]⟩
abbrev S128x40 : Shape := ⟨2, ![128, 40]⟩
abbrev S65536x40 : Shape := ⟨2, ![65536, 40]⟩
abbrev S1x40 : Shape := ⟨2, ![1, 40]⟩
abbrev S65536x1 : Shape := ⟨2, ![65536, 1]⟩

abbrev nBuf : Space → Nat
  | .hbm => 203
  | .vmem => 0
  | .smem => 0
  | _ => 0

abbrev hbmTy0_0 (i : Nat) : BufTy := match i % 128 with
  | 0 => ⟨S65536x128, .f32⟩
  | 1 => ⟨S2x1048576, .i32⟩
  | 2 => ⟨S32x128, .f32⟩
  | 3 => ⟨S33, .i32⟩
  | 4 => ⟨S128x1, .f32⟩
  | 5 => ⟨S128x128, .f32⟩
  | 6 => ⟨S3x128x128, .f32⟩
  | 7 => ⟨S3x128, .f32⟩
  | 8 => ⟨S40x128, .f32⟩
  | 9 => ⟨S40, .f32⟩
  | 10 => ⟨S1x128x1, .f32⟩
  | 11 => ⟨S32x1x128, .f32⟩
  | 12 => ⟨S32x128x128, .f32⟩
  | 13 => ⟨S32x128x128, .f32⟩
  | 14 => ⟨S32x128x128, .f32⟩
  | 15 => ⟨S1x128x128, .f32⟩
  | 16 => ⟨S32x128x128, .f32⟩
  | 17 => ⟨S32x128x128, .f32⟩
  | 18 => ⟨S_, .f32⟩
  | 19 => ⟨S32x128x128, .f32⟩
  | 20 => ⟨S32x128x128, .f32⟩
  | 21 => ⟨S32x2048x128, .f32⟩
  | 22 => ⟨S32x2048x128, .f32⟩
  | 23 => ⟨S65536x128, .f32⟩
  | 24 => ⟨S65536, .i32⟩
  | 25 => ⟨S1x1048576, .i32⟩
  | 26 => ⟨S1048576, .i32⟩
  | 27 => ⟨S1114112, .i32⟩
  | 28 => ⟨S1x1048576, .i32⟩
  | 29 => ⟨S1048576, .i32⟩
  | 30 => ⟨S1114112, .i32⟩
  | 31 => ⟨S_, .f32⟩
  | 32 => ⟨S1114112, .f32⟩
  | 33 => ⟨S_, .f32⟩
  | 34 => ⟨S65536, .f32⟩
  | 35 => ⟨S1114112x1, .i32⟩
  | 36 => ⟨S65536, .f32⟩
  | 37 => ⟨S_, .f32⟩
  | 38 => ⟨S65536, .f32⟩
  | 39 => ⟨S65536, .i1⟩
  | 40 => ⟨S65536, .f32⟩
  | 41 => ⟨S_, .f32⟩
  | 42 => ⟨S_, .f32⟩
  | 43 => ⟨S65536, .f32⟩
  | 44 => ⟨S65536, .f32⟩
  | 45 => ⟨S1x128x128, .f32⟩
  | 46 => ⟨S128x128, .f32⟩
  | 47 => ⟨S1x128, .f32⟩
  | 48 => ⟨S128, .f32⟩
  | 49 => ⟨S65536x128, .f32⟩
  | 50 => ⟨S_, .i32⟩
  | 51 => ⟨S1114112, .i32⟩
  | 52 => ⟨S1114112, .i1⟩
  | 53 => ⟨S_, .i32⟩
  | 54 => ⟨S1114112, .i32⟩
  | 55 => ⟨S1114112, .i32⟩
  | 56 => ⟨S1114112, .i32⟩
  | 57 => ⟨S1114112x1, .i32⟩
  | 58 => ⟨S1114112, .f32⟩
  | 59 => ⟨S_, .i32⟩
  | 60 => ⟨S1114112, .i32⟩
  | 61 => ⟨S1114112, .i1⟩
  | 62 => ⟨S_, .i32⟩
  | 63 => ⟨S1114112, .i32⟩
  | 64 => ⟨S1114112, .i32⟩
  | 65 => ⟨S1114112, .i32⟩
  | 66 => ⟨S1114112x1, .i32⟩
  | 67 => ⟨S1114112, .f32⟩
  | 68 => ⟨S1114112, .f32⟩
  | 69 => ⟨S_, .i32⟩
  | 70 => ⟨S1114112, .i32⟩
  | 71 => ⟨S1114112, .i1⟩
  | 72 => ⟨S_, .i32⟩
  | 73 => ⟨S1114112, .i32⟩
  | 74 => ⟨S1114112, .i32⟩
  | 75 => ⟨S1114112, .i32⟩
  | 76 => ⟨S1114112x1, .i32⟩
  | 77 => ⟨S1114112x128, .f32⟩
  | 78 => ⟨S1114112x1, .f32⟩
  | 79 => ⟨S1114112x128, .f32⟩
  | 80 => ⟨S1114112x128, .f32⟩
  | 81 => ⟨S_, .f32⟩
  | 82 => ⟨S65536x128, .f32⟩
  | 83 => ⟨S1114112x1, .i32⟩
  | 84 => ⟨S65536x128, .f32⟩
  | 85 => ⟨S1x128, .f32⟩
  | 86 => ⟨S65536x128, .f32⟩
  | 87 => ⟨S65536x128, .f32⟩
  | 88 => ⟨S_, .f32⟩
  | 89 => ⟨S65536x128, .f32⟩
  | 90 => ⟨S65536x128, .f32⟩
  | 91 => ⟨S1x128x128, .f32⟩
  | 92 => ⟨S128x128, .f32⟩
  | 93 => ⟨S1x128, .f32⟩
  | 94 => ⟨S128, .f32⟩
  | 95 => ⟨S65536x128, .f32⟩
  | 96 => ⟨S_, .i32⟩
  | 97 => ⟨S1114112, .i32⟩
  | 98 => ⟨S1114112, .i1⟩
  | 99 => ⟨S_, .i32⟩
  | 100 => ⟨S1114112, .i32⟩
  | 101 => ⟨S1114112, .i32⟩
  | 102 => ⟨S1114112, .i32⟩
  | 103 => ⟨S1114112x1, .i32⟩
  | 104 => ⟨S1114112, .f32⟩
  | 105 => ⟨S_, .i32⟩
  | 106 => ⟨S1114112, .i32⟩
  | 107 => ⟨S1114112, .i1⟩
  | 108 => ⟨S_, .i32⟩
  | 109 => ⟨S1114112, .i32⟩
  | 110 => ⟨S1114112, .i32⟩
  | 111 => ⟨S1114112, .i32⟩
  | 112 => ⟨S1114112x1, .i32⟩
  | 113 => ⟨S1114112, .f32⟩
  | 114 => ⟨S1114112, .f32⟩
  | 115 => ⟨S_, .i32⟩
  | 116 => ⟨S1114112, .i32⟩
  | 117 => ⟨S1114112, .i1⟩
  | 118 => ⟨S_, .i32⟩
  | 119 => ⟨S1114112, .i32⟩
  | 120 => ⟨S1114112, .i32⟩
  | 121 => ⟨S1114112, .i32⟩
  | 122 => ⟨S1114112x1, .i32⟩
  | 123 => ⟨S1114112x128, .f32⟩
  | 124 => ⟨S1114112x1, .f32⟩
  | 125 => ⟨S1114112x128, .f32⟩
  | 126 => ⟨S1114112x128, .f32⟩
  | 127 => ⟨S_, .f32⟩
  | _ => ⟨S65536x128, .f32⟩

abbrev hbmTy0_1 (i : Nat) : BufTy := match i % 128 with
  | 0 => ⟨S65536x128, .f32⟩
  | 1 => ⟨S1114112x1, .i32⟩
  | 2 => ⟨S65536x128, .f32⟩
  | 3 => ⟨S1x128, .f32⟩
  | 4 => ⟨S65536x128, .f32⟩
  | 5 => ⟨S65536x128, .f32⟩
  | 6 => ⟨S_, .f32⟩
  | 7 => ⟨S65536x128, .f32⟩
  | 8 => ⟨S65536x128, .f32⟩
  | 9 => ⟨S1x128x128, .f32⟩
  | 10 => ⟨S128x128, .f32⟩
  | 11 => ⟨S1x128, .f32⟩
  | 12 => ⟨S128, .f32⟩
  | 13 => ⟨S65536x128, .f32⟩
  | 14 => ⟨S_, .i32⟩
  | 15 => ⟨S1114112, .i32⟩
  | 16 => ⟨S1114112, .i1⟩
  | 17 => ⟨S_, .i32⟩
  | 18 => ⟨S1114112, .i32⟩
  | 19 => ⟨S1114112, .i32⟩
  | 20 => ⟨S1114112, .i32⟩
  | 21 => ⟨S1114112x1, .i32⟩
  | 22 => ⟨S1114112, .f32⟩
  | 23 => ⟨S_, .i32⟩
  | 24 => ⟨S1114112, .i32⟩
  | 25 => ⟨S1114112, .i1⟩
  | 26 => ⟨S_, .i32⟩
  | 27 => ⟨S1114112, .i32⟩
  | 28 => ⟨S1114112, .i32⟩
  | 29 => ⟨S1114112, .i32⟩
  | 30 => ⟨S1114112x1, .i32⟩
  | 31 => ⟨S1114112, .f32⟩
  | 32 => ⟨S1114112, .f32⟩
  | 33 => ⟨S_, .i32⟩
  | 34 => ⟨S1114112, .i32⟩
  | 35 => ⟨S1114112, .i1⟩
  | 36 => ⟨S_, .i32⟩
  | 37 => ⟨S1114112, .i32⟩
  | 38 => ⟨S1114112, .i32⟩
  | 39 => ⟨S1114112, .i32⟩
  | 40 => ⟨S1114112x1, .i32⟩
  | 41 => ⟨S1114112x128, .f32⟩
  | 42 => ⟨S1114112x1, .f32⟩
  | 43 => ⟨S1114112x128, .f32⟩
  | 44 => ⟨S1114112x128, .f32⟩
  | 45 => ⟨S_, .f32⟩
  | 46 => ⟨S65536x128, .f32⟩
  | 47 => ⟨S1114112x1, .i32⟩
  | 48 => ⟨S65536x128, .f32⟩
  | 49 => ⟨S1x128, .f32⟩
  | 50 => ⟨S65536x128, .f32⟩
  | 51 => ⟨S65536x128, .f32⟩
  | 52 => ⟨S_, .f32⟩
  | 53 => ⟨S65536x128, .f32⟩
  | 54 => ⟨S65536x128, .f32⟩
  | 55 => ⟨S128x40, .f32⟩
  | 56 => ⟨S65536x40, .f32⟩
  | 57 => ⟨S1x40, .f32⟩
  | 58 => ⟨S65536x40, .f32⟩
  | 59 => ⟨S65536x40, .f32⟩
  | 60 => ⟨S_, .f32⟩
  | 61 => ⟨S65536, .f32⟩
  | 62 => ⟨S_, .f32⟩
  | 63 => ⟨S65536, .f32⟩
  | 64 => ⟨S65536, .f32⟩
  | 65 => ⟨S65536x1, .f32⟩
  | 66 => ⟨S65536x40, .f32⟩
  | 67 => ⟨S65536x40, .f32⟩
  | 68 => ⟨S65536x40, .f32⟩
  | 69 => ⟨S_, .f32⟩
  | 70 => ⟨S65536, .f32⟩
  | 71 => ⟨S65536x1, .f32⟩
  | 72 => ⟨S65536x1, .f32⟩
  | 73 => ⟨S65536x40, .f32⟩
  | 74 => ⟨S65536x40, .f32⟩
  | _ => ⟨S65536x128, .f32⟩

abbrev hbmTy (i : Nat) : BufTy := match i / 128 with
  | 0 => hbmTy0_0 i
  | 1 => hbmTy0_1 i
  | _ => ⟨S65536x128, .f32⟩

abbrev bufTy : (tb : Table) → Fin (tcTables nBuf tb) → BufTy
  | .hbm, ⟨i, _⟩ => hbmTy i
  | _, _ => ⟨S65536x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_2 : Ref sig .tc := ⟨.hbm, 41, rfl⟩
abbrev main_call1_v0 : Ref sig .tc := ⟨.hbm, 42, rfl⟩
abbrev main_call1_v1 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_c : Ref sig .tc := ⟨.hbm, 50, rfl⟩
abbrev main_v32 : Ref sig .tc := ⟨.hbm, 51, rfl⟩
abbrev main_v33 : Ref sig .tc := ⟨.hbm, 52, rfl⟩
abbrev main_c_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_4 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_call2_cst : Ref sig .tc := ⟨.hbm, 88, rfl⟩
abbrev main_call2_v0 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_c_9 : Ref sig .tc := ⟨.hbm, 96, rfl⟩
abbrev main_v69 : Ref sig .tc := ⟨.hbm, 97, rfl⟩
abbrev main_v70 : Ref sig .tc := ⟨.hbm, 98, rfl⟩
abbrev main_c_10 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_c_11 : Ref sig .tc := ⟨.hbm, 105, rfl⟩
abbrev main_v76 : Ref sig .tc := ⟨.hbm, 106, rfl⟩
abbrev main_v77 : Ref sig .tc := ⟨.hbm, 107, rfl⟩
abbrev main_c_12 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_13 : Ref sig .tc := ⟨.hbm, 115, rfl⟩
abbrev main_v84 : Ref sig .tc := ⟨.hbm, 116, rfl⟩
abbrev main_v85 : Ref sig .tc := ⟨.hbm, 117, rfl⟩
abbrev main_c_14 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_15 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_call3_cst : Ref sig .tc := ⟨.hbm, 134, rfl⟩
abbrev main_call3_v0 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_16 : Ref sig .tc := ⟨.hbm, 142, rfl⟩
abbrev main_v106 : Ref sig .tc := ⟨.hbm, 143, rfl⟩
abbrev main_v107 : Ref sig .tc := ⟨.hbm, 144, rfl⟩
abbrev main_c_17 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_c_18 : Ref sig .tc := ⟨.hbm, 151, rfl⟩
abbrev main_v113 : Ref sig .tc := ⟨.hbm, 152, rfl⟩
abbrev main_v114 : Ref sig .tc := ⟨.hbm, 153, rfl⟩
abbrev main_c_19 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_c_20 : Ref sig .tc := ⟨.hbm, 161, rfl⟩
abbrev main_v121 : Ref sig .tc := ⟨.hbm, 162, rfl⟩
abbrev main_v122 : Ref sig .tc := ⟨.hbm, 163, rfl⟩
abbrev main_c_21 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_cst_22 : Ref sig .tc := ⟨.hbm, 173, rfl⟩
abbrev main_v131 : Ref sig .tc := ⟨.hbm, 174, rfl⟩
abbrev main_v132 : Ref sig .tc := ⟨.hbm, 175, rfl⟩
abbrev main_v133 : Ref sig .tc := ⟨.hbm, 176, rfl⟩
abbrev main_v134 : Ref sig .tc := ⟨.hbm, 177, rfl⟩
abbrev main_v135 : Ref sig .tc := ⟨.hbm, 178, rfl⟩
abbrev main_v136 : Ref sig .tc := ⟨.hbm, 179, rfl⟩
abbrev main_call4_cst : Ref sig .tc := ⟨.hbm, 180, rfl⟩
abbrev main_call4_v0 : Ref sig .tc := ⟨.hbm, 181, rfl⟩
abbrev main_v137 : Ref sig .tc := ⟨.hbm, 182, rfl⟩
abbrev main_v138 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_call5_cst : Ref sig .tc := ⟨.hbm, 188, rfl⟩
abbrev main_call5_v0 : Ref sig .tc := ⟨.hbm, 189, rfl⟩
abbrev main_call5_cst_0 : Ref sig .tc := ⟨.hbm, 190, rfl⟩
abbrev main_call5_v1 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_v5 : Ref sig .tc := ⟨.hbm, 195, rfl⟩
abbrev main_call5_v6 : Ref sig .tc := ⟨.hbm, 196, rfl⟩
abbrev main_call5_cst_1 : Ref sig .tc := ⟨.hbm, 197, rfl⟩
abbrev main_call5_v7 : Ref sig .tc := ⟨.hbm, 198, rfl⟩
abbrev main_call5_v8 : Ref sig .tc := ⟨.hbm, 199, rfl⟩
abbrev main_call5_v9 : Ref sig .tc := ⟨.hbm, 200, rfl⟩
abbrev main_call5_v10 : Ref sig .tc := ⟨.hbm, 201, rfl⟩
abbrev main_v143 : Ref sig .tc := ⟨.hbm, 202, rfl⟩

abbrev nD : Nat := 1
abbrev τ : Topo := Topo.v7x

variable {F : FTy → Type} [FloatOps F]

class Facts₀ : Prop where
  bcast_S128x1_S1x128x1_1_2 : S128x1.BroadcastsInDim S1x128x1 (![1, 2] : Fin 2 → Fin S1x128x1.rank)
  bcast_S32x128_S32x1x128_0_2 : S32x128.BroadcastsInDim S32x1x128 (![0, 2] : Fin 2 → Fin S32x1x128.rank)
  bcast_S1x128x1_S32x128x128_0_1_2 : S1x128x1.BroadcastsInDim S32x128x128 (![0, 1, 2] : Fin 3 → Fin S32x128x128.rank)
  bcast_S32x1x128_S32x128x128_0_1_2 : S32x1x128.BroadcastsInDim S32x128x128 (![0, 1, 2] : Fin 3 → Fin S32x128x128.rank)
  bcast_S128x128_S1x128x128_1_2 : S128x128.BroadcastsInDim S1x128x128 (![1, 2] : Fin 2 → Fin S1x128x128.rank)
  bcast_S1x128x128_S32x128x128_0_1_2 : S1x128x128.BroadcastsInDim S32x128x128 (![0, 1, 2] : Fin 3 → Fin S32x128x128.rank)
  bcast_S_S32x128x128 : S_.BroadcastsInDim S32x128x128 (![] : Fin 0 → Fin S32x128x128.rank)
  shapeCasts_S65536x128_S32x2048x128 : S65536x128.ShapeCasts S32x2048x128
  shapeCasts_S32x2048x128_S65536x128 : S32x2048x128.ShapeCasts S65536x128
  slices_S2x1048576_S1x1048576_0_0 : S2x1048576.Slices ![0, 0] S1x1048576
  shapeCasts_S1x1048576_S1048576 : S1x1048576.ShapeCasts S1048576
  concatenates_S1048576_S65536_S1114112_d0 : Shape.Concatenates [S1048576, S65536] S1114112 0
  slices_S2x1048576_S1x1048576_1_0 : S2x1048576.Slices ![1, 0] S1x1048576
  bcast_S_S1114112 : S_.BroadcastsInDim S1114112 (![] : Fin 0 → Fin S1114112.rank)
  bcast_S_S65536 : S_.BroadcastsInDim S65536 (![] : Fin 0 → Fin S65536.rank)
  bcast_S1114112_S1114112x1_0 : S1114112.BroadcastsInDim S1114112x1 (![0] : Fin 1 → Fin S1114112x1.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S1114112x1_S1114112x128_0_1 : S1114112x1.BroadcastsInDim S1114112x128 (![0, 1] : Fin 2 → Fin S1114112x128.rank)
  bcast_S_S65536x128 : S_.BroadcastsInDim S65536x128 (![] : Fin 0 → Fin S65536x128.rank)
  bcast_S128_S1x128_1 : S128.BroadcastsInDim S1x128 (![1] : Fin 1 → Fin S1x128.rank)
  bcast_S1x128_S65536x128_0_1 : S1x128.BroadcastsInDim S65536x128 (![0, 1] : Fin 2 → Fin S65536x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  transposes_S40x128_S128x40_1_0 : S40x128.Transposes [1, 0] S128x40
  bcast_S40_S1x40_1 : S40.BroadcastsInDim S1x40 (![1] : Fin 1 → Fin S1x40.rank)
  bcast_S1x40_S65536x40_0_1 : S1x40.BroadcastsInDim S65536x40 (![0, 1] : Fin 2 → Fin S65536x40.rank)
  reducesTo_S65536x40_S65536_d1 : S65536x40.ReducesTo [1] S65536
  h_S_ : 0 < S_.numel
  bcast_S65536_S65536x1_0 : S65536.BroadcastsInDim S65536x1 (![0] : Fin 1 → Fin S65536x1.rank)
  bcast_S65536x1_S65536x40_0_1 : S65536x1.BroadcastsInDim S65536x40 (![0, 1] : Fin 2 → Fin S65536x40.rank)
  dot_S32x2048x128_S32x128x128_S32x2048x128_2_1_1_2_0_0_wf : DotDims.WF S32x2048x128 S32x128x128 S32x2048x128 [2] [1] [1] [2] [0] [0]
  scatter_S65536_S1114112x1_S1114112_n_0_0_1_wf : ScatterDims.WF S65536 S1114112x1 S1114112 [] [0] [0] 1
  dot_S65536x128_S128x128_S65536x128_1_0_0_1_n_n_wf : DotDims.WF S65536x128 S128x128 S65536x128 [1] [0] [0] [1] [] []
  gather_S65536_S1114112x1_S1114112_n_0_n_n_0_1_1_wf : GatherDims.WF S65536 S1114112x1 S1114112 [] [0] [] [0] [] 1 ![1]
  gather_S65536x128_S1114112x1_S1114112x128_1_0_n_n_0_1_1128_wf : GatherDims.WF S65536x128 S1114112x1 S1114112x128 [1] [0] [] [0] [] 1 ![1, 128]
  scatter_S65536x128_S1114112x1_S1114112x128_1_0_0_1_wf : ScatterDims.WF S65536x128 S1114112x1 S1114112x128 [1] [0] [0] 1
  dot_S65536x128_S128x40_S65536x40_1_0_0_1_n_n_wf : DotDims.WF S65536x128 S128x40 S65536x40 [1] [0] [0] [1] [] []

variable [Facts₀]

def dot_S32x2048x128_S32x128x128_S32x2048x128_2_1_1_2_0_0 : DotDims S32x2048x128 S32x128x128 S32x2048x128 where
  lhsContracting := [2]
  rhsContracting := [1]
  lhsNonContracting := [1]
  rhsNonContracting := [2]
  lhsBatch := [0]
  rhsBatch := [0]
  wf := dot_S32x2048x128_S32x128x128_S32x2048x128_2_1_1_2_0_0_wf
def scatter_S65536_S1114112x1_S1114112_n_0_0_1 : ScatterDims S65536 S1114112x1 S1114112 where
  updateWindowDims := []
  insertedWindowDims := [0]
  scatterDimsToOperandDims := [0]
  indexVectorDim := 1
  wf := scatter_S65536_S1114112x1_S1114112_n_0_0_1_wf
def dot_S65536x128_S128x128_S65536x128_1_0_0_1_n_n : DotDims S65536x128 S128x128 S65536x128 where
  lhsContracting := [1]
  rhsContracting := [0]
  lhsNonContracting := [0]
  rhsNonContracting := [1]
  lhsBatch := []
  rhsBatch := []
  wf := dot_S65536x128_S128x128_S65536x128_1_0_0_1_n_n_wf
def gather_S65536_S1114112x1_S1114112_n_0_n_n_0_1_1 : GatherDims S65536 S1114112x1 S1114112 where
  offsetDims := []
  collapsedSliceDims := [0]
  operandBatchingDims := []
  startIndicesBatchingDims := []
  startIndexMap := [0]
  indexVectorDim := 1
  sliceSizes := ![1]
  wf := gather_S65536_S1114112x1_S1114112_n_0_n_n_0_1_1_wf
def gather_S65536x128_S1114112x1_S1114112x128_1_0_n_n_0_1_1128 : GatherDims S65536x128 S1114112x1 S1114112x128 where
  offsetDims := [1]
  collapsedSliceDims := [0]
  operandBatchingDims := []
  startIndicesBatchingDims := []
  startIndexMap := [0]
  indexVectorDim := 1
  sliceSizes := ![1, 128]
  wf := gather_S65536x128_S1114112x1_S1114112x128_1_0_n_n_0_1_1128_wf
def scatter_S65536x128_S1114112x1_S1114112x128_1_0_0_1 : ScatterDims S65536x128 S1114112x1 S1114112x128 where
  updateWindowDims := [1]
  insertedWindowDims := [0]
  scatterDimsToOperandDims := [0]
  indexVectorDim := 1
  wf := scatter_S65536x128_S1114112x1_S1114112x128_1_0_0_1_wf
def dot_S65536x128_S128x40_S65536x40_1_0_0_1_n_n : DotDims S65536x128 S128x40 S65536x40 where
  lhsContracting := [1]
  rhsContracting := [0]
  lhsNonContracting := [0]
  rhsNonContracting := [1]
  lhsBatch := []
  rhsBatch := []
  wf := dot_S65536x128_S128x40_S65536x40_1_0_0_1_n_n_wf

class Facts : Prop extends Facts₀ where

variable [Facts]
-- ==== Proof.KernelRun.lean ====
/-
  The idealized kernel's run with its RESULT named. The program is five kernel regions among stretches of host
  operations; the contents of every buffer at each boundary form a fold from the launch memory (`Gen.W0` … `Gen.W18`),
  and every weakly fair execution ends with each unscoped buffer at the last stage of that fold. Read at the result
  buffer this names the program's value; read at the argument buffers it says they are unchanged.
-/
import proofs.«118539_j77197742178636_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one
set_option backward.isDefEq.respectTransparency.types false in
/-- Every weakly fair execution terminates, nothing faulting; the result buffer ends at the fold's last stage and
    the ten argument arrays end as launched. -/
theorem run_result : θ_run defs (onTc (τ := τ) (main (F := F))) ⟨m, fun _ => 0, ρ⟩ (fun r => ∀ c : Dev nD,
      r.2.mem ((c.tc : Thread nD τ).loc main_v100) = W18 m ρ c (Proc.devRef .tc main_v100)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      -- the launch element is the pipeline library's own; no ghost resource per core
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      -- the first thread state: every unscoped buffer held at the launch memory, the generator register, nothing owed
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      -- the last thread state holds every unscoped buffer at the fold's last stage: read them off the final state
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v100 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c),
       (h c _ (mem_uc main_arg7 (by decide))).trans (W18_main_arg7 m ρ c),
       (h c _ (mem_uc main_arg8 (by decide))).trans (W18_main_arg8 m ρ c),
       (h c _ (mem_uc main_arg9 (by decide))).trans (W18_main_arg9 m ρ c)⟩)

end Cert.KernelIdeal.RunValue

end
-- ==== Proof.LogSoftmaxRef.lean ====
/-
  The reference's last stage, written once as a function of the three arrays it consumes: the hidden state
  `h` (one row per node), the transposed weight `wT` and the bias `b`. The logits are `h · wT + b`; each row is
  shifted by its maximum (joined with -∞, which changes nothing), and the logarithm of the row's sum of
  exponentials of the shifted entries is subtracted: the row-wise log-softmax.
-/
import proofs.«118539_j77197742178636_1_alg».proof.Proof.Gen.ReferenceIdeal
import Idealize.ShloMosaic.PureOps.Ideal

noncomputable section

namespace Cert.Bridge

open Cert.ReferenceIdeal Cert.ReferenceIdeal.Facts₀ Idealize.ShloMosaic

/-- Logits `h · wT + b`, then the row-wise log-softmax, spelt with the host operations the reference applies. -/
def lsmRef (h : FVec Ideal S65536x128 .f32) (wT : FVec Ideal S128x40 .f32) (b : FVec Ideal S40 .f32) : FVec Ideal S65536x40 .f32 :=
  let logits : FVec Ideal S65536x40 .f32 :=
    addf (Host.dotGeneral dot_S65536x128_S128x40_S65536x40_1_0_0_1_n_n none h wT)
      (broadcastInDim S65536x40 ![0, 1] bcast_S1x40_S65536x40_0_1 (broadcastInDim S1x40 ![1] bcast_S40_S1x40_1 b))
  let rowMax : FVec Ideal S65536 .f32 :=
    maximumf (broadcastInDim S65536 ![] bcast_S_S65536 (constant (F := Ideal) S_ .f32 0xFF800000#32))
      (Host.reduce FloatOps.maximumf logits (constant (F := Ideal) S_ .f32 0xFF800000#32) reducesTo_S65536x40_S65536_d1 h_S_)
  let shifted : FVec Ideal S65536x40 .f32 :=
    subf logits (broadcastInDim S65536x40 ![0, 1] bcast_S65536x1_S65536x40_0_1 (broadcastInDim S65536x1 ![0] bcast_S65536_S65536x1_0 rowMax))
  subf shifted (broadcastInDim S65536x40 ![0, 1] bcast_S65536x1_S65536x40_0_1
    (Host.log (broadcastInDim S65536x1 ![0] bcast_S65536_S65536x1_0
      (Host.reduceAdd (Host.exp shifted) (constant (F := Ideal) S_ .f32 0x00000000#32) reducesTo_S65536x40_S65536_d1 h_S_))))

end Cert.Bridge

end
-- ==== Proof.HostCalls.lean ====
/-
  The operations of the small functions the host program calls between the regions (the zero-degree guard of the
  normalisation, and the clamp at zero after each layer), each read at the buffer it writes: the function's operation
  applied to what its operand buffers hold.
-/
import proofs.«118539_j77197742178636_1_alg».proof.Proof.Gen.KernelIdeal.Launch
import Idealize.ShloMosaic.PureOps.Ideal
import Idealize.ShloMosaic.Lib.StableHlo.Run

set_option maxRecDepth 16384

noncomputable section

namespace Cert.Bridge.Host

open Idealize.ShloMosaic Idealize.ShloMosaic.TcCoe Idealize.ShloMosaic.StableHlo Idealize.SL.Sem
open Cert.KernelIdeal Cert.KernelIdeal.Gen

theorem tr_main_call0_v0 (F : Valuation τ sig (Elt Ideal)) :
    HloOp.result ((StableHlo.TRef.unary (.of main_cst_2 : StableHlo.TRef sig ⟨S_, .f32⟩) (.of main_call0_v0 : StableHlo.TRef sig ⟨S_, .f32⟩) id) : HloOp τ sig (Elt Ideal)) F (Proc.devRef .tc main_call0_v0)
      = (id) (F (Proc.devRef .tc main_cst_2)) := by
  rw [unary_result]; rfl
theorem tr_main_call0_v1 (F : Valuation τ sig (Elt Ideal)) :
    HloOp.result ((StableHlo.TRef.unary (.of main_call0_v0 : StableHlo.TRef sig ⟨S_, .f32⟩) (.of main_call0_v1 : StableHlo.TRef sig ⟨S65536, .f32⟩) (broadcastInDim S65536 ![] bcast_S_S65536)) : HloOp τ sig (Elt Ideal)) F (Proc.devRef .tc main_call0_v1)
      = ((broadcastInDim S65536 ![] bcast_S_S65536)) (F (Proc.devRef .tc main_call0_v0)) := by
  rw [unary_result]; rfl
theorem tr_main_v16 (F : Valuation τ sig (Elt Ideal)) :
    HloOp.result ((StableHlo.TRef.ternary (.of main_v14 : StableHlo.TRef sig ⟨S65536, .i1⟩) (.of main_v15 : StableHlo.TRef sig ⟨S65536, .f32⟩) (.of main_call0_v1 : StableHlo.TRef sig ⟨S65536, .f32⟩) (.of main_v16 : StableHlo.TRef sig ⟨S65536, .f32⟩) select) : HloOp τ sig (Elt Ideal)) F (Proc.devRef .tc main_v16)
      = (select) (F (Proc.devRef .tc main_v14)) (F (Proc.devRef .tc main_v15)) (F (Proc.devRef .tc main_call0_v1)) := by
  rw [ternary_result]; rfl
theorem tr_main_call1_cst (F : Valuation τ sig (Elt Ideal)) :
    HloOp.result ((StableHlo.TRef.nullary (.of main_call1_cst : StableHlo.TRef sig ⟨S_, .f32⟩) (constant (F := Ideal) S_ .f32 0x00000000#32)) : HloOp τ sig (Elt Ideal)) F (Proc.devRef .tc main_call1_cst)
      = (constant (F := Ideal) S_ .f32 0x00000000#32 : FVec Ideal S_ .f32) := by
  rw [nullary_result]; rfl
theorem tr_main_call1_v0 (F : Valuation τ sig (Elt Ideal)) :
    HloOp.result ((StableHlo.TRef.unary (.of main_call1_cst : StableHlo.TRef sig ⟨S_, .f32⟩) (.of main_call1_v0 : StableHlo.TRef sig ⟨S65536x128, .f32⟩) (broadcastInDim S65536x128 ![] bcast_S_S65536x128)) : HloOp τ sig (Elt Ideal)) F (Proc.devRef .tc main_call1_v0)
      = ((broadcastInDim S65536x128 ![] bcast_S_S65536x128)) (F (Proc.devRef .tc main_call1_cst)) := by
  rw [unary_result]; rfl
theorem tr_main_v53 (F : Valuation τ sig (Elt Ideal)) :
    HloOp.result ((StableHlo.TRef.binary (.of main_v52 : StableHlo.TRef sig ⟨S65536x128, .f32⟩) (.of main_call1_v0 : StableHlo.TRef sig ⟨S65536x128, .f32⟩) (.of main_v53 : StableHlo.TRef sig ⟨S65536x128, .f32⟩) (maximumf (F := Ideal) (s := S65536x128) (φ := .f32))) : HloOp τ sig (Elt Ideal)) F (Proc.devRef .tc main_v53)
      = maximumf (F := Ideal) (s := S65536x128) (φ := .f32) (F (Proc.devRef .tc main_v52)) (F (Proc.devRef .tc main_call1_v0)) := by
  rw [binary_result]; rfl
theorem tr_main_call2_cst (F : Valuation τ sig (Elt Ideal)) :
    HloOp.result ((StableHlo.TRef.nullary (.of main_call2_cst : StableHlo.TRef sig ⟨S_, .f32⟩) (constant (F := Ideal) S_ .f32 0x00000000#32)) : HloOp τ sig (Elt Ideal)) F (Proc.devRef .tc main_call2_cst)
      = (constant (F := Ideal) S_ .f32 0x00000000#32 : FVec Ideal S_ .f32) := by
  rw [nullary_result]; rfl
theorem tr_main_call2_v0 (F : Valuation τ sig (Elt Ideal)) :
    HloOp.result ((StableHlo.TRef.unary (.of main_call2_cst : StableHlo.TRef sig ⟨S_, .f32⟩) (.of main_call2_v0 : StableHlo.TRef sig ⟨S65536x128, .f32⟩) (broadcastInDim S65536x128 ![] bcast_S_S65536x128)) : HloOp τ sig (Elt Ideal)) F (Proc.devRef .tc main_call2_v0)
      = ((broadcastInDim S65536x128 ![] bcast_S_S65536x128)) (F (Proc.devRef .tc main_call2_cst)) := by
  rw [unary_result]; rfl
theorem tr_main_v75 (F : Valuation τ sig (Elt Ideal)) :
    HloOp.result ((StableHlo.TRef.binary (.of main_v74 : StableHlo.TRef sig ⟨S65536x128, .f32⟩) (.of main_call2_v0 : StableHlo.TRef sig ⟨S65536x128, .f32⟩) (.of main_v75 : StableHlo.TRef sig ⟨S65536x128, .f32⟩) (maximumf (F := Ideal) (s := S65536x128) (φ := .f32))) : HloOp τ sig (Elt Ideal)) F (Proc.devRef .tc main_v75)
      = maximumf (F := Ideal) (s := S65536x128) (φ := .f32) (F (Proc.devRef .tc main_v74)) (F (Proc.devRef .tc main_call2_v0)) := by
  rw [binary_result]; rfl
theorem tr_main_call3_cst (F : Valuation τ sig (Elt Ideal)) :
    HloOp.result ((StableHlo.TRef.nullary (.of main_call3_cst : StableHlo.TRef sig ⟨S_, .f32⟩) (constant (F := Ideal) S_ .f32 0x00000000#32)) : HloOp τ sig (Elt Ideal)) F (Proc.devRef .tc main_call3_cst)
      = (constant (F := Ideal) S_ .f32 0x00000000#32 : FVec Ideal S_ .f32) := by
  rw [nullary_result]; rfl
theorem tr_main_call3_v0 (F : Valuation τ sig (Elt Ideal)) :
    HloOp.result ((StableHlo.TRef.unary (.of main_call3_cst : StableHlo.TRef sig ⟨S_, .f32⟩) (.of main_call3_v0 : StableHlo.TRef sig ⟨S65536x128, .f32⟩) (broadcastInDim S65536x128 ![] bcast_S_S65536x128)) : HloOp τ sig (Elt Ideal)) F (Proc.devRef .tc main_call3_v0)
      = ((broadcastInDim S65536x128 ![] bcast_S_S65536x128)) (F (Proc.devRef .tc main_call3_cst)) := by
  rw [unary_result]; rfl
theorem tr_main_v97 (F : Valuation τ sig (Elt Ideal)) :
    HloOp.result ((StableHlo.TRef.binary (.of main_v96 : StableHlo.TRef sig ⟨S65536x128, .f32⟩) (.of main_call3_v0 : StableHlo.TRef sig ⟨S65536x128, .f32⟩) (.of main_v97 : StableHlo.TRef sig ⟨S65536x128, .f32⟩) (maximumf (F := Ideal) (s := S65536x128) (φ := .f32))) : HloOp τ sig (Elt Ideal)) F (Proc.devRef .tc main_v97)
      = maximumf (F := Ideal) (s := S65536x128) (φ := .f32) (F (Proc.devRef .tc main_v96)) (F (Proc.devRef .tc main_call3_v0)) := by
  rw [binary_result]; rfl

end Cert.Bridge.Host

end
-- ==== Proof.ChainHost.lean ====
/-
  The host operations between the kernel regions, read buffer by buffer. Each stretch is a straight line of array
  operations; what a buffer holds after the stretch is the operations' composed term of what the stretch found. The
  edge lists (sources and targets, each followed by one self loop per node), the symmetric normalisation
  deg^(-1/2)[src] · deg^(-1/2)[dst] and each layer's slice of the weights are the same operations, in the same order,
  as the reference's stages of the same names; a buffer no operation of the stretch writes keeps its contents.
-/
import proofs.«118539_j77197742178636_1_alg».proof.Proof.Gen.KernelIdeal.Launch
import proofs.«118539_j77197742178636_1_alg».proof.Proof.RefReadP
import proofs.«118539_j77197742178636_1_alg».proof.Proof.HostCalls
import Idealize.ShloMosaic.Lib.ValueIdx

set_option maxRecDepth 16384

noncomputable section

namespace Cert.Bridge.Host

open Idealize.ShloMosaic Idealize.ShloMosaic.TcCoe Idealize.ShloMosaic.StableHlo Idealize.SL.Sem
open Cert.KernelIdeal Cert.KernelIdeal.Gen
open Cert.ReferenceIdeal.ReadP

variable (W : Valuation τ sig (Elt Ideal))

/-! ## Before region 0: the per-graph embedding reshaped to one row per graph -/

theorem s0_v0 (i : S32x1x128.Idx) :
    after (hostOps0 (F := Ideal)) W (Proc.devRef .tc main_v0) i
      = W (Proc.devRef .tc main_arg2) (fun a => match a with | ⟨0, _⟩ => ⟨(i 0).val, (i 0).isLt⟩ | ⟨1, _⟩ => ⟨(i 2).val, (i 2).isLt⟩) := by
  dsimp only [hostOps0]
  after_results
  have key : ∀ x : S32x128.Idx → EReal, shapeCast S32x1x128 x shapeCasts_S32x128_S32x1x128 i
      = x (fun a => match a with | ⟨0, _⟩ => ⟨(i 0).val, (i 0).isLt⟩ | ⟨1, _⟩ => ⟨(i 2).val, (i 2).isLt⟩) := fun x =>
    shapeCast_apply x shapeCasts_S32x128_S32x1x128 i _ (by
      rewrite [Shape.rowMajor_val_two, Shape.rowMajor_val_three]
      have h0 : (i 0).val < 32 := (i 0).isLt; have h1 : (i 1).val < 1 := (i 1).isLt; have h2 : (i 2).val < 128 := (i 2).isLt
      show (i 0).val * 128 + (i 2).val = ((i 0).val * 1 + (i 1).val) * 128 + (i 2).val; omega)
  exact key _
theorem s0_main_arg0 : after (hostOps0 (F := Ideal)) W (Proc.devRef .tc main_arg0) = W (Proc.devRef .tc main_arg0) := by
  dsimp only [hostOps0]; after_results
theorem s0_main_arg1 : after (hostOps0 (F := Ideal)) W (Proc.devRef .tc main_arg1) = W (Proc.devRef .tc main_arg1) := by
  dsimp only [hostOps0]; after_results
theorem s0_main_arg4 : after (hostOps0 (F := Ideal)) W (Proc.devRef .tc main_arg4) = W (Proc.devRef .tc main_arg4) := by
  dsimp only [hostOps0]; after_results
theorem s0_main_arg5 : after (hostOps0 (F := Ideal)) W (Proc.devRef .tc main_arg5) = W (Proc.devRef .tc main_arg5) := by
  dsimp only [hostOps0]; after_results
theorem s0_main_arg6 : after (hostOps0 (F := Ideal)) W (Proc.devRef .tc main_arg6) = W (Proc.devRef .tc main_arg6) := by
  dsimp only [hostOps0]; after_results
theorem s0_main_arg7 : after (hostOps0 (F := Ideal)) W (Proc.devRef .tc main_arg7) = W (Proc.devRef .tc main_arg7) := by
  dsimp only [hostOps0]; after_results
theorem s0_main_arg8 : after (hostOps0 (F := Ideal)) W (Proc.devRef .tc main_arg8) = W (Proc.devRef .tc main_arg8) := by
  dsimp only [hostOps0]; after_results
theorem s0_main_arg9 : after (hostOps0 (F := Ideal)) W (Proc.devRef .tc main_arg9) = W (Proc.devRef .tc main_arg9) := by
  dsimp only [hostOps0]; after_results

/-! ## Between region 0 and region 1: the edge lists, the degrees, the normalisation, the first weight -/

def S1 : Valuation τ sig (Elt Ideal) := after (hostOps1_2 (F := Ideal)) (after (hostOps1_1 (F := Ideal)) (after (hostOps1 (F := Ideal)) W))

/-- The sources: the first row of the edge list, then one self loop per node. -/
theorem A1_v5 : after (hostOps1 (F := Ideal)) W (Proc.devRef .tc main_v5) = val_main_v15 (F := Ideal) (W (Proc.devRef .tc main_arg1)) := by
  dsimp only [hostOps1]; after_results_simp; rfl
/-- The targets: the second row of the edge list, then the same self loops. -/
theorem A1_v8 : after (hostOps1 (F := Ideal)) W (Proc.devRef .tc main_v8) = val_main_v18 (F := Ideal) (W (Proc.devRef .tc main_arg1)) := by
  dsimp only [hostOps1]; after_results_simp; rfl
/-- Which nodes have positive degree (the number of edges into the node, self loop included). -/
theorem A1_v14 : after (hostOps1 (F := Ideal)) W (Proc.devRef .tc main_v14) = val_main_v24 (F := Ideal) (W (Proc.devRef .tc main_arg1)) := by
  dsimp only [hostOps1]; after_results_simp; rfl
/-- The degree to the power -1/2. -/
theorem A1_v15 : after (hostOps1 (F := Ideal)) W (Proc.devRef .tc main_v15) = val_main_v25 (F := Ideal) (W (Proc.devRef .tc main_arg1)) := by
  dsimp only [hostOps1]; after_results_simp; rfl
theorem A1_cst2 : after (hostOps1 (F := Ideal)) W (Proc.devRef .tc main_cst_2) = val_main_cst_2 (F := Ideal) := by
  dsimp only [hostOps1]; after_results_simp; rfl
/-- deg^(-1/2) where the degree is positive, 0 elsewhere. -/
theorem A2_v16 (a1 : _) (h14 : W (Proc.devRef .tc main_v14) = val_main_v24 (F := Ideal) a1)
    (h15 : W (Proc.devRef .tc main_v15) = val_main_v25 (F := Ideal) a1)
    (hc : W (Proc.devRef .tc main_cst_2) = val_main_cst_2 (F := Ideal)) :
    after (hostOps1_1 (F := Ideal)) W (Proc.devRef .tc main_v16) = val_main_v26 (F := Ideal) a1 := by
  dsimp only [hostOps1_1]; simp only [after_cons, after_nil]
  rw [tr_main_v16, tr_main_call0_v1, tr_main_call0_v0]
  after_results_simp
  rw [h14, h15, hc]; rfl
theorem A2_v5 : after (hostOps1_1 (F := Ideal)) W (Proc.devRef .tc main_v5) = W (Proc.devRef .tc main_v5) := by
  dsimp only [hostOps1_1]; after_results_simp
theorem A2_v8 : after (hostOps1_1 (F := Ideal)) W (Proc.devRef .tc main_v8) = W (Proc.devRef .tc main_v8) := by
  dsimp only [hostOps1_1]; after_results_simp
/-- The normalisation deg^(-1/2)[src] · deg^(-1/2)[dst]. -/
theorem A3_v31 (a1 : _) (h16 : W (Proc.devRef .tc main_v16) = val_main_v26 (F := Ideal) a1)
    (h5 : W (Proc.devRef .tc main_v5) = val_main_v15 (F := Ideal) a1)
    (h8 : W (Proc.devRef .tc main_v8) = val_main_v18 (F := Ideal) a1) :
    after (hostOps1_2 (F := Ideal)) W (Proc.devRef .tc main_v31) = val_main_v46 (F := Ideal) a1 := by
  dsimp only [hostOps1_2]; after_results_simp; rw [h16, h5, h8]; rfl
theorem A3_v5 : after (hostOps1_2 (F := Ideal)) W (Proc.devRef .tc main_v5) = W (Proc.devRef .tc main_v5) := by
  dsimp only [hostOps1_2]; after_results_simp
theorem A3_v8 : after (hostOps1_2 (F := Ideal)) W (Proc.devRef .tc main_v8) = W (Proc.devRef .tc main_v8) := by
  dsimp only [hostOps1_2]; after_results_simp

theorem S1_main_v5 : S1 W (Proc.devRef .tc main_v5) = val_main_v15 (F := Ideal) (W (Proc.devRef .tc main_arg1)) := by
  unfold S1; rw [A3_v5, A2_v5, A1_v5]
theorem S1_main_v8 : S1 W (Proc.devRef .tc main_v8) = val_main_v18 (F := Ideal) (W (Proc.devRef .tc main_arg1)) := by
  unfold S1; rw [A3_v8, A2_v8, A1_v8]
theorem S1_main_v31 : S1 W (Proc.devRef .tc main_v31) = val_main_v46 (F := Ideal) (W (Proc.devRef .tc main_arg1)) := by
  unfold S1
  refine A3_v31 _ _ (A2_v16 _ _ (A1_v14 W) (A1_v15 W) (A1_cst2 W)) ?_ ?_
  · rw [A2_v5, A1_v5]
  · rw [A2_v8, A1_v8]
/-- The first layer's weight: slice 0 of the stacked weights. -/
theorem S1_main_v33 : S1 W (Proc.devRef .tc main_v33) = val_main_v28 (F := Ideal) (W (Proc.devRef .tc main_arg6)) := by
  dsimp only [S1, hostOps1, hostOps1_1, hostOps1_2]; after_results_simp; rfl
theorem S1_main_v1 : S1 W (Proc.devRef .tc main_v1) = W (Proc.devRef .tc main_v1) := by
  dsimp only [S1, hostOps1, hostOps1_1, hostOps1_2]; after_results_simp
theorem S1_main_arg6 : S1 W (Proc.devRef .tc main_arg6) = W (Proc.devRef .tc main_arg6) := by
  dsimp only [S1, hostOps1, hostOps1_1, hostOps1_2]; after_results_simp
theorem S1_main_arg7 : S1 W (Proc.devRef .tc main_arg7) = W (Proc.devRef .tc main_arg7) := by
  dsimp only [S1, hostOps1, hostOps1_1, hostOps1_2]; after_results_simp
theorem S1_main_arg8 : S1 W (Proc.devRef .tc main_arg8) = W (Proc.devRef .tc main_arg8) := by
  dsimp only [S1, hostOps1, hostOps1_1, hostOps1_2]; after_results_simp
theorem S1_main_arg9 : S1 W (Proc.devRef .tc main_arg9) = W (Proc.devRef .tc main_arg9) := by
  dsimp only [S1, hostOps1, hostOps1_1, hostOps1_2]; after_results_simp

/-! ## Between region 1 and region 2: one layer's message passing -/

def S2 : Valuation τ sig (Elt Ideal) := after (hostOps2_2 (F := Ideal)) (after (hostOps2_1 (F := Ideal)) (after (hostOps2 (F := Ideal)) W))

/-- Gather the transformed rows at the sources, scale by the normalisation, add them up at the targets, add the bias. -/
theorem L2_pre (a0 a1 a2 a4 a5 a6 a7 : _)
    (hh : W (Proc.devRef .tc main_v34) = val_main_v31 (F := Ideal) a0 a2 a4 a5 a6)
    (h5 : W (Proc.devRef .tc main_v5) = val_main_v15 (F := Ideal) a1)
    (h8 : W (Proc.devRef .tc main_v8) = val_main_v18 (F := Ideal) a1)
    (h31 : W (Proc.devRef .tc main_v31) = val_main_v46 (F := Ideal) a1)
    (h7 : W (Proc.devRef .tc main_arg7) = a7) :
    after (hostOps2 (F := Ideal)) W (Proc.devRef .tc main_v52) = val_main_v62 (F := Ideal) a0 a1 a2 a4 a5 a6 a7 := by
  dsimp only [hostOps2]; after_results_simp; rw [hh, h5, h8, h31, h7]; rfl
/-- Clamp at zero. -/
theorem L2_out (a0 a1 a2 a4 a5 a6 a7 : _)
    (hp : W (Proc.devRef .tc main_v52) = val_main_v62 (F := Ideal) a0 a1 a2 a4 a5 a6 a7) :
    after (hostOps2_1 (F := Ideal)) W (Proc.devRef .tc main_v53) = val_main_v63 (F := Ideal) a0 a1 a2 a4 a5 a6 a7 := by
  dsimp only [hostOps2_1]; simp only [after_cons, after_nil]
  rw [tr_main_v53, tr_main_call1_v0, tr_main_call1_cst]
  after_results_simp
  rw [hp]; rfl
theorem L2_keep : after (hostOps2_2 (F := Ideal)) W (Proc.devRef .tc main_v53) = W (Proc.devRef .tc main_v53) := by
  dsimp only [hostOps2_2]; after_results_simp

/-- The layer's update is the reference's stage of the same arrays. -/
theorem S2_main_v53 (a0 a1 a2 a4 a5 a6 a7 : _)
    (hh : W (Proc.devRef .tc main_v34) = val_main_v31 (F := Ideal) a0 a2 a4 a5 a6)
    (h5 : W (Proc.devRef .tc main_v5) = val_main_v15 (F := Ideal) a1)
    (h8 : W (Proc.devRef .tc main_v8) = val_main_v18 (F := Ideal) a1)
    (h31 : W (Proc.devRef .tc main_v31) = val_main_v46 (F := Ideal) a1)
    (h7 : W (Proc.devRef .tc main_arg7) = a7) :
    S2 W (Proc.devRef .tc main_v53) = val_main_v63 (F := Ideal) a0 a1 a2 a4 a5 a6 a7 := by
  unfold S2
  rw [L2_keep]
  exact L2_out _ a0 a1 a2 a4 a5 a6 a7 (L2_pre W a0 a1 a2 a4 a5 a6 a7 hh h5 h8 h31 h7)
/-- The next layer's weight: its slice of the stacked weights. -/
theorem S2_main_v55 : S2 W (Proc.devRef .tc main_v55) = val_main_v65 (F := Ideal) (W (Proc.devRef .tc main_arg6)) := by
  dsimp only [S2, hostOps2, hostOps2_1, hostOps2_2]; after_results_simp; rfl
theorem S2_main_v5 : S2 W (Proc.devRef .tc main_v5) = W (Proc.devRef .tc main_v5) := by
  dsimp only [S2, hostOps2, hostOps2_1, hostOps2_2]; after_results_simp
theorem S2_main_v8 : S2 W (Proc.devRef .tc main_v8) = W (Proc.devRef .tc main_v8) := by
  dsimp only [S2, hostOps2, hostOps2_1, hostOps2_2]; after_results_simp
theorem S2_main_v31 : S2 W (Proc.devRef .tc main_v31) = W (Proc.devRef .tc main_v31) := by
  dsimp only [S2, hostOps2, hostOps2_1, hostOps2_2]; after_results_simp
theorem S2_main_arg6 : S2 W (Proc.devRef .tc main_arg6) = W (Proc.devRef .tc main_arg6) := by
  dsimp only [S2, hostOps2, hostOps2_1, hostOps2_2]; after_results_simp
theorem S2_main_arg7 : S2 W (Proc.devRef .tc main_arg7) = W (Proc.devRef .tc main_arg7) := by
  dsimp only [S2, hostOps2, hostOps2_1, hostOps2_2]; after_results_simp
theorem S2_main_arg8 : S2 W (Proc.devRef .tc main_arg8) = W (Proc.devRef .tc main_arg8) := by
  dsimp only [S2, hostOps2, hostOps2_1, hostOps2_2]; after_results_simp
theorem S2_main_arg9 : S2 W (Proc.devRef .tc main_arg9) = W (Proc.devRef .tc main_arg9) := by
  dsimp only [S2, hostOps2, hostOps2_1, hostOps2_2]; after_results_simp

/-! ## Between region 2 and region 3: one layer's message passing -/

def S3 : Valuation τ sig (Elt Ideal) := after (hostOps3_2 (F := Ideal)) (after (hostOps3_1 (F := Ideal)) (after (hostOps3 (F := Ideal)) W))

/-- Gather the transformed rows at the sources, scale by the normalisation, add them up at the targets, add the bias. -/
theorem L3_pre (a0 a1 a2 a4 a5 a6 a7 : _)
    (hh : W (Proc.devRef .tc main_v56) = val_main_v68 (F := Ideal) a0 a1 a2 a4 a5 a6 a7)
    (h5 : W (Proc.devRef .tc main_v5) = val_main_v15 (F := Ideal) a1)
    (h8 : W (Proc.devRef .tc main_v8) = val_main_v18 (F := Ideal) a1)
    (h31 : W (Proc.devRef .tc main_v31) = val_main_v46 (F := Ideal) a1)
    (h7 : W (Proc.devRef .tc main_arg7) = a7) :
    after (hostOps3 (F := Ideal)) W (Proc.devRef .tc main_v74) = val_main_v99 (F := Ideal) a0 a1 a2 a4 a5 a6 a7 := by
  dsimp only [hostOps3]; after_results_simp; rw [hh, h5, h8, h31, h7]; rfl
/-- Clamp at zero. -/
theorem L3_out (a0 a1 a2 a4 a5 a6 a7 : _)
    (hp : W (Proc.devRef .tc main_v74) = val_main_v99 (F := Ideal) a0 a1 a2 a4 a5 a6 a7) :
    after (hostOps3_1 (F := Ideal)) W (Proc.devRef .tc main_v75) = val_main_v100 (F := Ideal) a0 a1 a2 a4 a5 a6 a7 := by
  dsimp only [hostOps3_1]; simp only [after_cons, after_nil]
  rw [tr_main_v75, tr_main_call2_v0, tr_main_call2_cst]
  after_results_simp
  rw [hp]; rfl
theorem L3_keep : after (hostOps3_2 (F := Ideal)) W (Proc.devRef .tc main_v75) = W (Proc.devRef .tc main_v75) := by
  dsimp only [hostOps3_2]; after_results_simp

/-- The layer's update is the reference's stage of the same arrays. -/
theorem S3_main_v75 (a0 a1 a2 a4 a5 a6 a7 : _)
    (hh : W (Proc.devRef .tc main_v56) = val_main_v68 (F := Ideal) a0 a1 a2 a4 a5 a6 a7)
    (h5 : W (Proc.devRef .tc main_v5) = val_main_v15 (F := Ideal) a1)
    (h8 : W (Proc.devRef .tc main_v8) = val_main_v18 (F := Ideal) a1)
    (h31 : W (Proc.devRef .tc main_v31) = val_main_v46 (F := Ideal) a1)
    (h7 : W (Proc.devRef .tc main_arg7) = a7) :
    S3 W (Proc.devRef .tc main_v75) = val_main_v100 (F := Ideal) a0 a1 a2 a4 a5 a6 a7 := by
  unfold S3
  rw [L3_keep]
  exact L3_out _ a0 a1 a2 a4 a5 a6 a7 (L3_pre W a0 a1 a2 a4 a5 a6 a7 hh h5 h8 h31 h7)
/-- The next layer's weight: its slice of the stacked weights. -/
theorem S3_main_v77 : S3 W (Proc.devRef .tc main_v77) = val_main_v102 (F := Ideal) (W (Proc.devRef .tc main_arg6)) := by
  dsimp only [S3, hostOps3, hostOps3_1, hostOps3_2]; after_results_simp; rfl
theorem S3_main_v5 : S3 W (Proc.devRef .tc main_v5) = W (Proc.devRef .tc main_v5) := by
  dsimp only [S3, hostOps3, hostOps3_1, hostOps3_2]; after_results_simp
theorem S3_main_v8 : S3 W (Proc.devRef .tc main_v8) = W (Proc.devRef .tc main_v8) := by
  dsimp only [S3, hostOps3, hostOps3_1, hostOps3_2]; after_results_simp
theorem S3_main_v31 : S3 W (Proc.devRef .tc main_v31) = W (Proc.devRef .tc main_v31) := by
  dsimp only [S3, hostOps3, hostOps3_1, hostOps3_2]; after_results_simp
theorem S3_main_arg7 : S3 W (Proc.devRef .tc main_arg7) = W (Proc.devRef .tc main_arg7) := by
  dsimp only [S3, hostOps3, hostOps3_1, hostOps3_2]; after_results_simp
theorem S3_main_arg8 : S3 W (Proc.devRef .tc main_arg8) = W (Proc.devRef .tc main_arg8) := by
  dsimp only [S3, hostOps3, hostOps3_1, hostOps3_2]; after_results_simp
theorem S3_main_arg9 : S3 W (Proc.devRef .tc main_arg9) = W (Proc.devRef .tc main_arg9) := by
  dsimp only [S3, hostOps3, hostOps3_1, hostOps3_2]; after_results_simp

/-! ## Between region 3 and region 4: one layer's message passing -/

def S4 : Valuation τ sig (Elt Ideal) := after (hostOps4_2 (F := Ideal)) (after (hostOps4_1 (F := Ideal)) (after (hostOps4 (F := Ideal)) W))

/-- Gather the transformed rows at the sources, scale by the normalisation, add them up at the targets, add the bias. -/
theorem L4_pre (a0 a1 a2 a4 a5 a6 a7 : _)
    (hh : W (Proc.devRef .tc main_v78) = val_main_v105 (F := Ideal) a0 a1 a2 a4 a5 a6 a7)
    (h5 : W (Proc.devRef .tc main_v5) = val_main_v15 (F := Ideal) a1)
    (h8 : W (Proc.devRef .tc main_v8) = val_main_v18 (F := Ideal) a1)
    (h31 : W (Proc.devRef .tc main_v31) = val_main_v46 (F := Ideal) a1)
    (h7 : W (Proc.devRef .tc main_arg7) = a7) :
    after (hostOps4 (F := Ideal)) W (Proc.devRef .tc main_v96) = val_main_v136 (F := Ideal) a0 a1 a2 a4 a5 a6 a7 := by
  dsimp only [hostOps4]; after_results_simp; rw [hh, h5, h8, h31, h7]; rfl
/-- Clamp at zero. -/
theorem L4_out (a0 a1 a2 a4 a5 a6 a7 : _)
    (hp : W (Proc.devRef .tc main_v96) = val_main_v136 (F := Ideal) a0 a1 a2 a4 a5 a6 a7) :
    after (hostOps4_1 (F := Ideal)) W (Proc.devRef .tc main_v97) = val_main_v137 (F := Ideal) a0 a1 a2 a4 a5 a6 a7 := by
  dsimp only [hostOps4_1]; simp only [after_cons, after_nil]
  rw [tr_main_v97, tr_main_call3_v0, tr_main_call3_cst]
  after_results_simp
  rw [hp]; rfl
theorem L4_keep : after (hostOps4_2 (F := Ideal)) W (Proc.devRef .tc main_v97) = W (Proc.devRef .tc main_v97) := by
  dsimp only [hostOps4_2]; after_results_simp

/-- The layer's update is the reference's stage of the same arrays. -/
theorem S4_main_v97 (a0 a1 a2 a4 a5 a6 a7 : _)
    (hh : W (Proc.devRef .tc main_v78) = val_main_v105 (F := Ideal) a0 a1 a2 a4 a5 a6 a7)
    (h5 : W (Proc.devRef .tc main_v5) = val_main_v15 (F := Ideal) a1)
    (h8 : W (Proc.devRef .tc main_v8) = val_main_v18 (F := Ideal) a1)
    (h31 : W (Proc.devRef .tc main_v31) = val_main_v46 (F := Ideal) a1)
    (h7 : W (Proc.devRef .tc main_arg7) = a7) :
    S4 W (Proc.devRef .tc main_v97) = val_main_v137 (F := Ideal) a0 a1 a2 a4 a5 a6 a7 := by
  unfold S4
  rw [L4_keep]
  exact L4_out _ a0 a1 a2 a4 a5 a6 a7 (L4_pre W a0 a1 a2 a4 a5 a6 a7 hh h5 h8 h31 h7)

/-- The last layer's weight, transposed. -/
theorem S4_main_v98 : S4 W (Proc.devRef .tc main_v98) = val_main_v138 (F := Ideal) (W (Proc.devRef .tc main_arg8)) := by
  dsimp only [S4, hostOps4, hostOps4_1, hostOps4_2]; after_results_simp; rfl
/-- The last layer's bias as one row. -/
theorem S4_main_v99 (i : S1x40.Idx) :
    S4 W (Proc.devRef .tc main_v99) i = W (Proc.devRef .tc main_arg9) (ValueIdx.ix1 (⟨(i 1).val, (i 1).isLt⟩ : Fin 40)) := by
  dsimp only [S4, hostOps4, hostOps4_1, hostOps4_2]; after_results_simp
  have key : ∀ x : S40.Idx → EReal, shapeCast S1x40 x shapeCasts_S40_S1x40 i = x (ValueIdx.ix1 (⟨(i 1).val, (i 1).isLt⟩ : Fin 40)) := fun x =>
    shapeCast_apply x shapeCasts_S40_S1x40 i _ (by
      rewrite [Shape.rowMajor_val_one, Shape.rowMajor_val_two]
      have h0 : (i 0).val < 1 := (i 0).isLt; have h1 : (i 1).val < 40 := (i 1).isLt
      show (i 1).val = (i 0).val * 40 + (i 1).val; omega)
  exact key _

end Cert.Bridge.Host

end
-- ==== Proof.DenseLaw.lean ====
/-
  A dense layer's transform read at an index. The full product of a [65536,128] array `h` and a [128,128] array `W`
  has entry (n, q) = Σ_k h (n, k) · W (k, q); one [4096,128] block of rows times `W`, computed by a matrix unit into a zero
  accumulator, has entry (p, q) = Σ_k x (p, k) · W (k, q) (a change of float format is the identity on the extended
  reals). The host's dot_general of the two whole arrays is the full product.
-/
import proofs.«118539_j77197742178636_1_alg».proof.Proof.Gen.KernelIdeal
import proofs.«118539_j77197742178636_1_alg».proof.Proof.Gen.ReferenceIdeal
import Idealize.ShloMosaic.Lib.Pipeline.Value
import Idealize.ShloMosaic.Lib.ValueIdx
import Idealize.ShloMosaic.PureOps.Ideal.Laws

noncomputable section

namespace Cert.Bridge.DenseLaw

open Idealize.ShloMosaic Idealize.ShloMosaic.TcCoe
open Cert.KernelIdeal Cert.KernelIdeal.Facts₀

/-- Row `n` of the left array at column `k`. -/
abbrev lbig (i : S65536x128.Idx) (k : Fin 128) : S65536x128.Idx := fun a => match a with
  | ⟨0, _⟩ => ⟨(i 0).val, (i 0).isLt⟩
  | ⟨1, _⟩ => ⟨k.val, k.isLt⟩
/-- Row `k` of the weight at the output's column. -/
abbrev rbig (i : S65536x128.Idx) (k : Fin 128) : S128x128.Idx := fun a => match a with
  | ⟨0, _⟩ => ⟨k.val, k.isLt⟩
  | ⟨1, _⟩ => ⟨(i 1).val, (i 1).isLt⟩
/-- The same inside one block of 4096 rows. -/
abbrev lrow (y : S4096x128.Idx) (k : Fin 128) : S4096x128.Idx := fun a => match a with
  | ⟨0, _⟩ => ⟨(y 0).val, (y 0).isLt⟩
  | ⟨1, _⟩ => ⟨k.val, k.isLt⟩
abbrev rcol (y : S4096x128.Idx) (k : Fin 128) : S128x128.Idx := fun a => match a with
  | ⟨0, _⟩ => ⟨k.val, k.isLt⟩
  | ⟨1, _⟩ => ⟨(y 1).val, (y 1).isLt⟩

/-- The full product, entry by entry. -/
def prod (h : S65536x128.Idx → EReal) (W : S128x128.Idx → EReal) : S65536x128.Idx → EReal :=
  fun i => ∑ k : Fin 128, h (lbig i k) * W (rbig i k)

theorem prod_apply (h : S65536x128.Idx → EReal) (W : S128x128.Idx → EReal) (i : S65536x128.Idx) :
    prod h W i = ∑ k : Fin 128, h (lbig i k) * W (rbig i k) := rfl

theorem blk_lhs0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem blk_lhs1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem blk_rhs0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem blk_rhs1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

theorem big_lhs0 (i : Cert.ReferenceIdeal.S65536x128.Idx) (q : Cert.ReferenceIdeal.dot_S65536x128_S128x128_S65536x128_1_0_0_1_n_n.contr.Idx) : (Cert.ReferenceIdeal.dot_S65536x128_S128x128_S65536x128_1_0_0_1_n_n.lhsIdx i q 0).val = (i 0).val := by
  unfold DotDims.lhsIdx
  rw [dif_neg (show ¬(0 : Fin Cert.ReferenceIdeal.S65536x128.rank) ∈ Cert.ReferenceIdeal.dot_S65536x128_S128x128_S65536x128_1_0_0_1_n_n.lhsBatch by decide), dif_pos (show (0 : Fin Cert.ReferenceIdeal.S65536x128.rank) ∈ Cert.ReferenceIdeal.dot_S65536x128_S128x128_S65536x128_1_0_0_1_n_n.lhsNonContracting by decide)]
  rfl
theorem big_lhs1 (i : Cert.ReferenceIdeal.S65536x128.Idx) (q : Cert.ReferenceIdeal.dot_S65536x128_S128x128_S65536x128_1_0_0_1_n_n.contr.Idx) : (Cert.ReferenceIdeal.dot_S65536x128_S128x128_S65536x128_1_0_0_1_n_n.lhsIdx i q 1).val = (q ⟨0, by decide⟩).val :=
  Cert.ReferenceIdeal.dot_S65536x128_S128x128_S65536x128_1_0_0_1_n_n.lhsIdx_val_of_single rfl i q
theorem big_rhs0 (i : Cert.ReferenceIdeal.S65536x128.Idx) (q : Cert.ReferenceIdeal.dot_S65536x128_S128x128_S65536x128_1_0_0_1_n_n.contr.Idx) : (Cert.ReferenceIdeal.dot_S65536x128_S128x128_S65536x128_1_0_0_1_n_n.rhsIdx i q 0).val = (q ⟨0, by decide⟩).val :=
  Cert.ReferenceIdeal.dot_S65536x128_S128x128_S65536x128_1_0_0_1_n_n.rhsIdx_val_of_single rfl i q
theorem big_rhs1 (i : Cert.ReferenceIdeal.S65536x128.Idx) (q : Cert.ReferenceIdeal.dot_S65536x128_S128x128_S65536x128_1_0_0_1_n_n.contr.Idx) : (Cert.ReferenceIdeal.dot_S65536x128_S128x128_S65536x128_1_0_0_1_n_n.rhsIdx i q 1).val = (i 1).val := by
  unfold DotDims.rhsIdx
  rw [dif_neg (show ¬(1 : Fin Cert.ReferenceIdeal.S128x128.rank) ∈ Cert.ReferenceIdeal.dot_S65536x128_S128x128_S65536x128_1_0_0_1_n_n.rhsBatch by decide), dif_pos (show (1 : Fin Cert.ReferenceIdeal.S128x128.rank) ∈ Cert.ReferenceIdeal.dot_S65536x128_S128x128_S65536x128_1_0_0_1_n_n.rhsNonContracting by decide)]
  rfl

/-- A block of rows times the weight on the matrix unit, into a zero accumulator, after the two identity format changes
    and the two identity reshapes: entry (p, q) is Σ_k x (p, k) · W (k, q). Stated for any function `pay` that IS that
    composition (`hpay`), so that each region's payload instantiates it. -/
theorem block_apply (pay : Vec Ideal S4096x128 .f32 → Vec Ideal S128x128 .f32 → FVec Ideal S4096x128 .f32)
    (hpay : ∀ x0 x1, pay x0 x1 = matmul dot_S4096x128_S128x128_S4096x128_1_0_0_1_n_n none
      (truncf .bf16 (shapeCast S4096x128 x0 shapeCasts_S4096x128_S4096x128) bitsLt_bf16_f32)
      (truncf .bf16 (shapeCast S128x128 x1 shapeCasts_S128x128_S128x128) bitsLt_bf16_f32)
      (constant S4096x128 .f32 0x00000000#32))
    (x0 : Vec Ideal S4096x128 .f32) (x1 : Vec Ideal S128x128 .f32) (y : S4096x128.Idx) :
    pay x0 x1 y = ∑ k : Fin 128, x0 (lrow y k) * x1 (rcol y k) := by
  rw [hpay, shapeCast_self, shapeCast_self]
  show FloatOps.matmul dot_S4096x128_S128x128_S4096x128_1_0_0_1_n_n none _ _ (constant S4096x128 .f32 0x00000000#32) y = _
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx y ((ValueIdx.contrEquiv1 dot_S4096x128_S128x128_S4096x128_1_0_0_1_n_n 128 rfl rfl).symm k) = lrow y k := funext fun a => Fin.ext (by
    match a with
    | ⟨0, _⟩ => exact blk_lhs0 _ _
    | ⟨1, _⟩ => exact (blk_lhs1 _ _).trans hk)
  have er : dot_S4096x128_S128x128_S4096x128_1_0_0_1_n_n.rhsIdx y ((ValueIdx.contrEquiv1 dot_S4096x128_S128x128_S4096x128_1_0_0_1_n_n 128 rfl rfl).symm k) = rcol y k := funext fun a => Fin.ext (by
    match a with
    | ⟨0, _⟩ => exact (blk_rhs0 _ _).trans hk
    | ⟨1, _⟩ => exact blk_rhs1 _ _)
  rw [el, er]
  rfl

/-- The host's dot_general of the two whole arrays is the full product. -/
theorem host_eq (h : FVec Ideal Cert.ReferenceIdeal.S65536x128 .f32) (W : FVec Ideal Cert.ReferenceIdeal.S128x128 .f32) :
    Host.dotGeneral (F := Ideal) Cert.ReferenceIdeal.dot_S65536x128_S128x128_S65536x128_1_0_0_1_n_n none h W = prod h W := by
  funext i
  simp only [Host.dotGeneral]
  rw [Ideal.dotGeneral_apply, ← Equiv.sum_comp (ValueIdx.contrEquiv1 Cert.ReferenceIdeal.dot_S65536x128_S128x128_S65536x128_1_0_0_1_n_n 128 rfl rfl).symm]
  refine Finset.sum_congr rfl fun k _ => ?_
  have hk := ValueIdx.contrEquiv1_symm_val Cert.ReferenceIdeal.dot_S65536x128_S128x128_S65536x128_1_0_0_1_n_n 128 rfl rfl k
  have el : Cert.ReferenceIdeal.dot_S65536x128_S128x128_S65536x128_1_0_0_1_n_n.lhsIdx i ((ValueIdx.contrEquiv1 Cert.ReferenceIdeal.dot_S65536x128_S128x128_S65536x128_1_0_0_1_n_n 128 rfl rfl).symm k) = lbig i k := funext fun a => Fin.ext (by
    match a with
    | ⟨0, _⟩ => exact big_lhs0 _ _
    | ⟨1, _⟩ => exact (big_lhs1 _ _).trans hk)
  have er : Cert.ReferenceIdeal.dot_S65536x128_S128x128_S65536x128_1_0_0_1_n_n.rhsIdx i ((ValueIdx.contrEquiv1 Cert.ReferenceIdeal.dot_S65536x128_S128x128_S65536x128_1_0_0_1_n_n 128 rfl rfl).symm k) = rbig i k := funext fun a => Fin.ext (by
    match a with
    | ⟨0, _⟩ => exact (big_rhs0 _ _).trans hk
    | ⟨1, _⟩ => exact big_rhs1 _ _)
  rw [el, er]

end Cert.Bridge.DenseLaw

end
-- ==== Proof.Dense1.lean ====
/-
  Region 1 of the idealized kernel is a dense layer's transform: grid point `t` multiplies rows
  4096·t … 4096·t+4095 of the hidden state by the whole 128×128 weight and writes those rows of the product. Read at an
  index, a block's entry (p, q) is the sum over k of h (4096·t + p, k) · W (k, q); the blocks tile the array, so the array
  the region leaves is the full product h · W — the host's dot_general of the two arrays, entry by entry the same sum.
-/
import proofs.«118539_j77197742178636_1_alg».proof.Proof.Gen.KernelIdeal.Frame
import proofs.«118539_j77197742178636_1_alg».proof.Proof.DenseLaw

set_option maxRecDepth 16384

noncomputable section

namespace Cert.Bridge.Dense1

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The block index maps, decided over the 16 grid points: the hidden state's block and the output's block are the
    same row block, column block 0; the weight's block is the whole weight. -/
theorem idx_facts : ∀ t : Fin cfg1.N, win1_0.index t (0 : Fin 2) = win1_2.index t (0 : Fin 2)
    ∧ win1_0.index t (1 : Fin 2) = 0
    ∧ win1_1.index t (0 : Fin 2) = 0
    ∧ win1_1.index t (1 : Fin 2) = 0
    ∧ win1_2.index t (1 : Fin 2) = 0
    ∧ win1_2.index t (0 : Fin 2) = t.val :=
  (by decide +kernel : ∀ t : Fin grid1.N, _)

/-- What grid point `t` writes back is block `t` of the product of the two arrays as the region finds them. -/
theorem flushed_eq (c : Dev nD) (t : Fin cfg1.N) :
    (dat1 (F := Ideal) V c).flushed 2 t = ((cfg1.win 2).blk t).view.read (Elt Ideal)
      (DenseLaw.prod (V c main_v1) (V c main_v33)) := by
  show (cfg1.win 2).cut (grid1.coords t) ((dat1 (F := Ideal) V c).after 2 t) = _
  rw [after1_2]
  unfold out1_2
  rw [View.canon_unit_zero origin]
  simp only [View.ld_unit_zero (S := S4096x128) origin, View.ld_unit_zero (S := S128x128) origin]
  obtain ⟨e0, e1, e2, e3, e4, e5⟩ := idx_facts t
  funext y
  show k1_pay1 (F := Ideal) (iblk1 V c 0 t) (iblk1 V c 1 t) y = DenseLaw.prod (V c main_v1) (V c main_v33) (((cfg1.win 2).blk t).view.emb y)
  rw [DenseLaw.prod_apply]
  refine (DenseLaw.block_apply (k1_pay1 (F := Ideal)) (fun _ _ => rfl) (iblk1 V c 0 t) (iblk1 V c 1 t) y).trans ?_
  refine Finset.sum_congr rfl fun k _ => ?_
  have h0 : ((cfg1.win 0).blk t).view.emb (DenseLaw.lrow y k) = DenseLaw.lbig (((cfg1.win 2).blk t).view.emb y) k := by
    funext a; apply Fin.ext
    match a with
    | ⟨0, _⟩ => show win1_0.index t (0 : Fin 2) * 4096 + 1 * (y 0).val = win1_2.index t (0 : Fin 2) * 4096 + 1 * (y 0).val; omega
    | ⟨1, _⟩ => show win1_0.index t (1 : Fin 2) * 128 + 1 * k.val = k.val; omega
  have h1 : ((cfg1.win 1).blk t).view.emb (DenseLaw.rcol y k) = DenseLaw.rbig (((cfg1.win 2).blk t).view.emb y) k := by
    funext a; apply Fin.ext
    match a with
    | ⟨0, _⟩ => show win1_1.index t (0 : Fin 2) * 128 + 1 * k.val = k.val; omega
    | ⟨1, _⟩ => show win1_1.index t (1 : Fin 2) * 128 + 1 * (y 1).val = win1_2.index t (1 : Fin 2) * 128 + 1 * (y 1).val; omega
  rw [← h0, ← h1]
  rfl

/-- An index of the array is in point `t`'s block iff each coordinate is in the block's range on its axis. -/
theorem mem_blk (t : Fin cfg1.N) (i : S65536x128.Idx) :
    i ∈ ((cfg1.win 2).blk t).view.set ↔ ∀ a : Fin 2, win1_2.index t a * S4096x128.size a ≤ (i a).val ∧ (i a).val < win1_2.index t a * S4096x128.size a + S4096x128.size a := by
  show i ∈ ((View.whole main_v34).slice (win1_2.rect t)).set ↔ _
  rw [View.set_slice_whole, Rect.mem_set_unit]
  exact Iff.rfl

/-- Every row lies in the block of the point numbered by its row block. -/
theorem cover (i : S65536x128.Idx) : ∃ t : Fin cfg1.N, (cfg1.win 2).flush t = true ∧ i ∈ ((cfg1.win 2).blk t).view.set := by
  have hi0 : (i 0).val < 65536 := (i 0).isLt
  have hi1 : (i 1).val < 128 := (i 1).isLt
  have hN : cfg1.N = 16 := N_1
  refine ⟨⟨(i 0).val / 4096, by rw [hN]; omega⟩, flush1_2 _, ?_⟩
  rw [mem_blk]
  obtain ⟨e0, e1, e2, e3, e4, e5⟩ := idx_facts ⟨(i 0).val / 4096, by rw [hN]; omega⟩
  intro a
  match a with
  | ⟨0, _⟩ => show win1_2.index _ (0 : Fin 2) * 4096 ≤ (i 0).val ∧ (i 0).val < win1_2.index _ (0 : Fin 2) * 4096 + 4096; rw [e5]; show (i 0).val / 4096 * 4096 ≤ (i 0).val ∧ (i 0).val < (i 0).val / 4096 * 4096 + 4096; omega
  | ⟨1, _⟩ => show win1_2.index _ (1 : Fin 2) * 128 ≤ (i 1).val ∧ (i 1).val < win1_2.index _ (1 : Fin 2) * 128 + 128; rw [e4]; omega

/-- The array region 1 leaves is the product of the two arrays it finds. -/
theorem value (c : Dev nD) :
    (dat1 (F := Ideal) V c).arrAt 2 cfg1.N = DenseLaw.prod (V c main_v1) (V c main_v33) :=
  (dat1 (F := Ideal) V c).arrAt_eq_of_cover 2 _ (fun t _ => flushed_eq V c t) (cover)

end Cert.Bridge.Dense1

end
-- ==== Proof.Dense2.lean ====
/-
  Region 2 of the idealized kernel is a dense layer's transform: grid point `t` multiplies rows
  4096·t … 4096·t+4095 of the hidden state by the whole 128×128 weight and writes those rows of the product. Read at an
  index, a block's entry (p, q) is the sum over k of h (4096·t + p, k) · W (k, q); the blocks tile the array, so the array
  the region leaves is the full product h · W — the host's dot_general of the two arrays, entry by entry the same sum.
-/
import proofs.«118539_j77197742178636_1_alg».proof.Proof.Gen.KernelIdeal.Frame
import proofs.«118539_j77197742178636_1_alg».proof.Proof.DenseLaw

set_option maxRecDepth 16384

noncomputable section

namespace Cert.Bridge.Dense2

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The block index maps, decided over the 16 grid points: the hidden state's block and the output's block are the
    same row block, column block 0; the weight's block is the whole weight. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- What grid point `t` writes back is block `t` of the product of the two arrays as the region finds them. -/
theorem flushed_eq (c : Dev nD) (t : Fin cfg2.N) :
    (dat2 (F := Ideal) V c).flushed 2 t = ((cfg2.win 2).blk t).view.read (Elt Ideal)
      (DenseLaw.prod (V c main_v53) (V c main_v55)) := by
  show (cfg2.win 2).cut (grid2.coords t) ((dat2 (F := Ideal) V c).after 2 t) = _
  rw [after2_2]
  unfold out2_2
  rw [View.canon_unit_zero origin]
  simp only [View.ld_unit_zero (S := S4096x128) origin, View.ld_unit_zero (S := S128x128) origin]
  obtain ⟨e0, e1, e2, e3, e4, e5⟩ := idx_facts t
  funext y
  show k2_pay1 (F := Ideal) (iblk2 V c 0 t) (iblk2 V c 1 t) y = DenseLaw.prod (V c main_v53) (V c main_v55) (((cfg2.win 2).blk t).view.emb y)
  rw [DenseLaw.prod_apply]
  refine (DenseLaw.block_apply (k2_pay1 (F := Ideal)) (fun _ _ => rfl) (iblk2 V c 0 t) (iblk2 V c 1 t) y).trans ?_
  refine Finset.sum_congr rfl fun k _ => ?_
  have h0 : ((cfg2.win 0).blk t).view.emb (DenseLaw.lrow y k) = DenseLaw.lbig (((cfg2.win 2).blk t).view.emb y) k := by
    funext a; apply Fin.ext
    match a with
    | ⟨0, _⟩ => show win2_0.index t (0 : Fin 2) * 4096 + 1 * (y 0).val = win2_2.index t (0 : Fin 2) * 4096 + 1 * (y 0).val; omega
    | ⟨1, _⟩ => show win2_0.index t (1 : Fin 2) * 128 + 1 * k.val = k.val; omega
  have h1 : ((cfg2.win 1).blk t).view.emb (DenseLaw.rcol y k) = DenseLaw.rbig (((cfg2.win 2).blk t).view.emb y) k := by
    funext a; apply Fin.ext
    match a with
    | ⟨0, _⟩ => show win2_1.index t (0 : Fin 2) * 128 + 1 * k.val = k.val; omega
    | ⟨1, _⟩ => show win2_1.index t (1 : Fin 2) * 128 + 1 * (y 1).val = win2_2.index t (1 : Fin 2) * 128 + 1 * (y 1).val; omega
  rw [← h0, ← h1]
  rfl

/-- An index of the array is in point `t`'s block iff each coordinate is in the block's range on its axis. -/
theorem mem_blk (t : Fin cfg2.N) (i : S65536x128.Idx) :
    i ∈ ((cfg2.win 2).blk t).view.set ↔ ∀ a : Fin 2, win2_2.index t a * S4096x128.size a ≤ (i a).val ∧ (i a).val < win2_2.index t a * S4096x128.size a + S4096x128.size a := by
  show i ∈ ((View.whole main_v56).slice (win2_2.rect t)).set ↔ _
  rw [View.set_slice_whole, Rect.mem_set_unit]
  exact Iff.rfl

/-- Every row lies in the block of the point numbered by its row block. -/
theorem cover (i : S65536x128.Idx) : ∃ t : Fin cfg2.N, (cfg2.win 2).flush t = true ∧ i ∈ ((cfg2.win 2).blk t).view.set := by
  have hi0 : (i 0).val < 65536 := (i 0).isLt
  have hi1 : (i 1).val < 128 := (i 1).isLt
  have hN : cfg2.N = 16 := N_2
  refine ⟨⟨(i 0).val / 4096, by rw [hN]; omega⟩, flush2_2 _, ?_⟩
  rw [mem_blk]
  obtain ⟨e0, e1, e2, e3, e4, e5⟩ := idx_facts ⟨(i 0).val / 4096, by rw [hN]; omega⟩
  intro a
  match a with
  | ⟨0, _⟩ => show win2_2.index _ (0 : Fin 2) * 4096 ≤ (i 0).val ∧ (i 0).val < win2_2.index _ (0 : Fin 2) * 4096 + 4096; rw [e5]; show (i 0).val / 4096 * 4096 ≤ (i 0).val ∧ (i 0).val < (i 0).val / 4096 * 4096 + 4096; omega
  | ⟨1, _⟩ => show win2_2.index _ (1 : Fin 2) * 128 ≤ (i 1).val ∧ (i 1).val < win2_2.index _ (1 : Fin 2) * 128 + 128; rw [e4]; omega

/-- The array region 2 leaves is the product of the two arrays it finds. -/
theorem value (c : Dev nD) :
    (dat2 (F := Ideal) V c).arrAt 2 cfg2.N = DenseLaw.prod (V c main_v53) (V c main_v55) :=
  (dat2 (F := Ideal) V c).arrAt_eq_of_cover 2 _ (fun t _ => flushed_eq V c t) (cover)

end Cert.Bridge.Dense2

end
-- ==== Proof.Dense3.lean ====
/-
  Region 3 of the idealized kernel is a dense layer's transform: grid point `t` multiplies rows
  4096·t … 4096·t+4095 of the hidden state by the whole 128×128 weight and writes those rows of the product. Read at an
  index, a block's entry (p, q) is the sum over k of h (4096·t + p, k) · W (k, q); the blocks tile the array, so the array
  the region leaves is the full product h · W — the host's dot_general of the two arrays, entry by entry the same sum.
-/
import proofs.«118539_j77197742178636_1_alg».proof.Proof.Gen.KernelIdeal.Frame
import proofs.«118539_j77197742178636_1_alg».proof.Proof.DenseLaw

set_option maxRecDepth 16384

noncomputable section

namespace Cert.Bridge.Dense3

open Idealize.ShloMosaic Idealize.ShloMosaic.TcCoe Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- The block index maps, decided over the 16 grid points: the hidden state's block and the output's block are the
    same row block, column block 0; the weight's block is the whole weight. -/
theorem idx_facts : ∀ t : Fin cfg3.N, win3_0.index t (0 : Fin 2) = win3_2.index t (0 : Fin 2)
    ∧ win3_0.index t (1 : Fin 2) = 0
    ∧ win3_1.index t (0 : Fin 2) = 0
    ∧ win3_1.index t (1 : Fin 2) = 0
    ∧ win3_2.index t (1 : Fin 2) = 0
    ∧ win3_2.index t (0 : Fin 2) = t.val :=
  (by decide +kernel : ∀ t : Fin grid3.N, _)

/-- What grid point `t` writes back is block `t` of the product of the two arrays as the region finds them. -/
theorem flushed_eq (c : Dev nD) (t : Fin cfg3.N) :
    (dat3 (F := Ideal) V c).flushed 2 t = ((cfg3.win 2).blk t).view.read (Elt Ideal)
      (DenseLaw.prod (V c main_v75) (V c main_v77)) := by
  show (cfg3.win 2).cut (grid3.coords t) ((dat3 (F := Ideal) V c).after 2 t) = _
  rw [after3_2]
  unfold out3_2
  rw [View.canon_unit_zero origin]
  simp only [View.ld_unit_zero (S := S4096x128) origin, View.ld_unit_zero (S := S128x128) origin]
  obtain ⟨e0, e1, e2, e3, e4, e5⟩ := idx_facts t
  funext y
  show k3_pay1 (F := Ideal) (iblk3 V c 0 t) (iblk3 V c 1 t) y = DenseLaw.prod (V c main_v75) (V c main_v77) (((cfg3.win 2).blk t).view.emb y)
  rw [DenseLaw.prod_apply]
  refine (DenseLaw.block_apply (k3_pay1 (F := Ideal)) (fun _ _ => rfl) (iblk3 V c 0 t) (iblk3 V c 1 t) y).trans ?_
  refine Finset.sum_congr rfl fun k _ => ?_
  have h0 : ((cfg3.win 0).blk t).view.emb (DenseLaw.lrow y k) = DenseLaw.lbig (((cfg3.win 2).blk t).view.emb y) k := by
    funext a; apply Fin.ext
    match a with
    | ⟨0, _⟩ => show win3_0.index t (0 : Fin 2) * 4096 + 1 * (y 0).val = win3_2.index t (0 : Fin 2) * 4096 + 1 * (y 0).val; omega
    | ⟨1, _⟩ => show win3_0.index t (1 : Fin 2) * 128 + 1 * k.val = k.val; omega
  have h1 : ((cfg3.win 1).blk t).view.emb (DenseLaw.rcol y k) = DenseLaw.rbig (((cfg3.win 2).blk t).view.emb y) k := by
    funext a; apply Fin.ext
    match a with
    | ⟨0, _⟩ => show win3_1.index t (0 : Fin 2) * 128 + 1 * k.val = k.val; omega
    | ⟨1, _⟩ => show win3_1.index t (1 : Fin 2) * 128 + 1 * (y 1).val = win3_2.index t (1 : Fin 2) * 128 + 1 * (y 1).val; omega
  rw [← h0, ← h1]
  rfl

/-- An index of the array is in point `t`'s block iff each coordinate is in the block's range on its axis. -/
theorem mem_blk (t : Fin cfg3.N) (i : S65536x128.Idx) :
    i ∈ ((cfg3.win 2).blk t).view.set ↔ ∀ a : Fin 2, win3_2.index t a * S4096x128.size a ≤ (i a).val ∧ (i a).val < win3_2.index t a * S4096x128.size a + S4096x128.size a := by
  show i ∈ ((View.whole main_v78).slice (win3_2.rect t)).set ↔ _
  rw [View.set_slice_whole, Rect.mem_set_unit]
  exact Iff.rfl

/-- Every row lies in the block of the point numbered by its row block. -/
theorem cover (i : S65536x128.Idx) : ∃ t : Fin cfg3.N, (cfg3.win 2).flush t = true ∧ i ∈ ((cfg3.win 2).blk t).view.set := by
  have hi0 : (i 0).val < 65536 := (i 0).isLt
  have hi1 : (i 1).val < 128 := (i 1).isLt
  have hN : cfg3.N = 16 := N_3
  refine ⟨⟨(i 0).val / 4096, by rw [hN]; omega⟩, flush3_2 _, ?_⟩
  rw [mem_blk]
  obtain ⟨e0, e1, e2, e3, e4, e5⟩ := idx_facts ⟨(i 0).val / 4096, by rw [hN]; omega⟩
  intro a
  match a with
  | ⟨0, _⟩ => show win3_2.index _ (0 : Fin 2) * 4096 ≤ (i 0).val ∧ (i 0).val < win3_2.index _ (0 : Fin 2) * 4096 + 4096; rw [e5]; show (i 0).val / 4096 * 4096 ≤ (i 0).val ∧ (i 0).val < (i 0).val / 4096 * 4096 + 4096; omega
  | ⟨1, _⟩ => show win3_2.index _ (1 : Fin 2) * 128 ≤ (i 1).val ∧ (i 1).val < win3_2.index _ (1 : Fin 2) * 128 + 128; rw [e4]; omega

/-- The array region 3 leaves is the product of the two arrays it finds. -/
theorem value (c : Dev nD) :
    (dat3 (F := Ideal) V c).arrAt 2 cfg3.N = DenseLaw.prod (V c main_v75) (V c main_v77) :=
  (dat3 (F := Ideal) V c).arrAt_eq_of_cover 2 _ (fun t _ => flushed_eq V c t) (cover)

end Cert.Bridge.Dense3

end
-- ==== Proof.DynWeightSpec.lean ====
/-
  The dynamic-weight layer as ONE function of its four arrays: node features x (65536 rows of 128), one
  meta-embedding row per graph e (32 rows of 128; node n belongs to graph n / 2048), a column w (128 × 1) and
  a bias matrix b (128 × 128). The weight of graph g is W_g(k, j) = max (w(k, 0) · e(g, j) + b(k, j)) 0, and row n
  of the result is row n of x times W_{n / 2048}:
      out(n, j) = ∑ k, x(n, k) · max (w(k, 0) · e(n / 2048, j) + b(k, j)) 0 .
  The lower clamp is kept as the word both programs print for it (the f32 zero word), never evaluated.
-/
import Idealize.ShloMosaic.Lib.ValueIdx

noncomputable section

namespace Cert.Bridge

open Idealize.ShloMosaic Idealize.ShloMosaic.ValueIdx
open scoped BigOperators

/-- Entry (n, j) of the layer's result. -/
def dynEntry (x : Vec Ideal ⟨2, ![65536, 128]⟩ .f32) (e : Vec Ideal ⟨2, ![32, 128]⟩ .f32)
    (w : Vec Ideal ⟨2, ![128, 1]⟩ .f32) (b : Vec Ideal ⟨2, ![128, 128]⟩ .f32) (n : Fin 65536) (j : Fin 128) : EReal :=
  ∑ k : Fin 128, x (ix2 n k)
    * max (w (ix2 k (0 : Fin 1)) * e (ix2 (⟨n.val / 2048, by have := n.isLt; omega⟩ : Fin 32) j) + b (ix2 k j)) (Ideal.ofBits .f32 0x00000000#32)

/-- The layer's result as an array: `dynEntry` at the index's two coordinates. -/
def dynArr (x : Vec Ideal ⟨2, ![65536, 128]⟩ .f32) (e : Vec Ideal ⟨2, ![32, 128]⟩ .f32)
    (w : Vec Ideal ⟨2, ![128, 1]⟩ .f32) (b : Vec Ideal ⟨2, ![128, 128]⟩ .f32) : Vec Ideal ⟨2, ![65536, 128]⟩ .f32 :=
  fun i => dynEntry x e w b ⟨(i 0).val, idx2_lt0 i⟩ ⟨(i 1).val, idx2_lt1 i⟩

/-- Read at an index written by coordinates. -/
theorem dynArr_ix2 (x : Vec Ideal ⟨2, ![65536, 128]⟩ .f32) (e : Vec Ideal ⟨2, ![32, 128]⟩ .f32)
    (w : Vec Ideal ⟨2, ![128, 1]⟩ .f32) (b : Vec Ideal ⟨2, ![128, 128]⟩ .f32) (n : Fin 65536) (j : Fin 128) :
    dynArr x e w b (ix2 n j) = dynEntry x e w b n j := rfl

end Cert.Bridge

end
-- ==== Proof.DynWeightPayload.lean ====
import proofs.«118539_j77197742178636_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.Bridge

open Cert.KernelIdeal Cert.KernelIdeal.Gen Idealize.ShloMosaic Idealize.ShloMosaic.ValueIdx
open scoped BigOperators

/-! The kernel body's one stored value, read at an entry (p, q) of its 2048 × 128 block: from the loaded blocks
    (the graph's meta-embedding row `v0`, the column `v3`, the bias `v7`, the 2048 node rows `v11`) it is the
    sum over k of v11(p, k) · max (v3(k, 0) · v0(0, 0, q) + v7(k, q)) 0. The two narrowings to bf16 in front of the
    matrix product are the identity on extended reals. -/

/-- A column broadcast along the rows: a [a, 1] array broadcast to [a, b] reads, at (k, c), the operand at (k, 0). -/
theorem broadcastTo_a1_ab_apply {α : Type} {a b : ℕ} (v : (⟨2, ![a, 1]⟩ : Shape).Idx → α) (h : (⟨2, ![a, 1]⟩ : Shape).Broadcasts ⟨2, ![a, b]⟩)
    (k : Fin a) (c : Fin b) : broadcastTo ⟨2, ![a, b]⟩ v h (ix2 k c) = v (ix2 k (0 : Fin 1)) := by
  refine broadcastTo_apply v h (ix2 k c) (ix2 k (0 : Fin 1)) fun ax => ?_
  match ax with
  | ⟨0, _⟩ =>
    show k.val = if a = 1 then 0 else k.val
    split
    · have := k.isLt; omega
    · rfl
  | ⟨1, _⟩ => rfl

/-- The product's left operand is read at the output's row … -/
theorem matmul_lhs_row (i : S2048x128.Idx) (κ : dot_S2048x128_S128x128_S2048x128_1_0_0_1_n_n.contr.Idx) :
    (dot_S2048x128_S128x128_S2048x128_1_0_0_1_n_n.lhsIdx i κ 0).val = (i 0).val := by
  unfold DotDims.lhsIdx
  rw [dif_neg (show ¬(0 : Fin S2048x128.rank) ∈ dot_S2048x128_S128x128_S2048x128_1_0_0_1_n_n.lhsBatch by decide), dif_pos (show (0 : Fin S2048x128.rank) ∈ dot_S2048x128_S128x128_S2048x128_1_0_0_1_n_n.lhsNonContracting by decide)]
  rfl
/-- … and at the contraction's coordinate; -/
theorem matmul_lhs_col (i : S2048x128.Idx) (κ : dot_S2048x128_S128x128_S2048x128_1_0_0_1_n_n.contr.Idx) :
    (dot_S2048x128_S128x128_S2048x128_1_0_0_1_n_n.lhsIdx i κ 1).val = (κ ⟨0, by decide⟩).val :=
  dot_S2048x128_S128x128_S2048x128_1_0_0_1_n_n.lhsIdx_val_of_single rfl i κ
/-- the right operand at the contraction's coordinate … -/
theorem matmul_rhs_row (i : S2048x128.Idx) (κ : dot_S2048x128_S128x128_S2048x128_1_0_0_1_n_n.contr.Idx) :
    (dot_S2048x128_S128x128_S2048x128_1_0_0_1_n_n.rhsIdx i κ 0).val = (κ ⟨0, by decide⟩).val :=
  dot_S2048x128_S128x128_S2048x128_1_0_0_1_n_n.rhsIdx_val_of_single rfl i κ
/-- … and at the output's column. -/
theorem matmul_rhs_col (i : S2048x128.Idx) (κ : dot_S2048x128_S128x128_S2048x128_1_0_0_1_n_n.contr.Idx) :
    (dot_S2048x128_S128x128_S2048x128_1_0_0_1_n_n.rhsIdx i κ 1).val = (i 1).val := by
  unfold DotDims.rhsIdx
  rw [dif_neg (show ¬(1 : Fin S128x128.rank) ∈ dot_S2048x128_S128x128_S2048x128_1_0_0_1_n_n.rhsBatch by decide), dif_pos (show (1 : Fin S128x128.rank) ∈ dot_S2048x128_S128x128_S2048x128_1_0_0_1_n_n.rhsNonContracting by decide)]
  rfl

/-- The body's matrix product into the zero accumulator, read at (p, q): the sum over the one contracted axis. -/
theorem matmul_entry (l : FVec Ideal S2048x128 .bf16) (r : FVec Ideal S128x128 .bf16) (p : Fin 2048) (q : Fin 128) :
    matmul dot_S2048x128_S128x128_S2048x128_1_0_0_1_n_n none l r (constant S2048x128 .f32 0x00000000#32) (ix2 p q)
      = ∑ k : Fin 128, l (ix2 p k) * r (ix2 k q) := by
  simp only [matmul]
  rw [Ideal.matmul_constant_zero_apply, ← Equiv.sum_comp (contrEquiv1 dot_S2048x128_S128x128_S2048x128_1_0_0_1_n_n 128 rfl rfl).symm]
  refine Finset.sum_congr rfl fun k _ => ?_
  have hk := contrEquiv1_symm_val dot_S2048x128_S128x128_S2048x128_1_0_0_1_n_n 128 rfl rfl k
  have el : dot_S2048x128_S128x128_S2048x128_1_0_0_1_n_n.lhsIdx (ix2 p q) ((contrEquiv1 dot_S2048x128_S128x128_S2048x128_1_0_0_1_n_n 128 rfl rfl).symm k) = ix2 p k := funext fun a => Fin.ext (by
    match a with
    | ⟨0, _⟩ => exact matmul_lhs_row _ _
    | ⟨1, _⟩ => exact (matmul_lhs_col _ _).trans hk)
  have er : dot_S2048x128_S128x128_S2048x128_1_0_0_1_n_n.rhsIdx (ix2 p q) ((contrEquiv1 dot_S2048x128_S128x128_S2048x128_1_0_0_1_n_n 128 rfl rfl).symm k) = ix2 k q := funext fun a => Fin.ext (by
    match a with
    | ⟨0, _⟩ => exact (matmul_rhs_row _ _).trans hk
    | ⟨1, _⟩ => exact matmul_rhs_col _ _)
  rw [el, er]

/-- The dynamic weight at (k, q): the column times the row, plus the bias, clamped below at the zero word. -/
theorem dynweight_at (v0 : Vec Ideal S1x1x128 .f32) (v3 : Vec Ideal S128x1 .f32) (v7 : Vec Ideal S128x128 .f32) (k q : Fin 128) :
    (maximumf (addf (mulf (broadcastTo S128x128 v3 broadcasts_S128x1_S128x128)
        (broadcastTo S128x128 (shapeCast S1x128 (shapeCast S1x1x128 v0 shapeCasts_S1x1x128_S1x1x128) shapeCasts_S1x1x128_S1x128) broadcasts_S1x128_S128x128)) v7)
      (broadcast S128x128 (FloatOps.ofBits (F := Ideal) .f32 0x00000000#32)) : FVec Ideal S128x128 .f32) (ix2 k q)
      = max (v3 (ix2 k (0 : Fin 1)) * v0 (ix3 (0 : Fin 1) (0 : Fin 1) q) + v7 (ix2 k q)) (Ideal.ofBits .f32 0x00000000#32) := by
  rw [maximumf_apply, addf_apply, mulf_apply, broadcast_apply, broadcastTo_a1_ab_apply, broadcastTo_1b_ab_apply, shapeCast_1ab_ab_apply, shapeCast_self]
  rfl

/-- THE PAYLOAD AT AN ENTRY: row p of the node block times column q of the dynamic weight. -/
theorem dynweight_entry (v0 : Vec Ideal S1x1x128 .f32) (v3 : Vec Ideal S128x1 .f32) (v7 : Vec Ideal S128x128 .f32) (v11 : Vec Ideal S2048x128 .f32)
    (p : Fin 2048) (q : Fin 128) :
    k0_pay1 v0 v3 v7 v11 (ix2 p q)
      = ∑ k : Fin 128, v11 (ix2 p k) * max (v3 (ix2 k (0 : Fin 1)) * v0 (ix3 (0 : Fin 1) (0 : Fin 1) q) + v7 (ix2 k q)) (Ideal.ofBits .f32 0x00000000#32) := by
  unfold k0_pay1
  rw [matmul_entry]
  refine Finset.sum_congr rfl fun k _ => ?_
  rw [truncf_apply, truncf_apply, dynweight_at]

end Cert.Bridge

end
-- ==== Proof.DynWeightBlocks.lean ====
/-
  Region 0 of the idealized kernel, from blocks to the array. Grid point t takes rows 2048·t … 2048·t + 2047 of the node
  features, row t of the (reshaped) meta-embeddings, and the whole column and bias; its body leaves in the output block
  the product of the node rows with the dynamic weight of graph t. Read at an index, entry (p, q) of that block is the
  layer's function `dynArr` at row 2048·t + p, because (2048·t + p) / 2048 = t. The 32 row blocks tile the result,
  so the array the region leaves is `dynArr` of the arrays it finds.
-/
import proofs.«118539_j77197742178636_1_alg».proof.Proof.Gen.KernelIdeal.Frame
import proofs.«118539_j77197742178636_1_alg».proof.Proof.DynWeightSpec
import proofs.«118539_j77197742178636_1_alg».proof.Proof.DynWeightPayload
import Idealize.ShloMosaic.Lib.Pipeline.Value
import Idealize.ShloMosaic.Lib.ValueIdx

set_option maxRecDepth 16384

noncomputable section

namespace Cert.Bridge

open Idealize.ShloMosaic Idealize.ShloMosaic.TcCoe Idealize.SL.Sem Idealize.ShloMosaic.ValueIdx
open Idealize.ShloMosaic.Pipeline (Dat Cfg Window)
open Cert.KernelIdeal Cert.KernelIdeal.Gen
open scoped BigOperators

variable (V : (c : Dev nD) → (b : Ref sig .tc) → Buf (Elt Ideal) ((c : Thread nD τ).loc b))

theorem origin2 : (![0, 0] : Fin 2 → Nat) = fun _ => 0 := funext fun a => by fin_cases a <;> rfl
theorem origin3 : (![0, 0, 0] : Fin 3 → Nat) = fun _ => 0 := funext fun a => by fin_cases a <;> rfl

/-- The block index maps, decided over the 32 grid points: point t takes row block t of the node features and of the
    result, row t of the meta-embeddings, and the whole column and bias. -/
theorem idx_facts : ∀ t : Fin cfg0.N, win0_0.index t (0 : Fin 2) = t.val
    ∧ win0_0.index t (1 : Fin 2) = 0
    ∧ win0_1.index t (0 : Fin 3) = t.val
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

/-- The node block at point t is rows 2048·t … 2048·t + 2047 of the node features. -/
theorem x_block (c : Dev nD) (t : Fin cfg0.N) (p : Fin 2048) (k : Fin 128) (i : S65536x128.Idx)
    (h0 : (i 0).val = 2048 * t.val + p.val) (h1 : (i 1).val = k.val) :
    (iblk0 V c 0 t : Vec Ideal S2048x128 .f32) (ix2 p k) = (V c main_arg0 : S65536x128.Idx → Elt Ideal .f32) i := by
  obtain ⟨e00, e01, -⟩ := idx_facts t
  unfold iblk0
  rw [View.read_apply]
  show V c main_arg0 _ = V c main_arg0 _
  congr 1
  funext a
  apply Fin.ext
  match a with
  | ⟨0, _⟩ => show win0_0.index t (0 : Fin 2) * 2048 + 1 * p.val = (i 0).val; rw [e00, h0]; omega
  | ⟨1, _⟩ => show win0_0.index t (1 : Fin 2) * 128 + 1 * k.val = (i 1).val; rw [e01, h1]; omega

/-- The meta-embedding block at point t is row t of the reshaped meta-embeddings. -/
theorem e_block (c : Dev nD) (t : Fin cfg0.N) (q : Fin 128) (i : S32x1x128.Idx)
    (h0 : (i 0).val = t.val) (h2 : (i 2).val = q.val) :
    (iblk0 V c 1 t : Vec Ideal S1x1x128 .f32) (ix3 (0 : Fin 1) (0 : Fin 1) q) = (V c main_v0 : S32x1x128.Idx → Elt Ideal .f32) i := by
  obtain ⟨-, -, e10, e11, e12, -⟩ := idx_facts t
  have h1' : (i 1).val < 1 := (i 1).isLt
  have h1 : (i 1).val = 0 := by omega
  unfold iblk0
  rw [View.read_apply]
  show V c main_v0 _ = V c main_v0 _
  congr 1
  funext a
  apply Fin.ext
  match a with
  | ⟨0, _⟩ => show win0_1.index t (0 : Fin 3) * 1 + 1 * 0 = (i 0).val; rw [e10, h0]; omega
  | ⟨1, _⟩ => show win0_1.index t (1 : Fin 3) * 1 + 1 * 0 = (i 1).val; rw [e11, h1]
  | ⟨2, _⟩ => show win0_1.index t (2 : Fin 3) * 128 + 1 * q.val = (i 2).val; rw [e12, h2]; omega

/-- The column's block is the whole column at every point. -/
theorem w_block (c : Dev nD) (t : Fin cfg0.N) (k : Fin 128) :
    (iblk0 V c 2 t : Vec Ideal S128x1 .f32) (ix2 k (0 : Fin 1)) = (V c main_arg4 : S128x1.Idx → Elt Ideal .f32) (ix2 k (0 : Fin 1)) := by
  obtain ⟨-, -, -, -, -, e20, e21, -⟩ := idx_facts t
  unfold iblk0
  rw [View.read_apply]
  show V c main_arg4 _ = V c main_arg4 _
  congr 1
  funext a
  apply Fin.ext
  match a with
  | ⟨0, _⟩ => show win0_2.index t (0 : Fin 2) * 128 + 1 * k.val = k.val; rw [e20]; omega
  | ⟨1, _⟩ => show win0_2.index t (1 : Fin 2) * 1 + 1 * 0 = 0; rw [e21]

/-- The bias's block is the whole bias at every point. -/
theorem b_block (c : Dev nD) (t : Fin cfg0.N) (k q : Fin 128) :
    (iblk0 V c 3 t : Vec Ideal S128x128 .f32) (ix2 k q) = (V c main_arg5 : S128x128.Idx → Elt Ideal .f32) (ix2 k q) := by
  obtain ⟨-, -, -, -, -, -, -, e30, e31, -⟩ := idx_facts t
  unfold iblk0
  rw [View.read_apply]
  show V c main_arg5 _ = V c main_arg5 _
  congr 1
  funext a
  apply Fin.ext
  match a with
  | ⟨0, _⟩ => show win0_3.index t (0 : Fin 2) * 128 + 1 * k.val = k.val; rw [e30]; omega
  | ⟨1, _⟩ => show win0_3.index t (1 : Fin 2) * 128 + 1 * q.val = q.val; rw [e31]; omega

/-- An index of the result array is in point t's block iff each coordinate is in the block's range on its axis. -/
theorem mem_blk (t : Fin cfg0.N) (i : S65536x128.Idx) :
    i ∈ ((cfg0.win 4).blk t).view.set ↔ ∀ a : Fin 2, win0_4.index t a * S2048x128.size a ≤ (i a).val ∧ (i a).val < win0_4.index t a * S2048x128.size a + S2048x128.size a := by
  show i ∈ ((View.whole main_v1).slice (win0_4.rect t)).set ↔ _
  rw [View.set_slice_whole, Rect.mem_set_unit]
  exact Iff.rfl

/-- Every row lies in the block of the point numbered by its row block. -/
theorem cover (i : S65536x128.Idx) : ∃ t : Fin cfg0.N, (cfg0.win 4).flush t = true ∧ i ∈ ((cfg0.win 4).blk t).view.set := by
  have hi0 : (i 0).val < 65536 := (i 0).isLt
  have hi1 : (i 1).val < 128 := (i 1).isLt
  have hN : cfg0.N = 32 := N_0
  refine ⟨⟨(i 0).val / 2048, by rw [hN]; omega⟩, flush0_4 _, ?_⟩
  rw [mem_blk]
  obtain ⟨-, -, -, -, -, -, -, -, -, e40, e41⟩ := idx_facts ⟨(i 0).val / 2048, by rw [hN]; omega⟩
  intro a
  match a with
  | ⟨0, _⟩ => show win0_4.index _ (0 : Fin 2) * 2048 ≤ (i 0).val ∧ (i 0).val < win0_4.index _ (0 : Fin 2) * 2048 + 2048; rw [e40]; show (i 0).val / 2048 * 2048 ≤ (i 0).val ∧ (i 0).val < (i 0).val / 2048 * 2048 + 2048; omega
  | ⟨1, _⟩ => show win0_4.index _ (1 : Fin 2) * 128 ≤ (i 1).val ∧ (i 1).val < win0_4.index _ (1 : Fin 2) * 128 + 128; rw [e41]; omega

/-- The payload at any index of the block, the entry's coordinates read off the index. -/
theorem payload_at (v0 : Vec Ideal S1x1x128 .f32) (v3 : Vec Ideal S128x1 .f32) (v7 : Vec Ideal S128x128 .f32) (v11 : Vec Ideal S2048x128 .f32)
    (y : S2048x128.Idx) :
    k0_pay1 v0 v3 v7 v11 y
      = ∑ k : Fin 128, v11 (ix2 (⟨(y 0).val, idx2_lt0 y⟩ : Fin 2048) k)
          * max (v3 (ix2 k (0 : Fin 1)) * v0 (ix3 (0 : Fin 1) (0 : Fin 1) (⟨(y 1).val, idx2_lt1 y⟩ : Fin 128)) + v7 (ix2 k (⟨(y 1).val, idx2_lt1 y⟩ : Fin 128)))
              (Ideal.ofBits .f32 0x00000000#32) := by
  obtain ⟨p, q, rfl⟩ : ∃ (p : Fin 2048) (q : Fin 128), y = ix2 p q := ⟨y 0, y 1, eq_ix2 y⟩
  exact dynweight_entry v0 v3 v7 v11 p q

/-- WHAT POINT t WRITES BACK is block t of the layer's function of the arrays as the region finds them, the
    meta-embeddings through their reshaped copy (`hE`). -/
theorem flushed_eq (c : Dev nD) (E : Vec Ideal S32x128 .f32)
    (hE : ∀ i : S32x1x128.Idx, (V c main_v0 : S32x1x128.Idx → Elt Ideal .f32) i = E (ix2 (⟨(i 0).val, (i 0).isLt⟩ : Fin 32) (⟨(i 2).val, (i 2).isLt⟩ : Fin 128)))
    (t : Fin cfg0.N) :
    (dat0 (F := Ideal) V c).flushed 4 t = ((cfg0.win 4).blk t).view.read (Elt Ideal)
      (dynArr (V c main_arg0) E (V c main_arg4) (V c main_arg5)) := by
  show (cfg0.win 4).cut (grid0.coords t) ((dat0 (F := Ideal) V c).after 4 t) = _
  rw [after0_4]
  unfold out0_4
  rw [View.canon_unit_zero origin2]
  simp only [View.ld_unit_zero (S := S2048x128) origin2, View.ld_unit_zero (S := S1x1x128) origin3,
    View.ld_unit_zero (S := S128x1) origin2, View.ld_unit_zero (S := S128x128) origin2]
  obtain ⟨-, -, -, -, -, -, -, -, -, e40, e41⟩ := idx_facts t
  have hN : cfg0.N = 32 := N_0
  have ht : t.val < 32 := by have := t.isLt; omega
  funext y
  show k0_pay1 (F := Ideal) (iblk0 V c 1 t) (iblk0 V c 2 t) (iblk0 V c 3 t) (iblk0 V c 0 t) y
    = dynArr (V c main_arg0) E (V c main_arg4) (V c main_arg5) (((cfg0.win 4).blk t).view.emb y)
  refine (payload_at (iblk0 V c 1 t) (iblk0 V c 2 t) (iblk0 V c 3 t) (iblk0 V c 0 t) y).trans ?_
  have hy0 : (y 0).val < 2048 := (y 0).isLt
  have hy1 : (y 1).val < 128 := (y 1).isLt
  have h40 : ((((cfg0.win 4).blk t).view.emb y) 0).val = 2048 * t.val + (y 0).val := by
    show win0_4.index t (0 : Fin 2) * 2048 + 1 * (y 0).val = _; rw [e40]; omega
  have h41 : ((((cfg0.win 4).blk t).view.emb y) 1).val = (y 1).val := by
    show win0_4.index t (1 : Fin 2) * 128 + 1 * (y 1).val = _; rw [e41]; omega
  generalize ((cfg0.win 4).blk t).view.emb y = i at h40 h41 ⊢
  unfold dynArr dynEntry
  refine Finset.sum_congr rfl fun k _ => ?_
  have a0 := x_block V c t ⟨(y 0).val, hy0⟩ k (ix2 (⟨(i 0).val, idx2_lt0 i⟩ : Fin 65536) k) h40 rfl
  have a1 := e_block V c t ⟨(y 1).val, hy1⟩ (ix3 (⟨t.val, ht⟩ : Fin 32) (0 : Fin 1) (⟨(y 1).val, hy1⟩ : Fin 128)) rfl rfl
  have a2 := w_block V c t k
  have a3 := b_block V c t k ⟨(y 1).val, hy1⟩
  have hq : (⟨(i 1).val, idx2_lt1 i⟩ : Fin 128) = ⟨(y 1).val, hy1⟩ := Fin.ext h41
  have hg : (⟨(i 0).val / 2048, by have := idx2_lt0 i; omega⟩ : Fin 32) = ⟨t.val, ht⟩ := Fin.ext (by show (i 0).val / 2048 = t.val; omega)
  rw [a0, a1, a2, a3, hE, hq, hg]

/-- THE ARRAY THE REGION LEAVES is the layer's function of the arrays it finds: the 32 row blocks tile the result. -/
theorem region0_blocks (c : Dev nD) (E : Vec Ideal S32x128 .f32)
    (hE : ∀ i : S32x1x128.Idx, (V c main_v0 : S32x1x128.Idx → Elt Ideal .f32) i = E (ix2 (⟨(i 0).val, (i 0).isLt⟩ : Fin 32) (⟨(i 2).val, (i 2).isLt⟩ : Fin 128))) :
    (dat0 (F := Ideal) V c).arrAt 4 cfg0.N = dynArr (V c main_arg0) E (V c main_arg4) (V c main_arg5) :=
  (dat0 (F := Ideal) V c).arrAt_eq_of_cover 4 _ (fun t _ => flushed_eq V c E hE t) cover

end Cert.Bridge

end
-- ==== Proof.DynWeightRef.lean ====
/-
  The reference's dynamic-weight stage read at an index. The reference broadcasts the column, the meta-embeddings and
  the bias to one 32 × 128 × 128 stack of weights W_g(k, j) = max (w(k, 0) · e(g, j) + b(k, j)) 0, cuts the node
  features into 32 slabs of 2048 rows, multiplies slab g by W_g and joins the slabs again. Entry (n, j) of the result
  is therefore entry (n mod 2048, j) of slab n / 2048: the sum over k of x(n, k) · W_{n / 2048}(k, j) — the layer's one
  function `dynArr`.
-/
import proofs.«118539_j77197742178636_1_alg».proof.Proof.RefReadP
import proofs.«118539_j77197742178636_1_alg».proof.Proof.DynWeightSpec

noncomputable section

namespace Cert.Bridge

open Idealize.ShloMosaic Idealize.ShloMosaic.ValueIdx
open Cert.ReferenceIdeal Cert.ReferenceIdeal.ReadP
open scoped BigOperators

/-- The reference's stage is the layer's function of the four arrays. -/
theorem ref_dynweight (x : (⟨S65536x128, .f32⟩ : BufTy).Contents (Elt Ideal)) (e : (⟨S32x128, .f32⟩ : BufTy).Contents (Elt Ideal))
    (w : (⟨S128x1, .f32⟩ : BufTy).Contents (Elt Ideal)) (b : (⟨S128x128, .f32⟩ : BufTy).Contents (Elt Ideal)) :
    val_main_v11 (F := Ideal) x e w b = dynArr x e w b := by
  funext i
  obtain ⟨n, j, rfl⟩ : ∃ (n : Fin 65536) (j : Fin 128), i = ix2 n j := ⟨i 0, i 1, eq_ix2 i⟩
  have hn : n.val < 65536 := n.isLt
  have hj : j.val < 128 := j.isLt
  rw [dynArr_ix2, val_main_v11_apply, val_main_v10_apply]
  unfold dynEntry
  refine Finset.sum_congr rfl fun k _ => ?_
  have hk : k.val < 128 := k.isLt
  rw [val_main_v9_apply, val_main_v8_apply, val_main_v7_apply, val_main_v4_apply, val_main_v2_apply, val_main_v0_apply,
    val_main_v3_apply, val_main_v1_apply, val_main_v6_apply, val_main_v5_apply, val_main_call0_v0_apply, val_main_call0_cst_apply]
  have ex : idx_main_v9 (lidx_main_v10 (idx_main_v11 (ix2 n j)) k) = ix2 n k := funext fun a => Fin.ext (by
    match a with
    | ⟨0, _⟩ => show ((((n.val * 128 + j.val) / 262144) * 2048 + (n.val * 128 + j.val) / 128 % 2048) * 128 + k.val) / 128 = n.val; omega
    | ⟨1, _⟩ => show ((((n.val * 128 + j.val) / 262144) * 2048 + (n.val * 128 + j.val) / 128 % 2048) * 128 + k.val) % 128 = k.val; omega)
  have ew : idx_main_v0 (idx_main_v2 (ridx_main_v10 (idx_main_v11 (ix2 n j)) k)) = ix2 k (0 : Fin 1) := funext fun a => Fin.ext (by
    match a with
    | ⟨0, _⟩ => rfl
    | ⟨1, _⟩ => rfl)
  have ee : idx_main_v1 (idx_main_v3 (ridx_main_v10 (idx_main_v11 (ix2 n j)) k)) = ix2 (⟨n.val / 2048, by omega⟩ : Fin 32) j := funext fun a => Fin.ext (by
    match a with
    | ⟨0, _⟩ => show (n.val * 128 + j.val) / 262144 = n.val / 2048; omega
    | ⟨1, _⟩ => show (n.val * 128 + j.val) % 128 = j.val; omega)
  have eb : idx_main_v5 (idx_main_v6 (ridx_main_v10 (idx_main_v11 (ix2 n j)) k)) = ix2 k j := funext fun a => Fin.ext (by
    match a with
    | ⟨0, _⟩ => rfl
    | ⟨1, _⟩ => show (n.val * 128 + j.val) % 128 = j.val; omega)
  rw [ex, ew, ee, eb]
  rfl

end Cert.Bridge

end
-- ==== Proof.DynWeightValue.lean ====
/-
  Region 0 of the idealized kernel against the reference's dynamic-weight stage: the array the region leaves and the
  reference's stage are the same function of the node features, the meta-embeddings, the column and the bias —
  out(n, j) = ∑ k, x(n, k) · max (w(k, 0) · e(n / 2048, j) + b(k, j)) 0 — the kernel block by block over its 32 row
  blocks, the reference through its batched product over 32 slabs of 2048 rows.
-/
import proofs.«118539_j77197742178636_1_alg».proof.Proof.DynWeightBlocks
import proofs.«118539_j77197742178636_1_alg».proof.Proof.DynWeightRef

noncomputable section

namespace Cert.Bridge

open Idealize.ShloMosaic Idealize.ShloMosaic.TcCoe Idealize.SL.Sem

/-- THE REGION'S VALUE: at entry contents `V` whose reshaped meta-embeddings are `E` (`hE`), the result array of
    region 0 after its 32 points is the reference's stage of the four arrays. -/
theorem region0_value
    (V : (c : Dev Cert.KernelIdeal.nD) → (b : Ref Cert.KernelIdeal.sig .tc) → Buf (Elt Ideal) ((c : Thread Cert.KernelIdeal.nD Cert.KernelIdeal.τ).loc b))
    (c : Dev Cert.KernelIdeal.nD)
    (E : (⟨Cert.ReferenceIdeal.S32x128, .f32⟩ : BufTy).Contents (Elt Ideal))
    (hE : ∀ i : Cert.KernelIdeal.S32x1x128.Idx, V c Cert.KernelIdeal.main_v0 i
            = E (fun a => match a with | ⟨0, _⟩ => ⟨(i 0).val, (i 0).isLt⟩ | ⟨1, _⟩ => ⟨(i 2).val, (i 2).isLt⟩)) :
    (Cert.KernelIdeal.Gen.dat0 (F := Ideal) V c).arrAt 4 Cert.KernelIdeal.cfg0.N
      = Cert.ReferenceIdeal.ReadP.val_main_v11 (F := Ideal) (V c Cert.KernelIdeal.main_arg0) E (V c Cert.KernelIdeal.main_arg4) (V c Cert.KernelIdeal.main_arg5) :=
  (region0_blocks V c E (fun i => (hE i).trans (congrArg E (funext fun a => by
    match a with
    | ⟨0, _⟩ => rfl
    | ⟨1, _⟩ => rfl)))).trans
    (ref_dynweight (V c Cert.KernelIdeal.main_arg0) E (V c Cert.KernelIdeal.main_arg4) (V c Cert.KernelIdeal.main_arg5)).symm

end Cert.Bridge

end
-- ==== Proof.FinalSpec.lean ====
/-
  The row-wise log-softmax of logits `h · wT + b`, stated once, index by index, over the literal extents of this
  program: 65536 rows, a contraction over 128 and 40 columns. A row `L` of 40 logits is shifted by its maximum
  `rowMax L` (the fold of `max` from the word `0xFF800000`, the format's -∞), and the logarithm of the sum of the
  exponentials of the shifted row is subtracted. Both programs are read to this one expression.
-/
import Idealize.ShloMosaic.PureOps.Ideal
import Idealize.ShloMosaic.Lib.ValueIdx
import Mathlib.Data.Finset.Fold

noncomputable section

namespace Cert.Bridge

open Idealize.ShloMosaic Idealize.ShloMosaic.ValueIdx

/-- The maximum of a row of 40 extended reals, folded from the extended real the word `0xFF800000` denotes. -/
def rowMax (L : Fin 40 → EReal) : EReal :=
  (Finset.univ : Finset (Fin 40)).fold max (Ideal.ofBits .f32 0xFF800000#32) L

/-- The log-softmax of a row at column `q`: the shifted entry minus the logarithm of the sum of the exponentials of
    the shifted row. -/
def lsmRow (L : Fin 40 → EReal) (q : Fin 40) : EReal :=
  (L q - rowMax L) - Ideal.log (∑ j : Fin 40, Ideal.exp (L j - rowMax L))

/-- Row `n` of the logits `h · wT + b`. -/
def logitRow (h : (⟨2, ![65536, 128]⟩ : Shape).Idx → EReal) (wT : (⟨2, ![128, 40]⟩ : Shape).Idx → EReal)
    (b : (⟨1, ![40]⟩ : Shape).Idx → EReal) (n : Fin 65536) (j : Fin 40) : EReal :=
  (∑ k : Fin 128, h (ix2 n k) * wT (ix2 k j)) + b (ix1 j)

/-- The whole result: the log-softmax of every row of the logits. -/
def lsm (h : (⟨2, ![65536, 128]⟩ : Shape).Idx → EReal) (wT : (⟨2, ![128, 40]⟩ : Shape).Idx → EReal)
    (b : (⟨1, ![40]⟩ : Shape).Idx → EReal) : (⟨2, ![65536, 40]⟩ : Shape).Idx → EReal :=
  fun i => lsmRow (logitRow h wT b ⟨(i 0).val, idx2_lt0 i⟩) ⟨(i 1).val, idx2_lt1 i⟩

/-- At an index given by its coordinates. -/
theorem lsm_ix2 (h : (⟨2, ![65536, 128]⟩ : Shape).Idx → EReal) (wT : (⟨2, ![128, 40]⟩ : Shape).Idx → EReal)
    (b : (⟨1, ![40]⟩ : Shape).Idx → EReal) (n : Fin 65536) (q : Fin 40) :
    lsm h wT b (ix2 n q) = lsmRow (logitRow h wT b n) q := rfl

/-- Joining a fold of `max` once more with the value it was folded from changes nothing. -/
theorem max_fold_max_self {ι : Type*} (s : Finset ι) (c : EReal) (f : ι → EReal) :
    max c (s.fold max c f) = s.fold max c f :=
  max_eq_right ((Finset.le_fold_max c).mpr (Or.inl le_rfl))

end Cert.Bridge

end
-- ==== Proof.FinalLayout.lean ====
/-
  Two layout operations read at an index given by its coordinates, for a column kept after a reduction over the
  rows' entries: a vector `[a]` cast to the column `[a, 1]`, and a column `[a, 1]` broadcast over `b` columns.
-/
import Idealize.ShloMosaic.Lib.ValueLayout

namespace Cert.Bridge

open Idealize.ShloMosaic Idealize.ShloMosaic.ValueIdx

variable {α : Type}

/-- An `[a]` array cast to `[a, 1]` reads, at `(p, u)`, the operand at `p`, whatever the unit coordinate `u`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` array broadcast to `[a, b]` reads, at `(p, c)`, the operand's row `p`. -/
theorem broadcastCol_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Bridge
-- ==== Proof.FinalPayload.lean ====
/-
  The last kernel's body at an index. The value it stores is the row-wise log-softmax of a block of logits: the block
  of the hidden state times the transposed weight, plus the bias row. Here the stored value is named as the
  composition of its stages (`logitsBlk`, `shiftedBlk`, `lseBlk`), each stage is read at `(p, q)` — the product as a
  sum over the 128 contracted coordinates, the two lane reductions as the fold of `max` and the sum over the row's 40
  entries, the kept columns through the cast `[4096] → [4096, 1]` and the broadcast over the columns —, and the whole
  is `lsmRow` of the row of logits.
-/
import proofs.«118539_j77197742178636_1_alg».proof.Proof.Gen.KernelIdeal.Skeleton
import proofs.«118539_j77197742178636_1_alg».proof.Proof.FinalSpec
import proofs.«118539_j77197742178636_1_alg».proof.Proof.FinalLayout
import Idealize.ShloMosaic.PureOps.Ideal.Laws

noncomputable section

namespace Cert.Bridge

open Idealize.ShloMosaic Idealize.ShloMosaic.ValueIdx
open Cert.KernelIdeal Cert.KernelIdeal.Facts₀

/-! ## The product at an index -/

theorem dot4_lhs0 (i : S4096x40.Idx) (r : dot_S4096x128_S128x40_S4096x40_1_0_0_1_n_n.contr.Idx) :
    (dot_S4096x128_S128x40_S4096x40_1_0_0_1_n_n.lhsIdx i r 0).val = (i 0).val := by
  unfold DotDims.lhsIdx
  rw [dif_neg (show ¬(0 : Fin S4096x128.rank) ∈ dot_S4096x128_S128x40_S4096x40_1_0_0_1_n_n.lhsBatch by decide),
    dif_pos (show (0 : Fin S4096x128.rank) ∈ dot_S4096x128_S128x40_S4096x40_1_0_0_1_n_n.lhsNonContracting by decide)]
  rfl

theorem dot4_rhs1 (i : S4096x40.Idx) (r : dot_S4096x128_S128x40_S4096x40_1_0_0_1_n_n.contr.Idx) :
    (dot_S4096x128_S128x40_S4096x40_1_0_0_1_n_n.rhsIdx i r 1).val = (i 1).val := by
  unfold DotDims.rhsIdx
  rw [dif_neg (show ¬(1 : Fin S128x40.rank) ∈ dot_S4096x128_S128x40_S4096x40_1_0_0_1_n_n.rhsBatch by decide),
    dif_pos (show (1 : Fin S128x40.rank) ∈ dot_S4096x128_S128x40_S4096x40_1_0_0_1_n_n.rhsNonContracting by decide)]
  rfl

/-- The body's product into the zero block, at `(p, q)`: the sum over the contracted coordinate. -/
theorem matmul_block (lhs : FVec Ideal S4096x128 .bf16) (rhs : FVec Ideal S128x40 .bf16) (p : Fin 4096) (q : Fin 40) :
    matmul dot_S4096x128_S128x40_S4096x40_1_0_0_1_n_n none lhs rhs (constant (F := Ideal) S4096x40 .f32 0x00000000#32) (ix2 p q)
      = ∑ k : Fin 128, lhs (ix2 p k) * rhs (ix2 k q) := by
  refine (Ideal.matmul_constant_zero_apply dot_S4096x128_S128x40_S4096x40_1_0_0_1_n_n none lhs rhs (ix2 p q)).trans ?_
  rw [← Equiv.sum_comp (ValueIdx.contrEquiv1 dot_S4096x128_S128x40_S4096x40_1_0_0_1_n_n 128 rfl rfl).symm]
  refine Finset.sum_congr rfl fun k _ => ?_
  have hk := ValueIdx.contrEquiv1_symm_val dot_S4096x128_S128x40_S4096x40_1_0_0_1_n_n 128 rfl rfl k
  have el : dot_S4096x128_S128x40_S4096x40_1_0_0_1_n_n.lhsIdx (ix2 p q)
      ((ValueIdx.contrEquiv1 dot_S4096x128_S128x40_S4096x40_1_0_0_1_n_n 128 rfl rfl).symm k) = ix2 p k :=
    funext fun a => Fin.ext (by
      match a with
      | ⟨0, _⟩ => exact dot4_lhs0 _ _
      | ⟨1, _⟩ => exact (dot_S4096x128_S128x40_S4096x40_1_0_0_1_n_n.lhsIdx_val_of_single rfl _ _).trans hk)
  have er : dot_S4096x128_S128x40_S4096x40_1_0_0_1_n_n.rhsIdx (ix2 p q)
      ((ValueIdx.contrEquiv1 dot_S4096x128_S128x40_S4096x40_1_0_0_1_n_n 128 rfl rfl).symm k) = ix2 k q :=
    funext fun a => Fin.ext (by
      match a with
      | ⟨0, _⟩ => exact (dot_S4096x128_S128x40_S4096x40_1_0_0_1_n_n.rhsIdx_val_of_single rfl _ _).trans hk
      | ⟨1, _⟩ => exact dot4_rhs1 _ _)
  rw [el, er]

/-! ## The two lane reductions at a row -/

/-- The row maximum the body takes: the fold of `max` over the row's 40 entries. -/
theorem rowMax_block (v : FVec Ideal S4096x40 .f32) (hr : S4096x40.Reduces [1] S4096) (hφ : FKind.Formats .f32)
    (hacc : (0xFF800000#32 : BitVec FTy.f32.bits) = FKind.maximumf.neutral .f32 hφ) (p : Fin 4096) :
    multiReduction .maximumf [1] S4096 v 0xFF800000#32 hr hφ hacc (ix1 p) = rowMax (fun j => v (ix2 p j)) := by
  refine (Ideal.multiReduction_maximumf_single v _ hr hφ hacc (ix1 p)).trans ?_
  have e : (v ∘ hr.lift (ix1 p)) = fun j : Fin 40 => v (ix2 p j) :=
    funext fun j => congrArg v (funext fun a => Fin.ext (by match a with | ⟨0, _⟩ => rfl | ⟨1, _⟩ => rfl))
  rw [e]
  rfl

/-- The row sum the body takes: the sum over the row's 40 entries. -/
theorem rowSum_block (v : FVec Ideal S4096x40 .f32) (hr : S4096x40.Reduces [1] S4096) (hφ : FKind.Formats .f32)
    (hacc : (0x00000000#32 : BitVec FTy.f32.bits) = FKind.add.neutral .f32 hφ) (p : Fin 4096) :
    multiReduction .add [1] S4096 v 0x00000000#32 hr hφ hacc (ix1 p) = ∑ j : Fin 40, v (ix2 p j) := by
  refine (Ideal.multiReduction_add_single v _ hr hφ hacc (ix1 p)).trans ?_
  exact Finset.sum_congr rfl fun j _ =>
    congrArg v (funext fun a => Fin.ext (by match a with | ⟨0, _⟩ => rfl | ⟨1, _⟩ => rfl))

/-! ## The stages of the stored value -/

/-- The block of logits: the block of the hidden state times the transposed weight, plus the bias row. -/
def logitsBlk (x0 : FVec Ideal S4096x128 .f32) (x1 : FVec Ideal S128x40 .f32) (x2 : FVec Ideal S1x40 .f32) :
    FVec Ideal S4096x40 .f32 :=
  addf (matmul dot_S4096x128_S128x40_S4096x40_1_0_0_1_n_n none
      (truncf .bf16 (shapeCast S4096x128 x0 shapeCasts_S4096x128_S4096x128) bitsLt_bf16_f32)
      (truncf .bf16 (shapeCast S128x40 x1 shapeCasts_S128x40_S128x40) bitsLt_bf16_f32)
      (constant S4096x40 .f32 0x00000000#32))
    (broadcastTo S4096x40 (shapeCast S1x40 x2 shapeCasts_S1x40_S1x40) broadcasts_S1x40_S4096x40)

/-- A block minus its rows' maxima. -/
def shiftedBlk (v : FVec Ideal S4096x40 .f32) : FVec Ideal S4096x40 .f32 :=
  subf v (broadcastTo S4096x40 (shapeCast S4096x1
    (multiReduction .maximumf [1] S4096 v 0xFF800000#32 reduces_S4096x40_S4096 (.inl rfl) rfl)
    shapeCasts_S4096_S4096x1) broadcasts_S4096x1_S4096x40)

/-- The logarithm of each row's sum of exponentials, spread over the row. -/
def lseBlk (v : FVec Ideal S4096x40 .f32) : FVec Ideal S4096x40 .f32 :=
  broadcastTo S4096x40 (log (shapeCast S4096x1
    (multiReduction .add [1] S4096 (exp v) 0x00000000#32 reduces_S4096x40_S4096 (.inl rfl) rfl)
    shapeCasts_S4096_S4096x1)) broadcasts_S4096x1_S4096x40

/-- The stored value is these stages composed. -/
theorem k4_pay1_eq (x0 : Vec Ideal S4096x128 .f32) (x1 : Vec Ideal S128x40 .f32) (x2 : Vec Ideal S1x40 .f32) :
    Gen.k4_pay1 (F := Ideal) x0 x1 x2
      = subf (shiftedBlk (logitsBlk x0 x1 x2)) (lseBlk (shiftedBlk (logitsBlk x0 x1 x2))) := rfl

/-! ## Each stage at an index -/

theorem logitsBlk_apply (x0 : FVec Ideal S4096x128 .f32) (x1 : FVec Ideal S128x40 .f32) (x2 : FVec Ideal S1x40 .f32)
    (p : Fin 4096) (q : Fin 40) :
    logitsBlk x0 x1 x2 (ix2 p q) = (∑ k : Fin 128, x0 (ix2 p k) * x1 (ix2 k q)) + x2 (ix2 (0 : Fin 1) q) := by
  unfold logitsBlk
  rw [addf_apply, matmul_block, broadcastTo_1b_ab_apply]
  simp only [shapeCast_self, truncf_apply]

theorem shiftedBlk_apply (v : FVec Ideal S4096x40 .f32) (p : Fin 4096) (j : Fin 40) :
    shiftedBlk v (ix2 p j) = v (ix2 p j) - rowMax (fun j' => v (ix2 p j')) := by
  unfold shiftedBlk
  rw [subf_apply, broadcastCol_a1_ab_apply, shapeCast_a_a1_apply]
  exact congrArg (v (ix2 p j) - ·) (rowMax_block v _ _ _ p)

theorem lseBlk_apply (v : FVec Ideal S4096x40 .f32) (p : Fin 4096) (q : Fin 40) :
    lseBlk v (ix2 p q) = Ideal.log (∑ j : Fin 40, Ideal.exp (v (ix2 p j))) := by
  unfold lseBlk
  rw [broadcastCol_a1_ab_apply]
  show Ideal.log (shapeCast S4096x1 (multiReduction .add [1] S4096 (exp v) 0x00000000#32 reduces_S4096x40_S4096 (.inl rfl) rfl)
    shapeCasts_S4096_S4096x1 (ix2 p (0 : Fin 1))) = _
  rw [shapeCast_a_a1_apply]
  exact congrArg Ideal.log (rowSum_block (exp v) _ _ _ p)

/-- THE STORED VALUE AT `(p, q)`: the log-softmax, at column `q`, of row `p` of the logits the body forms from its
    three loaded blocks. -/
theorem k4_pay1_apply (x0 : FVec Ideal S4096x128 .f32) (x1 : FVec Ideal S128x40 .f32) (x2 : FVec Ideal S1x40 .f32)
    (p : Fin 4096) (q : Fin 40) :
    Gen.k4_pay1 (F := Ideal) x0 x1 x2 (ix2 p q)
      = lsmRow (fun j => (∑ k : Fin 128, x0 (ix2 p k) * x1 (ix2 k j)) + x2 (ix2 (0 : Fin 1) j)) q := by
  rw [k4_pay1_eq, subf_apply, lseBlk_apply]
  simp only [shiftedBlk_apply, logitsBlk_apply]
  rfl

end Cert.Bridge

end
-- ==== Proof.FinalRef.lean ====
/-
  The reference's last stage at an index. `lsmRef h wT b` is spelt with the host's operations; read at `(n, j)`, the
  product is the sum over the 128 contracted coordinates, the bias reaches every row through its two broadcasts, the
  row maximum is the fold of `max` over the row's 40 entries (joined once more with the value it was folded from, which
  changes nothing), the row sum is the zero word's value plus the sum over the row's 40 entries, and the two kept
  columns come back through their broadcasts: the whole is `lsm h wT b`.
-/
import proofs.«118539_j77197742178636_1_alg».proof.Proof.LogSoftmaxRef
import proofs.«118539_j77197742178636_1_alg».proof.Proof.FinalSpec
import Idealize.ShloMosaic.Lib.Pipeline.Value
import Idealize.ShloMosaic.PureOps.Ideal.Laws

noncomputable section

namespace Cert.Bridge

open Idealize.ShloMosaic Idealize.ShloMosaic.ValueIdx
open Cert.ReferenceIdeal Cert.ReferenceIdeal.Facts₀

/-! ## The product at an index -/

theorem dotRef_lhs0 (i : S65536x40.Idx) (r : dot_S65536x128_S128x40_S65536x40_1_0_0_1_n_n.contr.Idx) :
    (dot_S65536x128_S128x40_S65536x40_1_0_0_1_n_n.lhsIdx i r 0).val = (i 0).val := by
  unfold DotDims.lhsIdx
  rw [dif_neg (show ¬(0 : Fin S65536x128.rank) ∈ dot_S65536x128_S128x40_S65536x40_1_0_0_1_n_n.lhsBatch by decide),
    dif_pos (show (0 : Fin S65536x128.rank) ∈ dot_S65536x128_S128x40_S65536x40_1_0_0_1_n_n.lhsNonContracting by decide)]
  rfl

theorem dotRef_rhs1 (i : S65536x40.Idx) (r : dot_S65536x128_S128x40_S65536x40_1_0_0_1_n_n.contr.Idx) :
    (dot_S65536x128_S128x40_S65536x40_1_0_0_1_n_n.rhsIdx i r 1).val = (i 1).val := by
  unfold DotDims.rhsIdx
  rw [dif_neg (show ¬(1 : Fin S128x40.rank) ∈ dot_S65536x128_S128x40_S65536x40_1_0_0_1_n_n.rhsBatch by decide),
    dif_pos (show (1 : Fin S128x40.rank) ∈ dot_S65536x128_S128x40_S65536x40_1_0_0_1_n_n.rhsNonContracting by decide)]
  rfl

/-- The host's product at `(n, j)`: the sum over the contracted coordinate. -/
theorem dotRef_apply (h : FVec Ideal S65536x128 .f32) (wT : FVec Ideal S128x40 .f32) (n : Fin 65536) (j : Fin 40) :
    Host.dotGeneral dot_S65536x128_S128x40_S65536x40_1_0_0_1_n_n none h wT (ix2 n j) = ∑ k : Fin 128, h (ix2 n k) * wT (ix2 k j) := by
  simp only [Host.dotGeneral]
  rw [Ideal.dotGeneral_apply, ← Equiv.sum_comp (ValueIdx.contrEquiv1 dot_S65536x128_S128x40_S65536x40_1_0_0_1_n_n 128 rfl rfl).symm]
  refine Finset.sum_congr rfl fun k _ => ?_
  have hk := ValueIdx.contrEquiv1_symm_val dot_S65536x128_S128x40_S65536x40_1_0_0_1_n_n 128 rfl rfl k
  have el : dot_S65536x128_S128x40_S65536x40_1_0_0_1_n_n.lhsIdx (ix2 n j) ((ValueIdx.contrEquiv1 dot_S65536x128_S128x40_S65536x40_1_0_0_1_n_n 128 rfl rfl).symm k) = ix2 n k :=
    funext fun a => Fin.ext (by
      match a with
      | ⟨0, _⟩ => exact dotRef_lhs0 _ _
      | ⟨1, _⟩ => exact (dot_S65536x128_S128x40_S65536x40_1_0_0_1_n_n.lhsIdx_val_of_single rfl _ _).trans hk)
  have er : dot_S65536x128_S128x40_S65536x40_1_0_0_1_n_n.rhsIdx (ix2 n j) ((ValueIdx.contrEquiv1 dot_S65536x128_S128x40_S65536x40_1_0_0_1_n_n 128 rfl rfl).symm k) = ix2 k j :=
    funext fun a => Fin.ext (by
      match a with
      | ⟨0, _⟩ => exact (dot_S65536x128_S128x40_S65536x40_1_0_0_1_n_n.rhsIdx_val_of_single rfl _ _).trans hk
      | ⟨1, _⟩ => exact dotRef_rhs1 _ _)
  rw [el, er]

/-! ## The broadcasts at an index -/

/-- The bias, made a row and spread over the rows, reads the bias at the column. -/
theorem biasRef_apply (b : FVec Ideal S40 .f32) (n : Fin 65536) (j : Fin 40) :
    broadcastInDim S65536x40 ![0, 1] bcast_S1x40_S65536x40_0_1 (broadcastInDim S1x40 ![1] bcast_S40_S1x40_1 b) (ix2 n j)
      = b (ix1 j) := by
  rw [broadcastInDim_apply ![0, 1] bcast_S1x40_S65536x40_0_1 _ (ix2 n j) (ix2 (0 : Fin 1) j) (fun a => by
    match a with
    | ⟨0, _⟩ => rfl
    | ⟨1, _⟩ => show j.val = if (40 : Nat) = 1 then 0 else j.val; rw [if_neg (by decide)])]
  exact broadcastInDim_apply ![1] bcast_S40_S1x40_1 b (ix2 (0 : Fin 1) j) (ix1 j) (fun a => by
    match a with
    | ⟨0, _⟩ => show j.val = if (40 : Nat) = 1 then 0 else j.val; rw [if_neg (by decide)])

/-- A column spread over the 40 columns reads the column at the row. -/
theorem spreadRef_apply {α : Type} (v : S65536x1.Idx → α) (n : Fin 65536) (j : Fin 40) :
    broadcastInDim S65536x40 ![0, 1] bcast_S65536x1_S65536x40_0_1 v (ix2 n j) = v (ix2 n (0 : Fin 1)) :=
  broadcastInDim_apply ![0, 1] bcast_S65536x1_S65536x40_0_1 v (ix2 n j) (ix2 n (0 : Fin 1)) (fun a => by
    match a with
    | ⟨0, _⟩ => show n.val = if (65536 : Nat) = 1 then 0 else n.val; rw [if_neg (by decide)]
    | ⟨1, _⟩ => rfl)

/-- A vector of one entry per row, made a column, reads the row's entry. -/
theorem columnRef_apply {α : Type} (r : S65536.Idx → α) (n : Fin 65536) (u : Fin 1) :
    broadcastInDim S65536x1 ![0] bcast_S65536_S65536x1_0 r (ix2 n u) = r (ix1 n) :=
  broadcastInDim_apply ![0] bcast_S65536_S65536x1_0 r (ix2 n u) (ix1 n) (fun a => by
    match a with
    | ⟨0, _⟩ => show n.val = if (65536 : Nat) = 1 then 0 else n.val; rw [if_neg (by decide)])

/-! ## The host's exponential and logarithm at an index -/

theorem hostLog_apply {s : Shape} (x : FVec Ideal s .f32) (i : s.Idx) : Host.log x i = Ideal.log (x i) := rfl

theorem hostExp_apply {s : Shape} (x : FVec Ideal s .f32) (i : s.Idx) : Host.exp x i = Ideal.exp (x i) := rfl

/-! ## The two reductions at a row -/

/-- The host's row maximum, joined once more with the broadcast value it was folded from: the fold of `max` over
    the row's 40 entries. -/
theorem rowMaxRef_apply (L : FVec Ideal S65536x40 .f32) (n : Fin 65536) :
    maximumf (broadcastInDim S65536 ![] bcast_S_S65536 (constant (F := Ideal) S_ .f32 0xFF800000#32))
      (Host.reduce FloatOps.maximumf L (constant (F := Ideal) S_ .f32 0xFF800000#32) reducesTo_S65536x40_S65536_d1 h_S_) (ix1 n)
      = rowMax (fun j => L (ix2 n j)) := by
  have hr : S65536x40.Reduces [1] S65536 := by decide
  rw [maximumf_apply, Host.reduce_eq_fold_single FloatOps.maximumf L _ reducesTo_S65536x40_S65536_d1 hr h_S_ (ix1 n)]
  have e : (L ∘ hr.lift (ix1 n)) = fun j : Fin 40 => L (ix2 n j) :=
    funext fun j => congrArg L (funext fun a => Fin.ext (by match a with | ⟨0, _⟩ => rfl | ⟨1, _⟩ => rfl))
  rw [e]
  exact max_fold_max_self _ _ _

/-- The host's row sum from the zero word: the sum over the row's 40 entries. -/
theorem rowSumRef_apply (E : FVec Ideal S65536x40 .f32) (n : Fin 65536) :
    Host.reduceAdd E (constant (F := Ideal) S_ .f32 0x00000000#32) reducesTo_S65536x40_S65536_d1 h_S_ (ix1 n)
      = ∑ j : Fin 40, E (ix2 n j) := by
  have hr : S65536x40.Reduces [1] S65536 := by decide
  simp only [Host.reduceAdd, Ideal.hostReduceAdd_def]
  rw [Ideal.hostReduceAdd_single reducesTo_S65536x40_S65536_d1 hr]
  show Ideal.ofBits .f32 0x00000000#32 + _ = _
  rw [Ideal.ofBits_zero_f32, zero_add]
  exact Finset.sum_congr rfl fun j _ =>
    congrArg E (funext fun a => Fin.ext (by match a with | ⟨0, _⟩ => rfl | ⟨1, _⟩ => rfl))

/-! ## The stages of the reference's term, and each at an index -/

/-- The logits: the product plus the bias spread over the rows. -/
def logitsRef (h : FVec Ideal S65536x128 .f32) (wT : FVec Ideal S128x40 .f32) (b : FVec Ideal S40 .f32) :
    FVec Ideal S65536x40 .f32 :=
  addf (Host.dotGeneral dot_S65536x128_S128x40_S65536x40_1_0_0_1_n_n none h wT)
    (broadcastInDim S65536x40 ![0, 1] bcast_S1x40_S65536x40_0_1 (broadcastInDim S1x40 ![1] bcast_S40_S1x40_1 b))

/-- An array minus its rows' maxima. -/
def shiftedRef (L : FVec Ideal S65536x40 .f32) : FVec Ideal S65536x40 .f32 :=
  subf L (broadcastInDim S65536x40 ![0, 1] bcast_S65536x1_S65536x40_0_1 (broadcastInDim S65536x1 ![0] bcast_S65536_S65536x1_0
    (maximumf (broadcastInDim S65536 ![] bcast_S_S65536 (constant (F := Ideal) S_ .f32 0xFF800000#32))
      (Host.reduce FloatOps.maximumf L (constant (F := Ideal) S_ .f32 0xFF800000#32) reducesTo_S65536x40_S65536_d1 h_S_))))

/-- The logarithm of each row's sum of exponentials, spread over the row. -/
def lseRef (S : FVec Ideal S65536x40 .f32) : FVec Ideal S65536x40 .f32 :=
  broadcastInDim S65536x40 ![0, 1] bcast_S65536x1_S65536x40_0_1
    (Host.log (broadcastInDim S65536x1 ![0] bcast_S65536_S65536x1_0
      (Host.reduceAdd (Host.exp S) (constant (F := Ideal) S_ .f32 0x00000000#32) reducesTo_S65536x40_S65536_d1 h_S_)))

/-- The reference's last stage is these stages composed. -/
theorem lsmRef_stages (h : FVec Ideal S65536x128 .f32) (wT : FVec Ideal S128x40 .f32) (b : FVec Ideal S40 .f32) :
    lsmRef h wT b = subf (shiftedRef (logitsRef h wT b)) (lseRef (shiftedRef (logitsRef h wT b))) := rfl

theorem logitsRef_apply (h : FVec Ideal S65536x128 .f32) (wT : FVec Ideal S128x40 .f32) (b : FVec Ideal S40 .f32)
    (n : Fin 65536) (j : Fin 40) : logitsRef h wT b (ix2 n j) = logitRow h wT b n j := by
  unfold logitsRef logitRow
  rw [addf_apply, dotRef_apply, biasRef_apply]

theorem shiftedRef_apply (L : FVec Ideal S65536x40 .f32) (n : Fin 65536) (j : Fin 40) :
    shiftedRef L (ix2 n j) = L (ix2 n j) - rowMax (fun j' => L (ix2 n j')) := by
  unfold shiftedRef
  rw [subf_apply, spreadRef_apply, columnRef_apply, rowMaxRef_apply]

theorem lseRef_apply (S : FVec Ideal S65536x40 .f32) (n : Fin 65536) (q : Fin 40) :
    lseRef S (ix2 n q) = Ideal.log (∑ j : Fin 40, Ideal.exp (S (ix2 n j))) := by
  unfold lseRef
  rw [spreadRef_apply, hostLog_apply, columnRef_apply, rowSumRef_apply]
  simp only [hostExp_apply]

/-! ## The whole stage -/

/-- THE REFERENCE'S LAST STAGE is `lsm` of its three arrays. -/
theorem lsmRef_eq (h : FVec Ideal S65536x128 .f32) (wT : FVec Ideal S128x40 .f32) (b : FVec Ideal S40 .f32) :
    lsmRef h wT b = lsm h wT b := by
  funext i
  obtain ⟨n, q, rfl⟩ : ∃ (n : Fin 65536) (q : Fin 40), i = ix2 n q := ⟨i 0, i 1, eq_ix2 i⟩
  rw [lsm_ix2, lsmRef_stages, subf_apply, lseRef_apply]
  simp only [shiftedRef_apply, logitsRef_apply]
  rfl

end Cert.Bridge

end
-- ==== Proof.FinalValue.lean ====
/-
  The last region's output array. Grid point `t` of the 16 takes rows `4096·t … 4096·t + 4095` of the hidden
  state, the whole transposed weight and the bias row, and writes back the same rows of the result. What it writes
  back is that block of `lsm` of the three arrays as the region finds them; the 16 blocks cover the array (row `r`
  lies in the block of point `r / 4096`), so the array after the region is `lsm` of them, which is the reference's
  last stage of the same arrays.
-/
import proofs.«118539_j77197742178636_1_alg».proof.Proof.Gen.KernelIdeal.Frame
import proofs.«118539_j77197742178636_1_alg».proof.Proof.FinalPayload
import proofs.«118539_j77197742178636_1_alg».proof.Proof.FinalRef
import Idealize.ShloMosaic.Lib.Pipeline.Value

noncomputable section

namespace Cert.Bridge

open Idealize.ShloMosaic Idealize.ShloMosaic.TcCoe Idealize.SL.Sem Idealize.ShloMosaic.ValueIdx
open Idealize.ShloMosaic.Pipeline (Dat)
open Cert.KernelIdeal Cert.KernelIdeal.Gen

/-! ## One element of a block -/

/-- The stored value at `(p, q)`, when the three loaded blocks are the hidden state's rows around `n`, the whole
    weight and the bias as a row, is `lsm` at `(n, q)`. -/
theorem point_value_ix (x0 : FVec Ideal S4096x128 .f32) (x1 : FVec Ideal S128x40 .f32) (x2 : FVec Ideal S1x40 .f32)
    (h : (⟨2, ![65536, 128]⟩ : Shape).Idx → EReal) (wT : (⟨2, ![128, 40]⟩ : Shape).Idx → EReal)
    (b : (⟨1, ![40]⟩ : Shape).Idx → EReal) (p : Fin 4096) (q : Fin 40) (n : Fin 65536)
    (h0 : ∀ k : Fin 128, x0 (ix2 p k) = h (ix2 n k))
    (h1 : ∀ (k : Fin 128) (j : Fin 40), x1 (ix2 k j) = wT (ix2 k j))
    (h2 : ∀ j : Fin 40, x2 (ix2 (0 : Fin 1) j) = b (ix1 j)) :
    k4_pay1 (F := Ideal) x0 x1 x2 (ix2 p q) = lsm h wT b (ix2 n q) := by
  rw [k4_pay1_apply, lsm_ix2]
  refine congrArg (fun L => lsmRow L q) (funext fun j => ?_)
  unfold logitRow
  rw [h2 j]
  exact congrArg (· + b (ix1 j)) (Finset.sum_congr rfl fun k _ => by rw [h0 k, h1 k j])

/-- The same at any two indices whose coordinates are so related. -/
theorem point_value (x0 : FVec Ideal S4096x128 .f32) (x1 : FVec Ideal S128x40 .f32) (x2 : FVec Ideal S1x40 .f32)
    (h : (⟨2, ![65536, 128]⟩ : Shape).Idx → EReal) (wT : (⟨2, ![128, 40]⟩ : Shape).Idx → EReal)
    (b : (⟨1, ![40]⟩ : Shape).Idx → EReal) (y : (⟨2, ![4096, 40]⟩ : Shape).Idx) (i : (⟨2, ![65536, 40]⟩ : Shape).Idx)
    (hq : (i 1).val = (y 1).val)
    (h0 : ∀ k : Fin 128, x0 (ix2 (⟨(y 0).val, idx2_lt0 y⟩ : Fin 4096) k) = h (ix2 (⟨(i 0).val, idx2_lt0 i⟩ : Fin 65536) k))
    (h1 : ∀ (k : Fin 128) (j : Fin 40), x1 (ix2 k j) = wT (ix2 k j))
    (h2 : ∀ j : Fin 40, x2 (ix2 (0 : Fin 1) j) = b (ix1 j)) :
    k4_pay1 (F := Ideal) x0 x1 x2 y = lsm h wT b i := by
  obtain ⟨p, q, rfl⟩ : ∃ (p : Fin 4096) (q : Fin 40), y = ix2 p q := ⟨y 0, y 1, eq_ix2 y⟩
  obtain ⟨n, q', rfl⟩ : ∃ (n : Fin 65536) (q' : Fin 40), i = ix2 n q' := ⟨i 0, i 1, eq_ix2 i⟩
  obtain rfl : q' = q := Fin.ext hq
  exact point_value_ix x0 x1 x2 h wT b p q' n h0 h1 h2

/-! ## The blocks -/

section Region
variable (V : (c : Dev nD) → (b : Ref sig .tc) → Buf (Elt Ideal) ((c : Thread nD τ).loc b))

theorem hz4 : (![0, 0] : Fin 2 → Nat) = fun _ => 0 := funext fun a => by fin_cases a <;> rfl

/-- The printed index maps, decided over the 16 grid points: the hidden state's and the result's windows move down
    the rows with the point, the weight's and the bias's stay. -/
theorem idx_facts4 : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0 :=
  (by decide +kernel : ∀ t : Fin grid4.N, _)

/-- WHAT POINT `t` WRITES BACK is block `t` of `lsm` of the three arrays as the region finds them. -/
theorem flushed4_eq (c : Dev nD) (b : (⟨1, ![40]⟩ : Shape).Idx → EReal)
    (hb : ∀ i : S1x40.Idx, V c main_v99 i = b (ix1 (⟨(i 1).val, (i 1).isLt⟩ : Fin 40))) (t : Fin cfg4.N) :
    (dat4 (F := Ideal) V c).flushed 3 t
      = ((cfg4.win 3).blk t).view.read (Elt Ideal) (lsm (V c main_v97) (V c main_v98) b) := by
  show (cfg4.win 3).cut (grid4.coords t) ((dat4 (F := Ideal) V c).after 3 t) = _
  rw [after4_3]
  unfold out4_3
  rw [View.canon_unit_zero hz4]
  simp only [View.ld_unit_zero (S := S4096x128) hz4, View.ld_unit_zero (S := S128x40) hz4, View.ld_unit_zero (S := S1x40) hz4]
  obtain ⟨e0, e1, e2, e3, e4, e5, e6, e7⟩ := idx_facts4 t
  funext y
  show k4_pay1 (F := Ideal) (iblk4 V c 0 t) (iblk4 V c 1 t) (iblk4 V c 2 t) y
    = lsm (V c main_v97) (V c main_v98) b (((cfg4.win 3).blk t).view.emb y)
  have hy0 : (y 0).val < 4096 := (y 0).isLt
  have hy1 : (y 1).val < 40 := (y 1).isLt
  refine point_value _ _ _ _ _ _ y _ ?_ ?_ ?_ ?_
  · show win4_3.index t (1 : Fin 2) * 40 + 1 * (y 1).val = (y 1).val
    omega
  · intro k
    show V c main_v97 (((cfg4.win 0).blk t).view.emb (ix2 (⟨(y 0).val, hy0⟩ : Fin 4096) k)) = V c main_v97 _
    refine congrArg (V c main_v97) (funext fun a => Fin.ext ?_)
    match a with
    | ⟨0, _⟩ =>
      show win4_0.index t (0 : Fin 2) * 4096 + 1 * (y 0).val = win4_3.index t (0 : Fin 2) * 4096 + 1 * (y 0).val
      omega
    | ⟨1, _⟩ =>
      show win4_0.index t (1 : Fin 2) * 128 + 1 * k.val = k.val
      omega
  · intro k j
    show V c main_v98 (((cfg4.win 1).blk t).view.emb (ix2 k j)) = V c main_v98 (ix2 k j)
    refine congrArg (V c main_v98) (funext fun a => Fin.ext ?_)
    match a with
    | ⟨0, _⟩ =>
      show win4_1.index t (0 : Fin 2) * 128 + 1 * k.val = k.val
      omega
    | ⟨1, _⟩ =>
      show win4_1.index t (1 : Fin 2) * 40 + 1 * j.val = j.val
      omega
  · intro j
    show V c main_v99 (((cfg4.win 2).blk t).view.emb (ix2 (0 : Fin 1) j)) = b (ix1 j)
    rw [hb]
    refine congrArg b (funext fun a => Fin.ext ?_)
    match a with
    | ⟨0, _⟩ =>
      show win4_2.index t (1 : Fin 2) * 40 + 1 * j.val = j.val
      omega

/-- An index of the array is in point `t`'s block iff each coordinate is in the block's range on its axis. -/
theorem mem_blk4 (t : Fin cfg4.N) (i : S65536x40.Idx) :
    i ∈ ((cfg4.win 3).blk t).view.set ↔ ∀ a : Fin 2, win4_3.index t a * S4096x40.size a ≤ (i a).val
      ∧ (i a).val < win4_3.index t a * S4096x40.size a + S4096x40.size a := by
  show i ∈ ((View.whole main_v100).slice (win4_3.rect t)).set ↔ _
  rw [View.set_slice_whole, Rect.mem_set_unit]
  exact Iff.rfl

/-- Every index of the array is in the block of the point its row falls to. -/
theorem cover4 (i : S65536x40.Idx) :
    ∃ t : Fin cfg4.N, (cfg4.win 3).flush t = true ∧ i ∈ ((cfg4.win 3).blk t).view.set := by
  have hi0 : (i 0).val < 65536 := (i 0).isLt
  have hi1 : (i 1).val < 40 := (i 1).isLt
  have hN : cfg4.N = 16 := N_4
  have ht : (i 0).val / 4096 < cfg4.N := by rw [hN]; omega
  obtain ⟨e0, e1, e2, e3, e4, e5, e6, e7⟩ := idx_facts4 ⟨(i 0).val / 4096, ht⟩
  refine ⟨⟨(i 0).val / 4096, ht⟩, flush4_3 _, ?_⟩
  rw [mem_blk4]
  intro a
  match a with
  | ⟨0, _⟩ =>
    show win4_3.index ⟨(i 0).val / 4096, ht⟩ (0 : Fin 2) * 4096 ≤ (i 0).val
      ∧ (i 0).val < win4_3.index ⟨(i 0).val / 4096, ht⟩ (0 : Fin 2) * 4096 + 4096
    rw [e6]
    show (i 0).val / 4096 * 4096 ≤ (i 0).val ∧ (i 0).val < (i 0).val / 4096 * 4096 + 4096
    omega
  | ⟨1, _⟩ =>
    show win4_3.index ⟨(i 0).val / 4096, ht⟩ (1 : Fin 2) * 40 ≤ (i 1).val
      ∧ (i 1).val < win4_3.index ⟨(i 0).val / 4096, ht⟩ (1 : Fin 2) * 40 + 40
    rw [e7]
    omega

/-- THE RESULT ARRAY AFTER THE LAST REGION is the reference's last stage of the hidden state, the transposed weight
    and the bias as the region finds them. -/
theorem region4_value (c : Dev nD) (b : (⟨Cert.ReferenceIdeal.S40, .f32⟩ : BufTy).Contents (Elt Ideal))
    (hb : ∀ i : S1x40.Idx, V c main_v99 i = b (ValueIdx.ix1 (⟨(i 1).val, (i 1).isLt⟩ : Fin 40))) :
    (dat4 (F := Ideal) V c).arrAt 3 cfg4.N = lsmRef (V c main_v97) (V c main_v98) b :=
  ((dat4 (F := Ideal) V c).arrAt_eq_of_cover 3 (lsm (V c main_v97) (V c main_v98) b)
    (fun t _ => flushed4_eq V c b hb t) cover4).trans (lsmRef_eq _ _ _).symm

end Region

end Cert.Bridge

end
-- ==== Proof.ChainRun.lean ====
/-
  The idealized kernel's value. Walking the fold of buffer contents from the launch memory to the return: region 0
  leaves the per-graph dynamic-weight product (the reference's first hidden state); each of the three layers multiplies
  the hidden state by its weight in a region (the host's dot_general of the same arrays), and the host operations
  after it gather the rows at the edge sources, scale them by the normalisation, sum them at the edge targets, add the
  bias and clamp at zero; the last region applies the output layer and the row-wise log-softmax. Stage by stage the
  buffers hold the reference's stages of the argument arrays, so the result buffer ends at the reference's last stage.
-/
import proofs.«118539_j77197742178636_1_alg».proof.Proof.Gen.KernelIdeal.Frame
import proofs.«118539_j77197742178636_1_alg».proof.Proof.RefReadP
import proofs.«118539_j77197742178636_1_alg».proof.Proof.LogSoftmaxRef
import proofs.«118539_j77197742178636_1_alg».proof.Proof.ChainHost
import proofs.«118539_j77197742178636_1_alg».proof.Proof.Dense1
import proofs.«118539_j77197742178636_1_alg».proof.Proof.Dense2
import proofs.«118539_j77197742178636_1_alg».proof.Proof.Dense3
import proofs.«118539_j77197742178636_1_alg».proof.Proof.DynWeightValue
import proofs.«118539_j77197742178636_1_alg».proof.Proof.FinalValue

set_option maxRecDepth 16384

noncomputable section

namespace Cert.Bridge.Chain

open Idealize.ShloMosaic Idealize.ShloMosaic.TcCoe Idealize.ShloMosaic.StableHlo Idealize.SL.Sem
open Cert.KernelIdeal Cert.KernelIdeal.Gen
open Cert.ReferenceIdeal.ReadP

variable (m : (ℓ : Loc nD τ sig) → Buf (Elt Ideal) ℓ) (ρ : Dev nD → PrngReg) (c : Dev nD)

/-! ## Entering region 0 -/

theorem W1_arg (b : Ref sig .tc) (hb : after (hostOps0 (F := Ideal)) (W0 m ρ c) (Proc.devRef .tc b) = W0 m ρ c (Proc.devRef .tc b)) :
    W1 m ρ c (Proc.devRef .tc b) = m ((c : Thread nD τ).loc b) := hb.trans rfl

/-- Region 0 leaves the reference's first hidden state. -/
theorem W2_v1 : W2 m ρ c (Proc.devRef .tc main_v1) = val_main_v11 (F := Ideal) (m ((c : Thread nD τ).loc main_arg0)) (m ((c : Thread nD τ).loc main_arg2)) (m ((c : Thread nD τ).loc main_arg4)) (m ((c : Thread nD τ).loc main_arg5)) := by
  refine (W2_arr m ρ c 4).trans ((Cert.Bridge.region0_value (V1 m ρ) c (m ((c : Thread nD τ).loc main_arg2)) (fun i => Host.s0_v0 (W0 m ρ c) i)).trans ?_)
  rw [show V1 m ρ c main_arg0 = (m ((c : Thread nD τ).loc main_arg0)) from W1_arg m ρ c main_arg0 (Host.s0_main_arg0 _),
    show V1 m ρ c main_arg4 = (m ((c : Thread nD τ).loc main_arg4)) from W1_arg m ρ c main_arg4 (Host.s0_main_arg4 _),
    show V1 m ρ c main_arg5 = (m ((c : Thread nD τ).loc main_arg5)) from W1_arg m ρ c main_arg5 (Host.s0_main_arg5 _)]

theorem W2_arg1 : W2 m ρ c (Proc.devRef .tc main_arg1) = (m ((c : Thread nD τ).loc main_arg1)) := (W2_of_ne m ρ c main_arg1 (by decide)).trans (W1_arg m ρ c main_arg1 (Host.s0_main_arg1 _))
theorem W2_arg6 : W2 m ρ c (Proc.devRef .tc main_arg6) = (m ((c : Thread nD τ).loc main_arg6)) := (W2_of_ne m ρ c main_arg6 (by decide)).trans (W1_arg m ρ c main_arg6 (Host.s0_main_arg6 _))
theorem W2_arg7 : W2 m ρ c (Proc.devRef .tc main_arg7) = (m ((c : Thread nD τ).loc main_arg7)) := (W2_of_ne m ρ c main_arg7 (by decide)).trans (W1_arg m ρ c main_arg7 (Host.s0_main_arg7 _))
theorem W2_arg8 : W2 m ρ c (Proc.devRef .tc main_arg8) = (m ((c : Thread nD τ).loc main_arg8)) := (W2_of_ne m ρ c main_arg8 (by decide)).trans (W1_arg m ρ c main_arg8 (Host.s0_main_arg8 _))
theorem W2_arg9 : W2 m ρ c (Proc.devRef .tc main_arg9) = (m ((c : Thread nD τ).loc main_arg9)) := (W2_of_ne m ρ c main_arg9 (by decide)).trans (W1_arg m ρ c main_arg9 (Host.s0_main_arg9 _))

/-! ## Layer 1 -/

theorem W5_eq : W5 m ρ c = Host.S1 (W2 m ρ c) := rfl
theorem W5_v1 : W5 m ρ c (Proc.devRef .tc main_v1) = val_main_v11 (F := Ideal) (m ((c : Thread nD τ).loc main_arg0)) (m ((c : Thread nD τ).loc main_arg2)) (m ((c : Thread nD τ).loc main_arg4)) (m ((c : Thread nD τ).loc main_arg5)) := by
  rw [W5_eq, Host.S1_main_v1]; exact W2_v1 m ρ c
theorem W5_v33 : W5 m ρ c (Proc.devRef .tc main_v33) = val_main_v28 (F := Ideal) (m ((c : Thread nD τ).loc main_arg6)) := by
  rw [W5_eq, Host.S1_main_v33, W2_arg6]
theorem W5_v5 : W5 m ρ c (Proc.devRef .tc main_v5) = val_main_v15 (F := Ideal) (m ((c : Thread nD τ).loc main_arg1)) := by rw [W5_eq, Host.S1_main_v5, W2_arg1]
theorem W5_v8 : W5 m ρ c (Proc.devRef .tc main_v8) = val_main_v18 (F := Ideal) (m ((c : Thread nD τ).loc main_arg1)) := by rw [W5_eq, Host.S1_main_v8, W2_arg1]
theorem W5_v31 : W5 m ρ c (Proc.devRef .tc main_v31) = val_main_v46 (F := Ideal) (m ((c : Thread nD τ).loc main_arg1)) := by rw [W5_eq, Host.S1_main_v31, W2_arg1]
theorem W5_arg6 : W5 m ρ c (Proc.devRef .tc main_arg6) = (m ((c : Thread nD τ).loc main_arg6)) := by rw [W5_eq, Host.S1_main_arg6, W2_arg6]
theorem W5_arg7 : W5 m ρ c (Proc.devRef .tc main_arg7) = (m ((c : Thread nD τ).loc main_arg7)) := by rw [W5_eq, Host.S1_main_arg7, W2_arg7]
theorem W5_arg8 : W5 m ρ c (Proc.devRef .tc main_arg8) = (m ((c : Thread nD τ).loc main_arg8)) := by rw [W5_eq, Host.S1_main_arg8, W2_arg8]
theorem W5_arg9 : W5 m ρ c (Proc.devRef .tc main_arg9) = (m ((c : Thread nD τ).loc main_arg9)) := by rw [W5_eq, Host.S1_main_arg9, W2_arg9]

/-- Region 1 leaves the first layer's transformed rows. -/
theorem W6_v34 : W6 m ρ c (Proc.devRef .tc main_v34) = val_main_v31 (F := Ideal) (m ((c : Thread nD τ).loc main_arg0)) (m ((c : Thread nD τ).loc main_arg2)) (m ((c : Thread nD τ).loc main_arg4)) (m ((c : Thread nD τ).loc main_arg5)) (m ((c : Thread nD τ).loc main_arg6)) := by
  refine (W6_arr m ρ c 2).trans ((Dense1.value (V5 m ρ) c).trans ?_)
  rw [show V5 m ρ c main_v1 = _ from W5_v1 m ρ c, show V5 m ρ c main_v33 = _ from W5_v33 m ρ c]
  exact (DenseLaw.host_eq _ _).symm
theorem W6_v5 : W6 m ρ c (Proc.devRef .tc main_v5) = val_main_v15 (F := Ideal) (m ((c : Thread nD τ).loc main_arg1)) := (W6_of_ne m ρ c main_v5 (by decide)).trans (W5_v5 m ρ c)
theorem W6_v8 : W6 m ρ c (Proc.devRef .tc main_v8) = val_main_v18 (F := Ideal) (m ((c : Thread nD τ).loc main_arg1)) := (W6_of_ne m ρ c main_v8 (by decide)).trans (W5_v8 m ρ c)
theorem W6_v31 : W6 m ρ c (Proc.devRef .tc main_v31) = val_main_v46 (F := Ideal) (m ((c : Thread nD τ).loc main_arg1)) := (W6_of_ne m ρ c main_v31 (by decide)).trans (W5_v31 m ρ c)
theorem W6_arg6 : W6 m ρ c (Proc.devRef .tc main_arg6) = (m ((c : Thread nD τ).loc main_arg6)) := (W6_of_ne m ρ c main_arg6 (by decide)).trans (W5_arg6 m ρ c)
theorem W6_arg7 : W6 m ρ c (Proc.devRef .tc main_arg7) = (m ((c : Thread nD τ).loc main_arg7)) := (W6_of_ne m ρ c main_arg7 (by decide)).trans (W5_arg7 m ρ c)
theorem W6_arg8 : W6 m ρ c (Proc.devRef .tc main_arg8) = (m ((c : Thread nD τ).loc main_arg8)) := (W6_of_ne m ρ c main_arg8 (by decide)).trans (W5_arg8 m ρ c)
theorem W6_arg9 : W6 m ρ c (Proc.devRef .tc main_arg9) = (m ((c : Thread nD τ).loc main_arg9)) := (W6_of_ne m ρ c main_arg9 (by decide)).trans (W5_arg9 m ρ c)

/-! ## Layer 2 -/

theorem W9_eq : W9 m ρ c = Host.S2 (W6 m ρ c) := rfl
theorem W9_v53 : W9 m ρ c (Proc.devRef .tc main_v53) = val_main_v63 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [W9_eq]; exact Host.S2_main_v53 _ _ _ _ _ _ _ _ (W6_v34 m ρ c) (W6_v5 m ρ c) (W6_v8 m ρ c) (W6_v31 m ρ c) (W6_arg7 m ρ c)
theorem W9_v55 : W9 m ρ c (Proc.devRef .tc main_v55) = val_main_v65 (F := Ideal) (m ((c : Thread nD τ).loc main_arg6)) := by rw [W9_eq, Host.S2_main_v55, W6_arg6]
theorem W9_v5 : W9 m ρ c (Proc.devRef .tc main_v5) = val_main_v15 (F := Ideal) (m ((c : Thread nD τ).loc main_arg1)) := by rw [W9_eq, Host.S2_main_v5, W6_v5]
theorem W9_v8 : W9 m ρ c (Proc.devRef .tc main_v8) = val_main_v18 (F := Ideal) (m ((c : Thread nD τ).loc main_arg1)) := by rw [W9_eq, Host.S2_main_v8, W6_v8]
theorem W9_v31 : W9 m ρ c (Proc.devRef .tc main_v31) = val_main_v46 (F := Ideal) (m ((c : Thread nD τ).loc main_arg1)) := by rw [W9_eq, Host.S2_main_v31, W6_v31]
theorem W9_arg6 : W9 m ρ c (Proc.devRef .tc main_arg6) = (m ((c : Thread nD τ).loc main_arg6)) := by rw [W9_eq, Host.S2_main_arg6, W6_arg6]
theorem W9_arg7 : W9 m ρ c (Proc.devRef .tc main_arg7) = (m ((c : Thread nD τ).loc main_arg7)) := by rw [W9_eq, Host.S2_main_arg7, W6_arg7]
theorem W9_arg8 : W9 m ρ c (Proc.devRef .tc main_arg8) = (m ((c : Thread nD τ).loc main_arg8)) := by rw [W9_eq, Host.S2_main_arg8, W6_arg8]
theorem W9_arg9 : W9 m ρ c (Proc.devRef .tc main_arg9) = (m ((c : Thread nD τ).loc main_arg9)) := by rw [W9_eq, Host.S2_main_arg9, W6_arg9]

theorem W10_v56 : W10 m ρ c (Proc.devRef .tc main_v56) = val_main_v68 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W10_arr m ρ c 2).trans ((Dense2.value (V9 m ρ) c).trans ?_)
  rw [show V9 m ρ c main_v53 = _ from W9_v53 m ρ c, show V9 m ρ c main_v55 = _ from W9_v55 m ρ c]
  exact (DenseLaw.host_eq _ _).symm
theorem W10_v5 : W10 m ρ c (Proc.devRef .tc main_v5) = val_main_v15 (F := Ideal) (m ((c : Thread nD τ).loc main_arg1)) := (W10_of_ne m ρ c main_v5 (by decide)).trans (W9_v5 m ρ c)
theorem W10_v8 : W10 m ρ c (Proc.devRef .tc main_v8) = val_main_v18 (F := Ideal) (m ((c : Thread nD τ).loc main_arg1)) := (W10_of_ne m ρ c main_v8 (by decide)).trans (W9_v8 m ρ c)
theorem W10_v31 : W10 m ρ c (Proc.devRef .tc main_v31) = val_main_v46 (F := Ideal) (m ((c : Thread nD τ).loc main_arg1)) := (W10_of_ne m ρ c main_v31 (by decide)).trans (W9_v31 m ρ c)
theorem W10_arg6 : W10 m ρ c (Proc.devRef .tc main_arg6) = (m ((c : Thread nD τ).loc main_arg6)) := (W10_of_ne m ρ c main_arg6 (by decide)).trans (W9_arg6 m ρ c)
theorem W10_arg7 : W10 m ρ c (Proc.devRef .tc main_arg7) = (m ((c : Thread nD τ).loc main_arg7)) := (W10_of_ne m ρ c main_arg7 (by decide)).trans (W9_arg7 m ρ c)
theorem W10_arg8 : W10 m ρ c (Proc.devRef .tc main_arg8) = (m ((c : Thread nD τ).loc main_arg8)) := (W10_of_ne m ρ c main_arg8 (by decide)).trans (W9_arg8 m ρ c)
theorem W10_arg9 : W10 m ρ c (Proc.devRef .tc main_arg9) = (m ((c : Thread nD τ).loc main_arg9)) := (W10_of_ne m ρ c main_arg9 (by decide)).trans (W9_arg9 m ρ c)

/-! ## Layer 3 -/

theorem W13_eq : W13 m ρ c = Host.S3 (W10 m ρ c) := rfl
theorem W13_v75 : W13 m ρ c (Proc.devRef .tc main_v75) = val_main_v100 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [W13_eq]; exact Host.S3_main_v75 _ _ _ _ _ _ _ _ (W10_v56 m ρ c) (W10_v5 m ρ c) (W10_v8 m ρ c) (W10_v31 m ρ c) (W10_arg7 m ρ c)
theorem W13_v77 : W13 m ρ c (Proc.devRef .tc main_v77) = val_main_v102 (F := Ideal) (m ((c : Thread nD τ).loc main_arg6)) := by rw [W13_eq, Host.S3_main_v77, W10_arg6]
theorem W13_v5 : W13 m ρ c (Proc.devRef .tc main_v5) = val_main_v15 (F := Ideal) (m ((c : Thread nD τ).loc main_arg1)) := by rw [W13_eq, Host.S3_main_v5, W10_v5]
theorem W13_v8 : W13 m ρ c (Proc.devRef .tc main_v8) = val_main_v18 (F := Ideal) (m ((c : Thread nD τ).loc main_arg1)) := by rw [W13_eq, Host.S3_main_v8, W10_v8]
theorem W13_v31 : W13 m ρ c (Proc.devRef .tc main_v31) = val_main_v46 (F := Ideal) (m ((c : Thread nD τ).loc main_arg1)) := by rw [W13_eq, Host.S3_main_v31, W10_v31]
theorem W13_arg7 : W13 m ρ c (Proc.devRef .tc main_arg7) = (m ((c : Thread nD τ).loc main_arg7)) := by rw [W13_eq, Host.S3_main_arg7, W10_arg7]
theorem W13_arg8 : W13 m ρ c (Proc.devRef .tc main_arg8) = (m ((c : Thread nD τ).loc main_arg8)) := by rw [W13_eq, Host.S3_main_arg8, W10_arg8]
theorem W13_arg9 : W13 m ρ c (Proc.devRef .tc main_arg9) = (m ((c : Thread nD τ).loc main_arg9)) := by rw [W13_eq, Host.S3_main_arg9, W10_arg9]

theorem W14_v78 : W14 m ρ c (Proc.devRef .tc main_v78) = val_main_v105 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  refine (W14_arr m ρ c 2).trans ((Dense3.value (V13 m ρ) c).trans ?_)
  rw [show V13 m ρ c main_v75 = _ from W13_v75 m ρ c, show V13 m ρ c main_v77 = _ from W13_v77 m ρ c]
  exact (DenseLaw.host_eq _ _).symm
theorem W14_v5 : W14 m ρ c (Proc.devRef .tc main_v5) = val_main_v15 (F := Ideal) (m ((c : Thread nD τ).loc main_arg1)) := (W14_of_ne m ρ c main_v5 (by decide)).trans (W13_v5 m ρ c)
theorem W14_v8 : W14 m ρ c (Proc.devRef .tc main_v8) = val_main_v18 (F := Ideal) (m ((c : Thread nD τ).loc main_arg1)) := (W14_of_ne m ρ c main_v8 (by decide)).trans (W13_v8 m ρ c)
theorem W14_v31 : W14 m ρ c (Proc.devRef .tc main_v31) = val_main_v46 (F := Ideal) (m ((c : Thread nD τ).loc main_arg1)) := (W14_of_ne m ρ c main_v31 (by decide)).trans (W13_v31 m ρ c)
theorem W14_arg7 : W14 m ρ c (Proc.devRef .tc main_arg7) = (m ((c : Thread nD τ).loc main_arg7)) := (W14_of_ne m ρ c main_arg7 (by decide)).trans (W13_arg7 m ρ c)
theorem W14_arg8 : W14 m ρ c (Proc.devRef .tc main_arg8) = (m ((c : Thread nD τ).loc main_arg8)) := (W14_of_ne m ρ c main_arg8 (by decide)).trans (W13_arg8 m ρ c)
theorem W14_arg9 : W14 m ρ c (Proc.devRef .tc main_arg9) = (m ((c : Thread nD τ).loc main_arg9)) := (W14_of_ne m ρ c main_arg9 (by decide)).trans (W13_arg9 m ρ c)

/-! ## The output layer -/

theorem W17_eq : W17 m ρ c = Host.S4 (W14 m ρ c) := rfl
theorem W17_v97 : W17 m ρ c (Proc.devRef .tc main_v97) = val_main_v137 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) := by
  rw [W17_eq]; exact Host.S4_main_v97 _ _ _ _ _ _ _ _ (W14_v78 m ρ c) (W14_v5 m ρ c) (W14_v8 m ρ c) (W14_v31 m ρ c) (W14_arg7 m ρ c)
theorem W17_v98 : W17 m ρ c (Proc.devRef .tc main_v98) = val_main_v138 (F := Ideal) (m ((c : Thread nD τ).loc main_arg8)) := by rw [W17_eq, Host.S4_main_v98, W14_arg8]
theorem W17_v99 (i : S1x40.Idx) : W17 m ρ c (Proc.devRef .tc main_v99) i = (m ((c : Thread nD τ).loc main_arg9)) (ValueIdx.ix1 (⟨(i 1).val, (i 1).isLt⟩ : Fin 40)) := by
  rw [W17_eq, Host.S4_main_v99, W14_arg9]

/-- THE KERNEL'S VALUE: the result buffer ends at the reference's last stage of the argument arrays. -/
theorem result : W18 m ρ c (Proc.devRef .tc main_v100)
    = val_main_v143 (F := Ideal) (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  refine (W18_arr m ρ c 3).trans ((Cert.Bridge.region4_value (V17 m ρ) c (m ((c : Thread nD τ).loc main_arg9)) (fun i => W17_v99 m ρ c i)).trans ?_)
  rw [show V17 m ρ c main_v97 = _ from W17_v97 m ρ c, show V17 m ρ c main_v98 = _ from W17_v98 m ρ c]
  rfl

end Cert.Bridge.Chain

end
-- ==== Proof.RefChainHead1.lean ====
/-
  The reference program's first operations, a few at a time: what a buffer holds after a short run of consecutive
  operations is the operations' composed term of what the run found, and that term is the stage of the same name read
  off the program; a buffer the run does not write keeps its contents. Here: the dynamic weight and the first product
  (operations 0–13), the edge lists with their self loops (14–20), the degrees and their inverse square roots (21–34).
-/
import proofs.«118539_j77197742178636_1_alg».proof.Proof.RefReadP
import Idealize.ShloMosaic.Lib.StableHlo.Run
import Idealize.ShloMosaic.Lib.Pipeline.Frame

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable {F : FTy → Type} [FloatOps F]

/-! ## Operations 0–7 -/

def pA1 : List (HloOp τ sig (Elt F)) :=
  [ unary main_arg4 main_v0 (broadcastInDim S1x128x1 ![1, 2] bcast_S128x1_S1x128x1_1_2 : (⟨S128x1, .f32⟩ : BufTy).Contents (Elt F) → (⟨S1x128x1, .f32⟩ : BufTy).Contents (Elt F)),
    unary main_arg2 main_v1 (broadcastInDim S32x1x128 ![0, 2] bcast_S32x128_S32x1x128_0_2 : (⟨S32x128, .f32⟩ : BufTy).Contents (Elt F) → (⟨S32x1x128, .f32⟩ : BufTy).Contents (Elt F)),
    unary main_v0 main_v2 (broadcastInDim S32x128x128 ![0, 1, 2] bcast_S1x128x1_S32x128x128_0_1_2 : (⟨S1x128x1, .f32⟩ : BufTy).Contents (Elt F) → (⟨S32x128x128, .f32⟩ : BufTy).Contents (Elt F)),
    unary main_v1 main_v3 (broadcastInDim S32x128x128 ![0, 1, 2] bcast_S32x1x128_S32x128x128_0_1_2 : (⟨S32x1x128, .f32⟩ : BufTy).Contents (Elt F) → (⟨S32x128x128, .f32⟩ : BufTy).Contents (Elt F)),
    binary main_v2 main_v3 main_v4 (mulf : (⟨S32x128x128, .f32⟩ : BufTy).Contents (Elt F) → (⟨S32x128x128, .f32⟩ : BufTy).Contents (Elt F) → (⟨S32x128x128, .f32⟩ : BufTy).Contents (Elt F)),
    unary main_arg5 main_v5 (broadcastInDim S1x128x128 ![1, 2] bcast_S128x128_S1x128x128_1_2 : (⟨S128x128, .f32⟩ : BufTy).Contents (Elt F) → (⟨S1x128x128, .f32⟩ : BufTy).Contents (Elt F)),
    unary main_v5 main_v6 (broadcastInDim S32x128x128 ![0, 1, 2] bcast_S1x128x128_S32x128x128_0_1_2 : (⟨S1x128x128, .f32⟩ : BufTy).Contents (Elt F) → (⟨S32x128x128, .f32⟩ : BufTy).Contents (Elt F)),
    binary main_v4 main_v6 main_v7 (addf : (⟨S32x128x128, .f32⟩ : BufTy).Contents (Elt F) → (⟨S32x128x128, .f32⟩ : BufTy).Contents (Elt F) → (⟨S32x128x128, .f32⟩ : BufTy).Contents (Elt F)) ]

/-! ## Operations 8–10 -/

def pA2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S32x128x128, .f32⟩) main_call0_v0) (broadcastInDim S32x128x128 ![] bcast_S_S32x128x128),
    TRef.binary (TRef.of (T := ⟨S32x128x128, .f32⟩) main_v7) (TRef.of (T := ⟨S32x128x128, .f32⟩) main_call0_v0) (TRef.of (T := ⟨S32x128x128, .f32⟩) main_v8) maximumf ]

theorem tr_main_call0_cst (V : Valuation τ sig (Elt F)) :
    HloOp.result ((TRef.nullary (TRef.of (T := ⟨S_, .f32⟩) main_call0_cst) (constant S_ .f32 0x00000000#32)) : HloOp τ sig (Elt F)) V (Proc.devRef .tc main_call0_cst)
      = ((constant S_ .f32 0x00000000#32) : (⟨S_, .f32⟩ : BufTy).Contents (Elt F)) := by
  rw [nullary_result]; rfl
theorem tr_main_call0_v0 (V : Valuation τ sig (Elt F)) :
    HloOp.result ((TRef.unary (TRef.of (T := ⟨S_, .f32⟩) main_call0_cst) (TRef.of (T := ⟨S32x128x128, .f32⟩) main_call0_v0) (broadcastInDim S32x128x128 ![] bcast_S_S32x128x128)) : HloOp τ sig (Elt F)) V (Proc.devRef .tc main_call0_v0)
      = (((broadcastInDim S32x128x128 ![] bcast_S_S32x128x128)) (V (Proc.devRef .tc main_call0_cst)) : (⟨S32x128x128, .f32⟩ : BufTy).Contents (Elt F)) := by
  rw [unary_result]; rfl
theorem tr_main_v8 (V : Valuation τ sig (Elt F)) :
    HloOp.result ((TRef.binary (TRef.of (T := ⟨S32x128x128, .f32⟩) main_v7) (TRef.of (T := ⟨S32x128x128, .f32⟩) main_call0_v0) (TRef.of (T := ⟨S32x128x128, .f32⟩) main_v8) maximumf) : HloOp τ sig (Elt F)) V (Proc.devRef .tc main_v8)
      = ((maximumf) (V (Proc.devRef .tc main_v7)) (V (Proc.devRef .tc main_call0_v0)) : (⟨S32x128x128, .f32⟩ : BufTy).Contents (Elt F)) := by
  rw [binary_result]; rfl

/-! ## Operations 11–13 -/

def pA3 : List (HloOp τ sig (Elt F)) :=
  [ reshape main_arg0 main_v9 rfl shapeCasts_S65536x128_S32x2048x128,
    binary main_v9 main_v8 main_v10 ((fun l r => Host.dotGeneral dot_S32x2048x128_S32x128x128_S32x2048x128_2_1_1_2_0_0 none l r) : (⟨S32x2048x128, .f32⟩ : BufTy).Contents (Elt F) → (⟨S32x128x128, .f32⟩ : BufTy).Contents (Elt F) → (⟨S32x2048x128, .f32⟩ : BufTy).Contents (Elt F)),
    reshape main_v10 main_v11 rfl shapeCasts_S32x2048x128_S65536x128 ]

/-! ## Operations 14–20 -/

def pB : List (HloOp τ sig (Elt F)) :=
  [ nullary main_v12 (iotaInDim S65536 32 0),
    unary main_arg1 main_v13 ((extractStridedSlice S1x1048576 ![0, 0] · slices_S2x1048576_S1x1048576_0_0) : (⟨S2x1048576, .i32⟩ : BufTy).Contents (Elt F) → (⟨S1x1048576, .i32⟩ : BufTy).Contents (Elt F)),
    reshape main_v13 main_v14 rfl shapeCasts_S1x1048576_S1048576,
    binary main_v14 main_v12 main_v15 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)),
    unary main_arg1 main_v16 ((extractStridedSlice S1x1048576 ![1, 0] · slices_S2x1048576_S1x1048576_1_0) : (⟨S2x1048576, .i32⟩ : BufTy).Contents (Elt F) → (⟨S1x1048576, .i32⟩ : BufTy).Contents (Elt F)),
    reshape main_v16 main_v17 rfl shapeCasts_S1x1048576_S1048576,
    binary main_v17 main_v12 main_v18 ((fun a b => concatenate S1114112 0 [⟨S1048576, a⟩, ⟨S65536, b⟩] concatenates_S1048576_S65536_S1114112_d0) : (⟨S1048576, .i32⟩ : BufTy).Contents (Elt F) → (⟨S65536, .i32⟩ : BufTy).Contents (Elt F) → (⟨S1114112, .i32⟩ : BufTy).Contents (Elt F)) ]

/-! ## Operations 21–30 -/

def pC1 : List (HloOp τ sig (Elt F)) :=
  [ nullary main_cst (constant S_ .f32 0x3F800000#32),
    unary main_cst main_v19 (broadcastInDim S1114112 ![] bcast_S_S1114112 : (⟨S_, .f32⟩ : BufTy).Contents (Elt F) → (⟨S1114112, .f32⟩ : BufTy).Contents (Elt F)),
    nullary main_cst_0 (constant S_ .f32 0x00000000#32),
    unary main_cst_0 main_v20 (broadcastInDim S65536 ![] bcast_S_S65536 : (⟨S_, .f32⟩ : BufTy).Contents (Elt F) → (⟨S65536, .f32⟩ : BufTy).Contents (Elt F)),
    unary main_v18 main_v21 (broadcastInDim S1114112x1 ![0] bcast_S1114112_S1114112x1_0 : (⟨S1114112, .i32⟩ : BufTy).Contents (Elt F) → (⟨S1114112x1, .i32⟩ : BufTy).Contents (Elt F)),
    ternary main_v20 main_v21 main_v19 main_v22 ((fun x i u => Host.scatterAdd scatter_S65536_S1114112x1_S1114112_n_0_0_1 x i u) : (⟨S65536, .f32⟩ : BufTy).Contents (Elt F) → (⟨S1114112x1, .i32⟩ : BufTy).Contents (Elt F) → (⟨S1114112, .f32⟩ : BufTy).Contents (Elt F) → (⟨S65536, .f32⟩ : BufTy).Contents (Elt F)),
    nullary main_cst_1 (constant S_ .f32 0x00000000#32),
    unary main_cst_1 main_v23 (broadcastInDim S65536 ![] bcast_S_S65536 : (⟨S_, .f32⟩ : BufTy).Contents (Elt F) → (⟨S65536, .f32⟩ : BufTy).Contents (Elt F)),
    binary main_v22 main_v23 main_v24 (cmpf .ogt : (⟨S65536, .f32⟩ : BufTy).Contents (Elt F) → (⟨S65536, .f32⟩ : BufTy).Contents (Elt F) → (⟨S65536, .i1⟩ : BufTy).Contents (Elt F)),
    unary main_v22 main_v25 (Host.rsqrt : (⟨S65536, .f32⟩ : BufTy).Contents (Elt F) → (⟨S65536, .f32⟩ : BufTy).Contents (Elt F)) ]

/-! ## Operations 31–34 -/

def pC2 : List (HloOp τ sig (Elt F)) :=
  [ nullary main_cst_2 (constant S_ .f32 0x00000000#32),
    TRef.unary (TRef.of (T := ⟨S_, .f32⟩) main_cst_2) (TRef.of (T := ⟨S_, .f32⟩) main_call1_v0) id,
    TRef.unary (TRef.of (T := ⟨S_, .f32⟩) main_call1_v0) (TRef.of (T := ⟨S65536, .f32⟩) main_call1_v1) (broadcastInDim S65536 ![] bcast_S_S65536),
    TRef.ternary (TRef.of (T := ⟨S65536, .i1⟩) main_v24) (TRef.of (T := ⟨S65536, .f32⟩) main_v25) (TRef.of (T := ⟨S65536, .f32⟩) main_call1_v1) (TRef.of (T := ⟨S65536, .f32⟩) main_v26) select ]

theorem tr_main_call1_v0 (V : Valuation τ sig (Elt F)) :
    HloOp.result ((TRef.unary (TRef.of (T := ⟨S_, .f32⟩) main_cst_2) (TRef.of (T := ⟨S_, .f32⟩) main_call1_v0) id) : HloOp τ sig (Elt F)) V (Proc.devRef .tc main_call1_v0)
      = ((id) (V (Proc.devRef .tc main_cst_2)) : (⟨S_, .f32⟩ : BufTy).Contents (Elt F)) := by
  rw [unary_result]; rfl
theorem tr_main_call1_v1 (V : Valuation τ sig (Elt F)) :
    HloOp.result ((TRef.unary (TRef.of (T := ⟨S_, .f32⟩) main_call1_v0) (TRef.of (T := ⟨S65536, .f32⟩) main_call1_v1) (broadcastInDim S65536 ![] bcast_S_S65536)) : HloOp τ sig (Elt F)) V (Proc.devRef .tc main_call1_v1)
      = (((broadcastInDim S65536 ![] bcast_S_S65536)) (V (Proc.devRef .tc main_call1_v0)) : (⟨S65536, .f32⟩ : BufTy).Contents (Elt F)) := by
  rw [unary_result]; rfl
theorem tr_main_v26 (V : Valuation τ sig (Elt F)) :
    HloOp.result ((TRef.ternary (TRef.of (T := ⟨S65536, .i1⟩) main_v24) (TRef.of (T := ⟨S65536, .f32⟩) main_v25) (TRef.of (T := ⟨S65536, .f32⟩) main_call1_v1) (TRef.of (T := ⟨S65536, .f32⟩) main_v26) select) : HloOp τ sig (Elt F)) V (Proc.devRef .tc main_v26)
      = ((select) (V (Proc.devRef .tc main_v24)) (V (Proc.devRef .tc main_v25)) (V (Proc.devRef .tc main_call1_v1)) : (⟨S65536, .f32⟩ : BufTy).Contents (Elt F)) := by
  rw [ternary_result]; rfl

variable (W : Valuation τ sig (Elt Ideal))

theorem pA1_v7 (a2 a4 a5 : _)
    (h5 : W (Proc.devRef .tc main_arg5) = a5)
    (h2 : W (Proc.devRef .tc main_arg2) = a2)
    (h4 : W (Proc.devRef .tc main_arg4) = a4) :
    after (pA1 (F := Ideal)) W (Proc.devRef .tc main_v7) = val_main_v7 (F := Ideal) a2 a4 a5 := by
  dsimp only [pA1]; after_results_simp; rw [h5, h2, h4]; rfl
theorem pA1_keep_arg6 : after (pA1 (F := Ideal)) W (Proc.devRef .tc main_arg6) = W (Proc.devRef .tc main_arg6) := by
  dsimp only [pA1]; after_results_simp
theorem pA1_keep_arg7 : after (pA1 (F := Ideal)) W (Proc.devRef .tc main_arg7) = W (Proc.devRef .tc main_arg7) := by
  dsimp only [pA1]; after_results_simp
theorem pA1_keep_arg8 : after (pA1 (F := Ideal)) W (Proc.devRef .tc main_arg8) = W (Proc.devRef .tc main_arg8) := by
  dsimp only [pA1]; after_results_simp
theorem pA1_keep_arg9 : after (pA1 (F := Ideal)) W (Proc.devRef .tc main_arg9) = W (Proc.devRef .tc main_arg9) := by
  dsimp only [pA1]; after_results_simp
theorem pA1_keep_arg0 : after (pA1 (F := Ideal)) W (Proc.devRef .tc main_arg0) = W (Proc.devRef .tc main_arg0) := by
  dsimp only [pA1]; after_results_simp
theorem pA1_keep_arg1 : after (pA1 (F := Ideal)) W (Proc.devRef .tc main_arg1) = W (Proc.devRef .tc main_arg1) := by
  dsimp only [pA1]; after_results_simp

theorem pA2_v8 (a2 a4 a5 : _)
    (h_v7 : W (Proc.devRef .tc main_v7) = val_main_v7 (F := Ideal) a2 a4 a5) :
    after (pA2 (F := Ideal)) W (Proc.devRef .tc main_v8) = val_main_v8 (F := Ideal) a2 a4 a5 := by
  dsimp only [pA2]
  simp only [after_cons, after_nil]
  rw [tr_main_v8, tr_main_call0_v0, tr_main_call0_cst]
  after_results_simp
  rw [h_v7]
  rfl
theorem pA2_keep_arg6 : after (pA2 (F := Ideal)) W (Proc.devRef .tc main_arg6) = W (Proc.devRef .tc main_arg6) := by
  dsimp only [pA2]; after_results_simp
theorem pA2_keep_arg7 : after (pA2 (F := Ideal)) W (Proc.devRef .tc main_arg7) = W (Proc.devRef .tc main_arg7) := by
  dsimp only [pA2]; after_results_simp
theorem pA2_keep_arg8 : after (pA2 (F := Ideal)) W (Proc.devRef .tc main_arg8) = W (Proc.devRef .tc main_arg8) := by
  dsimp only [pA2]; after_results_simp
theorem pA2_keep_arg9 : after (pA2 (F := Ideal)) W (Proc.devRef .tc main_arg9) = W (Proc.devRef .tc main_arg9) := by
  dsimp only [pA2]; after_results_simp
theorem pA2_keep_arg0 : after (pA2 (F := Ideal)) W (Proc.devRef .tc main_arg0) = W (Proc.devRef .tc main_arg0) := by
  dsimp only [pA2]; after_results_simp
theorem pA2_keep_arg1 : after (pA2 (F := Ideal)) W (Proc.devRef .tc main_arg1) = W (Proc.devRef .tc main_arg1) := by
  dsimp only [pA2]; after_results_simp

theorem pA3_v11 (a0 a2 a4 a5 : _)
    (h_v8 : W (Proc.devRef .tc main_v8) = val_main_v8 (F := Ideal) a2 a4 a5)
    (h0 : W (Proc.devRef .tc main_arg0) = a0) :
    after (pA3 (F := Ideal)) W (Proc.devRef .tc main_v11) = val_main_v11 (F := Ideal) a0 a2 a4 a5 := by
  dsimp only [pA3]; after_results_simp; rw [h_v8, h0]; rfl
theorem pA3_keep_arg6 : after (pA3 (F := Ideal)) W (Proc.devRef .tc main_arg6) = W (Proc.devRef .tc main_arg6) := by
  dsimp only [pA3]; after_results_simp
theorem pA3_keep_arg7 : after (pA3 (F := Ideal)) W (Proc.devRef .tc main_arg7) = W (Proc.devRef .tc main_arg7) := by
  dsimp only [pA3]; after_results_simp
theorem pA3_keep_arg8 : after (pA3 (F := Ideal)) W (Proc.devRef .tc main_arg8) = W (Proc.devRef .tc main_arg8) := by
  dsimp only [pA3]; after_results_simp
theorem pA3_keep_arg9 : after (pA3 (F := Ideal)) W (Proc.devRef .tc main_arg9) = W (Proc.devRef .tc main_arg9) := by
  dsimp only [pA3]; after_results_simp
theorem pA3_keep_arg1 : after (pA3 (F := Ideal)) W (Proc.devRef .tc main_arg1) = W (Proc.devRef .tc main_arg1) := by
  dsimp only [pA3]; after_results_simp

theorem pB_v15 (a1 : _)
    (h1 : W (Proc.devRef .tc main_arg1) = a1) :
    after (pB (F := Ideal)) W (Proc.devRef .tc main_v15) = val_main_v15 (F := Ideal) a1 := by
  dsimp only [pB]; after_results_simp; subst h1; rfl
theorem pB_v18 (a1 : _)
    (h1 : W (Proc.devRef .tc main_arg1) = a1) :
    after (pB (F := Ideal)) W (Proc.devRef .tc main_v18) = val_main_v18 (F := Ideal) a1 := by
  dsimp only [pB]; after_results_simp; subst h1; rfl
theorem pB_keep_arg6 : after (pB (F := Ideal)) W (Proc.devRef .tc main_arg6) = W (Proc.devRef .tc main_arg6) := by
  dsimp only [pB]; after_results_simp
theorem pB_keep_arg7 : after (pB (F := Ideal)) W (Proc.devRef .tc main_arg7) = W (Proc.devRef .tc main_arg7) := by
  dsimp only [pB]; after_results_simp
theorem pB_keep_arg8 : after (pB (F := Ideal)) W (Proc.devRef .tc main_arg8) = W (Proc.devRef .tc main_arg8) := by
  dsimp only [pB]; after_results_simp
theorem pB_keep_arg9 : after (pB (F := Ideal)) W (Proc.devRef .tc main_arg9) = W (Proc.devRef .tc main_arg9) := by
  dsimp only [pB]; after_results_simp
theorem pB_keep_v11 : after (pB (F := Ideal)) W (Proc.devRef .tc main_v11) = W (Proc.devRef .tc main_v11) := by
  dsimp only [pB]; after_results_simp

theorem pC1_v24 (a1 : _)
    (h_v18 : W (Proc.devRef .tc main_v18) = val_main_v18 (F := Ideal) a1) :
    after (pC1 (F := Ideal)) W (Proc.devRef .tc main_v24) = val_main_v24 (F := Ideal) a1 := by
  dsimp only [pC1]; after_results_simp; rw [h_v18]; rfl
theorem pC1_v25 (a1 : _)
    (h_v18 : W (Proc.devRef .tc main_v18) = val_main_v18 (F := Ideal) a1) :
    after (pC1 (F := Ideal)) W (Proc.devRef .tc main_v25) = val_main_v25 (F := Ideal) a1 := by
  dsimp only [pC1]; after_results_simp; rw [h_v18]; rfl
theorem pC1_keep_v15 : after (pC1 (F := Ideal)) W (Proc.devRef .tc main_v15) = W (Proc.devRef .tc main_v15) := by
  dsimp only [pC1]; after_results_simp
theorem pC1_keep_v18 : after (pC1 (F := Ideal)) W (Proc.devRef .tc main_v18) = W (Proc.devRef .tc main_v18) := by
  dsimp only [pC1]; after_results_simp
theorem pC1_keep_arg6 : after (pC1 (F := Ideal)) W (Proc.devRef .tc main_arg6) = W (Proc.devRef .tc main_arg6) := by
  dsimp only [pC1]; after_results_simp
theorem pC1_keep_arg7 : after (pC1 (F := Ideal)) W (Proc.devRef .tc main_arg7) = W (Proc.devRef .tc main_arg7) := by
  dsimp only [pC1]; after_results_simp
theorem pC1_keep_arg8 : after (pC1 (F := Ideal)) W (Proc.devRef .tc main_arg8) = W (Proc.devRef .tc main_arg8) := by
  dsimp only [pC1]; after_results_simp
theorem pC1_keep_arg9 : after (pC1 (F := Ideal)) W (Proc.devRef .tc main_arg9) = W (Proc.devRef .tc main_arg9) := by
  dsimp only [pC1]; after_results_simp
theorem pC1_keep_v11 : after (pC1 (F := Ideal)) W (Proc.devRef .tc main_v11) = W (Proc.devRef .tc main_v11) := by
  dsimp only [pC1]; after_results_simp

theorem pC2_v26 (a1 : _)
    (h_v24 : W (Proc.devRef .tc main_v24) = val_main_v24 (F := Ideal) a1)
    (h_v25 : W (Proc.devRef .tc main_v25) = val_main_v25 (F := Ideal) a1) :
    after (pC2 (F := Ideal)) W (Proc.devRef .tc main_v26) = val_main_v26 (F := Ideal) a1 := by
  dsimp only [pC2]
  simp only [after_cons, after_nil]
  rw [tr_main_v26, tr_main_call1_v1, tr_main_call1_v0]
  after_results_simp
  rw [h_v24, h_v25]
  rfl
theorem pC2_keep_v15 : after (pC2 (F := Ideal)) W (Proc.devRef .tc main_v15) = W (Proc.devRef .tc main_v15) := by
  dsimp only [pC2]; after_results_simp
theorem pC2_keep_v18 : after (pC2 (F := Ideal)) W (Proc.devRef .tc main_v18) = W (Proc.devRef .tc main_v18) := by
  dsimp only [pC2]; after_results_simp
theorem pC2_keep_arg6 : after (pC2 (F := Ideal)) W (Proc.devRef .tc main_arg6) = W (Proc.devRef .tc main_arg6) := by
  dsimp only [pC2]; after_results_simp
theorem pC2_keep_arg7 : after (pC2 (F := Ideal)) W (Proc.devRef .tc main_arg7) = W (Proc.devRef .tc main_arg7) := by
  dsimp only [pC2]; after_results_simp
theorem pC2_keep_arg8 : after (pC2 (F := Ideal)) W (Proc.devRef .tc main_arg8) = W (Proc.devRef .tc main_arg8) := by
  dsimp only [pC2]; after_results_simp
theorem pC2_keep_arg9 : after (pC2 (F := Ideal)) W (Proc.devRef .tc main_arg9) = W (Proc.devRef .tc main_arg9) := by
  dsimp only [pC2]; after_results_simp
theorem pC2_keep_v11 : after (pC2 (F := Ideal)) W (Proc.devRef .tc main_v11) = W (Proc.devRef .tc main_v11) := by
  dsimp only [pC2]; after_results_simp

end Cert.Bridge.Ref

end
-- ==== Proof.RefChainHead2.lean ====
/-
  The reference program's operations 35–80, a few at a time (as in the first part): the first layer's weight and bias
  and its transform (35–39), the normalisation deg^(-1/2)[src] · deg^(-1/2)[dst] (40–58), the gather of the transformed
  rows at the sources, scaled (59–70), their sum at the targets plus the bias (71–77), the clamp at zero (78–80).
-/
import proofs.«118539_j77197742178636_1_alg».proof.Proof.RefReadP
import Idealize.ShloMosaic.Lib.StableHlo.Run
import Idealize.ShloMosaic.Lib.Pipeline.Frame

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable {F : FTy → Type} [FloatOps F]

/-! ## Operations 35–39 -/

def pD : List (HloOp τ sig (Elt F)) :=
  [ unary main_arg6 main_v27 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v27 main_v28 rfl shapeCasts_S1x128x128_S128x128,
    unary main_arg7 main_v29 ((extractStridedSlice S1x128 ![0, 0] · slices_S3x128_S1x128_0_0) : (⟨S3x128, .f32⟩ : BufTy).Contents (Elt F) → (⟨S1x128, .f32⟩ : BufTy).Contents (Elt F)),
    reshape main_v29 main_v30 rfl shapeCasts_S1x128_S128,
    binary main_v11 main_v28 main_v31 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)) ]

/-! ## Operations 40–58 -/

def pE : List (HloOp τ sig (Elt F)) :=
  [ nullary main_c (constantI S_ 32 0#32),
    unary main_c main_v32 (broadcastInDim S1114112 ![] bcast_S_S1114112 : (⟨S_, .i32⟩ : BufTy).Contents (Elt F) → (⟨S1114112, .i32⟩ : BufTy).Contents (Elt F)),
    binary main_v15 main_v32 main_v33 (cmpi .slt : (⟨S1114112, .i32⟩ : BufTy).Contents (Elt F) → (⟨S1114112, .i32⟩ : BufTy).Contents (Elt F) → (⟨S1114112, .i1⟩ : BufTy).Contents (Elt F)),
    nullary main_c_3 (constantI S_ 32 65536#32),
    unary main_c_3 main_v34 (broadcastInDim S1114112 ![] bcast_S_S1114112 : (⟨S_, .i32⟩ : BufTy).Contents (Elt F) → (⟨S1114112, .i32⟩ : BufTy).Contents (Elt F)),
    binary main_v15 main_v34 main_v35 (addi : (⟨S1114112, .i32⟩ : BufTy).Contents (Elt F) → (⟨S1114112, .i32⟩ : BufTy).Contents (Elt F) → (⟨S1114112, .i32⟩ : BufTy).Contents (Elt F)),
    ternary main_v33 main_v35 main_v15 main_v36 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v36 main_v37 (broadcastInDim S1114112x1 ![0] bcast_S1114112_S1114112x1_0 : (⟨S1114112, .i32⟩ : BufTy).Contents (Elt F) → (⟨S1114112x1, .i32⟩ : BufTy).Contents (Elt F)),
    binary main_v26 main_v37 main_v38 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    nullary main_c_4 (constantI S_ 32 0#32),
    unary main_c_4 main_v39 (broadcastInDim S1114112 ![] bcast_S_S1114112 : (⟨S_, .i32⟩ : BufTy).Contents (Elt F) → (⟨S1114112, .i32⟩ : BufTy).Contents (Elt F)),
    binary main_v18 main_v39 main_v40 (cmpi .slt : (⟨S1114112, .i32⟩ : BufTy).Contents (Elt F) → (⟨S1114112, .i32⟩ : BufTy).Contents (Elt F) → (⟨S1114112, .i1⟩ : BufTy).Contents (Elt F)),
    nullary main_c_5 (constantI S_ 32 65536#32),
    unary main_c_5 main_v41 (broadcastInDim S1114112 ![] bcast_S_S1114112 : (⟨S_, .i32⟩ : BufTy).Contents (Elt F) → (⟨S1114112, .i32⟩ : BufTy).Contents (Elt F)),
    binary main_v18 main_v41 main_v42 (addi : (⟨S1114112, .i32⟩ : BufTy).Contents (Elt F) → (⟨S1114112, .i32⟩ : BufTy).Contents (Elt F) → (⟨S1114112, .i32⟩ : BufTy).Contents (Elt F)),
    ternary main_v40 main_v42 main_v18 main_v43 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v43 main_v44 (broadcastInDim S1114112x1 ![0] bcast_S1114112_S1114112x1_0 : (⟨S1114112, .i32⟩ : BufTy).Contents (Elt F) → (⟨S1114112x1, .i32⟩ : BufTy).Contents (Elt F)),
    binary main_v26 main_v44 main_v45 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v38 main_v45 main_v46 (mulf : (⟨S1114112, .f32⟩ : BufTy).Contents (Elt F) → (⟨S1114112, .f32⟩ : BufTy).Contents (Elt F) → (⟨S1114112, .f32⟩ : BufTy).Contents (Elt F)) ]

/-! ## Operations 59–70 -/

def pF : List (HloOp τ sig (Elt F)) :=
  [ nullary main_c_6 (constantI S_ 32 0#32),
    unary main_c_6 main_v47 (broadcastInDim S1114112 ![] bcast_S_S1114112 : (⟨S_, .i32⟩ : BufTy).Contents (Elt F) → (⟨S1114112, .i32⟩ : BufTy).Contents (Elt F)),
    binary main_v15 main_v47 main_v48 (cmpi .slt : (⟨S1114112, .i32⟩ : BufTy).Contents (Elt F) → (⟨S1114112, .i32⟩ : BufTy).Contents (Elt F) → (⟨S1114112, .i1⟩ : BufTy).Contents (Elt F)),
    nullary main_c_7 (constantI S_ 32 65536#32),
    unary main_c_7 main_v49 (broadcastInDim S1114112 ![] bcast_S_S1114112 : (⟨S_, .i32⟩ : BufTy).Contents (Elt F) → (⟨S1114112, .i32⟩ : BufTy).Contents (Elt F)),
    binary main_v15 main_v49 main_v50 (addi : (⟨S1114112, .i32⟩ : BufTy).Contents (Elt F) → (⟨S1114112, .i32⟩ : BufTy).Contents (Elt F) → (⟨S1114112, .i32⟩ : BufTy).Contents (Elt F)),
    ternary main_v48 main_v50 main_v15 main_v51 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v51 main_v52 (broadcastInDim S1114112x1 ![0] bcast_S1114112_S1114112x1_0 : (⟨S1114112, .i32⟩ : BufTy).Contents (Elt F) → (⟨S1114112x1, .i32⟩ : BufTy).Contents (Elt F)),
    binary main_v31 main_v52 main_v53 ((fun x i => Host.gather gather_S65536x128_S1114112x1_S1114112x128_1_0_n_n_0_1_1128 x i) : (⟨S65536x128, .f32⟩ : BufTy).Contents (Elt F) → (⟨S1114112x1, .i32⟩ : BufTy).Contents (Elt F) → (⟨S1114112x128, .f32⟩ : BufTy).Contents (Elt F)),
    unary main_v46 main_v54 (broadcastInDim S1114112x1 ![0] bcast_S1114112_S1114112x1_0 : (⟨S1114112, .f32⟩ : BufTy).Contents (Elt F) → (⟨S1114112x1, .f32⟩ : BufTy).Contents (Elt F)),
    unary main_v54 main_v55 (broadcastInDim S1114112x128 ![0, 1] bcast_S1114112x1_S1114112x128_0_1 : (⟨S1114112x1, .f32⟩ : BufTy).Contents (Elt F) → (⟨S1114112x128, .f32⟩ : BufTy).Contents (Elt F)),
    binary main_v53 main_v55 main_v56 (mulf : (⟨S1114112x128, .f32⟩ : BufTy).Contents (Elt F) → (⟨S1114112x128, .f32⟩ : BufTy).Contents (Elt F) → (⟨S1114112x128, .f32⟩ : BufTy).Contents (Elt F)) ]

/-! ## Operations 71–77 -/

def pG : List (HloOp τ sig (Elt F)) :=
  [ nullary main_cst_8 (constant S_ .f32 0x00000000#32),
    unary main_cst_8 main_v57 (broadcastInDim S65536x128 ![] bcast_S_S65536x128 : (⟨S_, .f32⟩ : BufTy).Contents (Elt F) → (⟨S65536x128, .f32⟩ : BufTy).Contents (Elt F)),
    unary main_v18 main_v58 (broadcastInDim S1114112x1 ![0] bcast_S1114112_S1114112x1_0 : (⟨S1114112, .i32⟩ : BufTy).Contents (Elt F) → (⟨S1114112x1, .i32⟩ : BufTy).Contents (Elt F)),
    ternary main_v57 main_v58 main_v56 main_v59 ((fun x i u => Host.scatterAdd scatter_S65536x128_S1114112x1_S1114112x128_1_0_0_1 x i u) : (⟨S65536x128, .f32⟩ : BufTy).Contents (Elt F) → (⟨S1114112x1, .i32⟩ : BufTy).Contents (Elt F) → (⟨S1114112x128, .f32⟩ : BufTy).Contents (Elt F) → (⟨S65536x128, .f32⟩ : BufTy).Contents (Elt F)),
    unary main_v30 main_v60 (broadcastInDim S1x128 ![1] bcast_S128_S1x128_1 : (⟨S128, .f32⟩ : BufTy).Contents (Elt F) → (⟨S1x128, .f32⟩ : BufTy).Contents (Elt F)),
    unary main_v60 main_v61 (broadcastInDim S65536x128 ![0, 1] bcast_S1x128_S65536x128_0_1 : (⟨S1x128, .f32⟩ : BufTy).Contents (Elt F) → (⟨S65536x128, .f32⟩ : BufTy).Contents (Elt F)),
    binary main_v59 main_v61 main_v62 (addf : (⟨S65536x128, .f32⟩ : BufTy).Contents (Elt F) → (⟨S65536x128, .f32⟩ : BufTy).Contents (Elt F) → (⟨S65536x128, .f32⟩ : BufTy).Contents (Elt F)) ]

/-! ## Operations 78–80 -/

def pH : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S65536x128, .f32⟩) main_call2_v0) (broadcastInDim S65536x128 ![] bcast_S_S65536x128),
    TRef.binary (TRef.of (T := ⟨S65536x128, .f32⟩) main_v62) (TRef.of (T := ⟨S65536x128, .f32⟩) main_call2_v0) (TRef.of (T := ⟨S65536x128, .f32⟩) main_v63) maximumf ]

theorem tr_main_call2_cst (V : Valuation τ sig (Elt F)) :
    HloOp.result ((TRef.nullary (TRef.of (T := ⟨S_, .f32⟩) main_call2_cst) (constant S_ .f32 0x00000000#32)) : HloOp τ sig (Elt F)) V (Proc.devRef .tc main_call2_cst)
      = ((constant S_ .f32 0x00000000#32) : (⟨S_, .f32⟩ : BufTy).Contents (Elt F)) := by
  rw [nullary_result]; rfl
theorem tr_main_call2_v0 (V : Valuation τ sig (Elt F)) :
    HloOp.result ((TRef.unary (TRef.of (T := ⟨S_, .f32⟩) main_call2_cst) (TRef.of (T := ⟨S65536x128, .f32⟩) main_call2_v0) (broadcastInDim S65536x128 ![] bcast_S_S65536x128)) : HloOp τ sig (Elt F)) V (Proc.devRef .tc main_call2_v0)
      = (((broadcastInDim S65536x128 ![] bcast_S_S65536x128)) (V (Proc.devRef .tc main_call2_cst)) : (⟨S65536x128, .f32⟩ : BufTy).Contents (Elt F)) := by
  rw [unary_result]; rfl
theorem tr_main_v63 (V : Valuation τ sig (Elt F)) :
    HloOp.result ((TRef.binary (TRef.of (T := ⟨S65536x128, .f32⟩) main_v62) (TRef.of (T := ⟨S65536x128, .f32⟩) main_call2_v0) (TRef.of (T := ⟨S65536x128, .f32⟩) main_v63) maximumf) : HloOp τ sig (Elt F)) V (Proc.devRef .tc main_v63)
      = ((maximumf) (V (Proc.devRef .tc main_v62)) (V (Proc.devRef .tc main_call2_v0)) : (⟨S65536x128, .f32⟩ : BufTy).Contents (Elt F)) := by
  rw [binary_result]; rfl

variable (W : Valuation τ sig (Elt Ideal))

theorem pD_v30 (a7 : _)
    (h7 : W (Proc.devRef .tc main_arg7) = a7) :
    after (pD (F := Ideal)) W (Proc.devRef .tc main_v30) = val_main_v30 (F := Ideal) a7 := by
  dsimp only [pD]; after_results_simp; rw [h7]; rfl
theorem pD_v31 (a0 a2 a4 a5 a6 : _)
    (h_v11 : W (Proc.devRef .tc main_v11) = val_main_v11 (F := Ideal) a0 a2 a4 a5)
    (h6 : W (Proc.devRef .tc main_arg6) = a6) :
    after (pD (F := Ideal)) W (Proc.devRef .tc main_v31) = val_main_v31 (F := Ideal) a0 a2 a4 a5 a6 := by
  dsimp only [pD]; after_results_simp; rw [h_v11, h6]; rfl
theorem pD_keep_v15 : after (pD (F := Ideal)) W (Proc.devRef .tc main_v15) = W (Proc.devRef .tc main_v15) := by
  dsimp only [pD]; after_results_simp
theorem pD_keep_v18 : after (pD (F := Ideal)) W (Proc.devRef .tc main_v18) = W (Proc.devRef .tc main_v18) := by
  dsimp only [pD]; after_results_simp
theorem pD_keep_v26 : after (pD (F := Ideal)) W (Proc.devRef .tc main_v26) = W (Proc.devRef .tc main_v26) := by
  dsimp only [pD]; after_results_simp
theorem pD_keep_arg6 : after (pD (F := Ideal)) W (Proc.devRef .tc main_arg6) = W (Proc.devRef .tc main_arg6) := by
  dsimp only [pD]; after_results_simp
theorem pD_keep_arg7 : after (pD (F := Ideal)) W (Proc.devRef .tc main_arg7) = W (Proc.devRef .tc main_arg7) := by
  dsimp only [pD]; after_results_simp
theorem pD_keep_arg8 : after (pD (F := Ideal)) W (Proc.devRef .tc main_arg8) = W (Proc.devRef .tc main_arg8) := by
  dsimp only [pD]; after_results_simp
theorem pD_keep_arg9 : after (pD (F := Ideal)) W (Proc.devRef .tc main_arg9) = W (Proc.devRef .tc main_arg9) := by
  dsimp only [pD]; after_results_simp

theorem pE_v46 (a1 : _)
    (h_v26 : W (Proc.devRef .tc main_v26) = val_main_v26 (F := Ideal) a1)
    (h_v18 : W (Proc.devRef .tc main_v18) = val_main_v18 (F := Ideal) a1)
    (h_v15 : W (Proc.devRef .tc main_v15) = val_main_v15 (F := Ideal) a1) :
    after (pE (F := Ideal)) W (Proc.devRef .tc main_v46) = val_main_v46 (F := Ideal) a1 := by
  dsimp only [pE]; after_results_simp; rw [h_v26, h_v18, h_v15]; rfl
theorem pE_keep_v15 : after (pE (F := Ideal)) W (Proc.devRef .tc main_v15) = W (Proc.devRef .tc main_v15) := by
  dsimp only [pE]; after_results_simp
theorem pE_keep_v18 : after (pE (F := Ideal)) W (Proc.devRef .tc main_v18) = W (Proc.devRef .tc main_v18) := by
  dsimp only [pE]; after_results_simp
theorem pE_keep_v26 : after (pE (F := Ideal)) W (Proc.devRef .tc main_v26) = W (Proc.devRef .tc main_v26) := by
  dsimp only [pE]; after_results_simp
theorem pE_keep_arg6 : after (pE (F := Ideal)) W (Proc.devRef .tc main_arg6) = W (Proc.devRef .tc main_arg6) := by
  dsimp only [pE]; after_results_simp
theorem pE_keep_arg7 : after (pE (F := Ideal)) W (Proc.devRef .tc main_arg7) = W (Proc.devRef .tc main_arg7) := by
  dsimp only [pE]; after_results_simp
theorem pE_keep_arg8 : after (pE (F := Ideal)) W (Proc.devRef .tc main_arg8) = W (Proc.devRef .tc main_arg8) := by
  dsimp only [pE]; after_results_simp
theorem pE_keep_arg9 : after (pE (F := Ideal)) W (Proc.devRef .tc main_arg9) = W (Proc.devRef .tc main_arg9) := by
  dsimp only [pE]; after_results_simp
theorem pE_keep_v31 : after (pE (F := Ideal)) W (Proc.devRef .tc main_v31) = W (Proc.devRef .tc main_v31) := by
  dsimp only [pE]; after_results_simp
theorem pE_keep_v30 : after (pE (F := Ideal)) W (Proc.devRef .tc main_v30) = W (Proc.devRef .tc main_v30) := by
  dsimp only [pE]; after_results_simp

theorem pF_v56 (a0 a1 a2 a4 a5 a6 : _)
    (h_v46 : W (Proc.devRef .tc main_v46) = val_main_v46 (F := Ideal) a1)
    (h_v31 : W (Proc.devRef .tc main_v31) = val_main_v31 (F := Ideal) a0 a2 a4 a5 a6)
    (h_v15 : W (Proc.devRef .tc main_v15) = val_main_v15 (F := Ideal) a1) :
    after (pF (F := Ideal)) W (Proc.devRef .tc main_v56) = val_main_v56 (F := Ideal) a0 a1 a2 a4 a5 a6 := by
  dsimp only [pF]; after_results_simp; rw [h_v46, h_v31, h_v15]; rfl
theorem pF_keep_v15 : after (pF (F := Ideal)) W (Proc.devRef .tc main_v15) = W (Proc.devRef .tc main_v15) := by
  dsimp only [pF]; after_results_simp
theorem pF_keep_v18 : after (pF (F := Ideal)) W (Proc.devRef .tc main_v18) = W (Proc.devRef .tc main_v18) := by
  dsimp only [pF]; after_results_simp
theorem pF_keep_v26 : after (pF (F := Ideal)) W (Proc.devRef .tc main_v26) = W (Proc.devRef .tc main_v26) := by
  dsimp only [pF]; after_results_simp
theorem pF_keep_arg6 : after (pF (F := Ideal)) W (Proc.devRef .tc main_arg6) = W (Proc.devRef .tc main_arg6) := by
  dsimp only [pF]; after_results_simp
theorem pF_keep_arg7 : after (pF (F := Ideal)) W (Proc.devRef .tc main_arg7) = W (Proc.devRef .tc main_arg7) := by
  dsimp only [pF]; after_results_simp
theorem pF_keep_arg8 : after (pF (F := Ideal)) W (Proc.devRef .tc main_arg8) = W (Proc.devRef .tc main_arg8) := by
  dsimp only [pF]; after_results_simp
theorem pF_keep_arg9 : after (pF (F := Ideal)) W (Proc.devRef .tc main_arg9) = W (Proc.devRef .tc main_arg9) := by
  dsimp only [pF]; after_results_simp
theorem pF_keep_v30 : after (pF (F := Ideal)) W (Proc.devRef .tc main_v30) = W (Proc.devRef .tc main_v30) := by
  dsimp only [pF]; after_results_simp

theorem pG_v62 (a0 a1 a2 a4 a5 a6 a7 : _)
    (h_v30 : W (Proc.devRef .tc main_v30) = val_main_v30 (F := Ideal) a7)
    (h_v56 : W (Proc.devRef .tc main_v56) = val_main_v56 (F := Ideal) a0 a1 a2 a4 a5 a6)
    (h_v18 : W (Proc.devRef .tc main_v18) = val_main_v18 (F := Ideal) a1) :
    after (pG (F := Ideal)) W (Proc.devRef .tc main_v62) = val_main_v62 (F := Ideal) a0 a1 a2 a4 a5 a6 a7 := by
  dsimp only [pG]; after_results_simp; rw [h_v30, h_v56, h_v18]; rfl
theorem pG_keep_v15 : after (pG (F := Ideal)) W (Proc.devRef .tc main_v15) = W (Proc.devRef .tc main_v15) := by
  dsimp only [pG]; after_results_simp
theorem pG_keep_v18 : after (pG (F := Ideal)) W (Proc.devRef .tc main_v18) = W (Proc.devRef .tc main_v18) := by
  dsimp only [pG]; after_results_simp
theorem pG_keep_v26 : after (pG (F := Ideal)) W (Proc.devRef .tc main_v26) = W (Proc.devRef .tc main_v26) := by
  dsimp only [pG]; after_results_simp
theorem pG_keep_arg6 : after (pG (F := Ideal)) W (Proc.devRef .tc main_arg6) = W (Proc.devRef .tc main_arg6) := by
  dsimp only [pG]; after_results_simp
theorem pG_keep_arg7 : after (pG (F := Ideal)) W (Proc.devRef .tc main_arg7) = W (Proc.devRef .tc main_arg7) := by
  dsimp only [pG]; after_results_simp
theorem pG_keep_arg8 : after (pG (F := Ideal)) W (Proc.devRef .tc main_arg8) = W (Proc.devRef .tc main_arg8) := by
  dsimp only [pG]; after_results_simp
theorem pG_keep_arg9 : after (pG (F := Ideal)) W (Proc.devRef .tc main_arg9) = W (Proc.devRef .tc main_arg9) := by
  dsimp only [pG]; after_results_simp

theorem pH_v63 (a0 a1 a2 a4 a5 a6 a7 : _)
    (h_v62 : W (Proc.devRef .tc main_v62) = val_main_v62 (F := Ideal) a0 a1 a2 a4 a5 a6 a7) :
    after (pH (F := Ideal)) W (Proc.devRef .tc main_v63) = val_main_v63 (F := Ideal) a0 a1 a2 a4 a5 a6 a7 := by
  dsimp only [pH]
  simp only [after_cons, after_nil]
  rw [tr_main_v63, tr_main_call2_v0, tr_main_call2_cst]
  after_results_simp
  rw [h_v62]
  rfl
theorem pH_keep_v15 : after (pH (F := Ideal)) W (Proc.devRef .tc main_v15) = W (Proc.devRef .tc main_v15) := by
  dsimp only [pH]; after_results_simp
theorem pH_keep_v18 : after (pH (F := Ideal)) W (Proc.devRef .tc main_v18) = W (Proc.devRef .tc main_v18) := by
  dsimp only [pH]; after_results_simp
theorem pH_keep_v26 : after (pH (F := Ideal)) W (Proc.devRef .tc main_v26) = W (Proc.devRef .tc main_v26) := by
  dsimp only [pH]; after_results_simp
theorem pH_keep_arg6 : after (pH (F := Ideal)) W (Proc.devRef .tc main_arg6) = W (Proc.devRef .tc main_arg6) := by
  dsimp only [pH]; after_results_simp
theorem pH_keep_arg7 : after (pH (F := Ideal)) W (Proc.devRef .tc main_arg7) = W (Proc.devRef .tc main_arg7) := by
  dsimp only [pH]; after_results_simp
theorem pH_keep_arg8 : after (pH (F := Ideal)) W (Proc.devRef .tc main_arg8) = W (Proc.devRef .tc main_arg8) := by
  dsimp only [pH]; after_results_simp
theorem pH_keep_arg9 : after (pH (F := Ideal)) W (Proc.devRef .tc main_arg9) = W (Proc.devRef .tc main_arg9) := by
  dsimp only [pH]; after_results_simp

end Cert.Bridge.Ref

end
-- ==== Proof.RefChainHead3.lean ====
/-
  The reference program's operations 81–126, a few at a time (as in the first part): the second layer — weight, bias and
  transform (81–85), the normalisation again (86–104), gather and scale (105–116), sum at the targets plus the bias
  (117–123), the clamp at zero (124–126).
-/
import proofs.«118539_j77197742178636_1_alg».proof.Proof.RefReadP
import Idealize.ShloMosaic.Lib.StableHlo.Run
import Idealize.ShloMosaic.Lib.Pipeline.Frame

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable {F : FTy → Type} [FloatOps F]

/-! ## Operations 81–85 -/

def pI : List (HloOp τ sig (Elt F)) :=
  [ unary main_arg6 main_v64 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v64 main_v65 rfl shapeCasts_S1x128x128_S128x128,
    unary main_arg7 main_v66 ((extractStridedSlice S1x128 ![1, 0] · slices_S3x128_S1x128_1_0) : (⟨S3x128, .f32⟩ : BufTy).Contents (Elt F) → (⟨S1x128, .f32⟩ : BufTy).Contents (Elt F)),
    reshape main_v66 main_v67 rfl shapeCasts_S1x128_S128,
    binary main_v63 main_v65 main_v68 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)) ]

/-! ## Operations 86–104 -/

def pJ : List (HloOp τ sig (Elt F)) :=
  [ nullary main_c_9 (constantI S_ 32 0#32),
    unary main_c_9 main_v69 (broadcastInDim S1114112 ![] bcast_S_S1114112 : (⟨S_, .i32⟩ : BufTy).Contents (Elt F) → (⟨S1114112, .i32⟩ : BufTy).Contents (Elt F)),
    binary main_v15 main_v69 main_v70 (cmpi .slt : (⟨S1114112, .i32⟩ : BufTy).Contents (Elt F) → (⟨S1114112, .i32⟩ : BufTy).Contents (Elt F) → (⟨S1114112, .i1⟩ : BufTy).Contents (Elt F)),
    nullary main_c_10 (constantI S_ 32 65536#32),
    unary main_c_10 main_v71 (broadcastInDim S1114112 ![] bcast_S_S1114112 : (⟨S_, .i32⟩ : BufTy).Contents (Elt F) → (⟨S1114112, .i32⟩ : BufTy).Contents (Elt F)),
    binary main_v15 main_v71 main_v72 (addi : (⟨S1114112, .i32⟩ : BufTy).Contents (Elt F) → (⟨S1114112, .i32⟩ : BufTy).Contents (Elt F) → (⟨S1114112, .i32⟩ : BufTy).Contents (Elt F)),
    ternary main_v70 main_v72 main_v15 main_v73 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v73 main_v74 (broadcastInDim S1114112x1 ![0] bcast_S1114112_S1114112x1_0 : (⟨S1114112, .i32⟩ : BufTy).Contents (Elt F) → (⟨S1114112x1, .i32⟩ : BufTy).Contents (Elt F)),
    binary main_v26 main_v74 main_v75 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    nullary main_c_11 (constantI S_ 32 0#32),
    unary main_c_11 main_v76 (broadcastInDim S1114112 ![] bcast_S_S1114112 : (⟨S_, .i32⟩ : BufTy).Contents (Elt F) → (⟨S1114112, .i32⟩ : BufTy).Contents (Elt F)),
    binary main_v18 main_v76 main_v77 (cmpi .slt : (⟨S1114112, .i32⟩ : BufTy).Contents (Elt F) → (⟨S1114112, .i32⟩ : BufTy).Contents (Elt F) → (⟨S1114112, .i1⟩ : BufTy).Contents (Elt F)),
    nullary main_c_12 (constantI S_ 32 65536#32),
    unary main_c_12 main_v78 (broadcastInDim S1114112 ![] bcast_S_S1114112 : (⟨S_, .i32⟩ : BufTy).Contents (Elt F) → (⟨S1114112, .i32⟩ : BufTy).Contents (Elt F)),
    binary main_v18 main_v78 main_v79 (addi : (⟨S1114112, .i32⟩ : BufTy).Contents (Elt F) → (⟨S1114112, .i32⟩ : BufTy).Contents (Elt F) → (⟨S1114112, .i32⟩ : BufTy).Contents (Elt F)),
    ternary main_v77 main_v79 main_v18 main_v80 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v80 main_v81 (broadcastInDim S1114112x1 ![0] bcast_S1114112_S1114112x1_0 : (⟨S1114112, .i32⟩ : BufTy).Contents (Elt F) → (⟨S1114112x1, .i32⟩ : BufTy).Contents (Elt F)),
    binary main_v26 main_v81 main_v82 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v75 main_v82 main_v83 (mulf : (⟨S1114112, .f32⟩ : BufTy).Contents (Elt F) → (⟨S1114112, .f32⟩ : BufTy).Contents (Elt F) → (⟨S1114112, .f32⟩ : BufTy).Contents (Elt F)) ]

/-! ## Operations 105–116 -/

def pK : List (HloOp τ sig (Elt F)) :=
  [ nullary main_c_13 (constantI S_ 32 0#32),
    unary main_c_13 main_v84 (broadcastInDim S1114112 ![] bcast_S_S1114112 : (⟨S_, .i32⟩ : BufTy).Contents (Elt F) → (⟨S1114112, .i32⟩ : BufTy).Contents (Elt F)),
    binary main_v15 main_v84 main_v85 (cmpi .slt : (⟨S1114112, .i32⟩ : BufTy).Contents (Elt F) → (⟨S1114112, .i32⟩ : BufTy).Contents (Elt F) → (⟨S1114112, .i1⟩ : BufTy).Contents (Elt F)),
    nullary main_c_14 (constantI S_ 32 65536#32),
    unary main_c_14 main_v86 (broadcastInDim S1114112 ![] bcast_S_S1114112 : (⟨S_, .i32⟩ : BufTy).Contents (Elt F) → (⟨S1114112, .i32⟩ : BufTy).Contents (Elt F)),
    binary main_v15 main_v86 main_v87 (addi : (⟨S1114112, .i32⟩ : BufTy).Contents (Elt F) → (⟨S1114112, .i32⟩ : BufTy).Contents (Elt F) → (⟨S1114112, .i32⟩ : BufTy).Contents (Elt F)),
    ternary main_v85 main_v87 main_v15 main_v88 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v88 main_v89 (broadcastInDim S1114112x1 ![0] bcast_S1114112_S1114112x1_0 : (⟨S1114112, .i32⟩ : BufTy).Contents (Elt F) → (⟨S1114112x1, .i32⟩ : BufTy).Contents (Elt F)),
    binary main_v68 main_v89 main_v90 ((fun x i => Host.gather gather_S65536x128_S1114112x1_S1114112x128_1_0_n_n_0_1_1128 x i) : (⟨S65536x128, .f32⟩ : BufTy).Contents (Elt F) → (⟨S1114112x1, .i32⟩ : BufTy).Contents (Elt F) → (⟨S1114112x128, .f32⟩ : BufTy).Contents (Elt F)),
    unary main_v83 main_v91 (broadcastInDim S1114112x1 ![0] bcast_S1114112_S1114112x1_0 : (⟨S1114112, .f32⟩ : BufTy).Contents (Elt F) → (⟨S1114112x1, .f32⟩ : BufTy).Contents (Elt F)),
    unary main_v91 main_v92 (broadcastInDim S1114112x128 ![0, 1] bcast_S1114112x1_S1114112x128_0_1 : (⟨S1114112x1, .f32⟩ : BufTy).Contents (Elt F) → (⟨S1114112x128, .f32⟩ : BufTy).Contents (Elt F)),
    binary main_v90 main_v92 main_v93 (mulf : (⟨S1114112x128, .f32⟩ : BufTy).Contents (Elt F) → (⟨S1114112x128, .f32⟩ : BufTy).Contents (Elt F) → (⟨S1114112x128, .f32⟩ : BufTy).Contents (Elt F)) ]

/-! ## Operations 117–123 -/

def pL : List (HloOp τ sig (Elt F)) :=
  [ nullary main_cst_15 (constant S_ .f32 0x00000000#32),
    unary main_cst_15 main_v94 (broadcastInDim S65536x128 ![] bcast_S_S65536x128 : (⟨S_, .f32⟩ : BufTy).Contents (Elt F) → (⟨S65536x128, .f32⟩ : BufTy).Contents (Elt F)),
    unary main_v18 main_v95 (broadcastInDim S1114112x1 ![0] bcast_S1114112_S1114112x1_0 : (⟨S1114112, .i32⟩ : BufTy).Contents (Elt F) → (⟨S1114112x1, .i32⟩ : BufTy).Contents (Elt F)),
    ternary main_v94 main_v95 main_v93 main_v96 ((fun x i u => Host.scatterAdd scatter_S65536x128_S1114112x1_S1114112x128_1_0_0_1 x i u) : (⟨S65536x128, .f32⟩ : BufTy).Contents (Elt F) → (⟨S1114112x1, .i32⟩ : BufTy).Contents (Elt F) → (⟨S1114112x128, .f32⟩ : BufTy).Contents (Elt F) → (⟨S65536x128, .f32⟩ : BufTy).Contents (Elt F)),
    unary main_v67 main_v97 (broadcastInDim S1x128 ![1] bcast_S128_S1x128_1 : (⟨S128, .f32⟩ : BufTy).Contents (Elt F) → (⟨S1x128, .f32⟩ : BufTy).Contents (Elt F)),
    unary main_v97 main_v98 (broadcastInDim S65536x128 ![0, 1] bcast_S1x128_S65536x128_0_1 : (⟨S1x128, .f32⟩ : BufTy).Contents (Elt F) → (⟨S65536x128, .f32⟩ : BufTy).Contents (Elt F)),
    binary main_v96 main_v98 main_v99 (addf : (⟨S65536x128, .f32⟩ : BufTy).Contents (Elt F) → (⟨S65536x128, .f32⟩ : BufTy).Contents (Elt F) → (⟨S65536x128, .f32⟩ : BufTy).Contents (Elt F)) ]

/-! ## Operations 124–126 -/

def pM : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S65536x128, .f32⟩) main_call3_v0) (broadcastInDim S65536x128 ![] bcast_S_S65536x128),
    TRef.binary (TRef.of (T := ⟨S65536x128, .f32⟩) main_v99) (TRef.of (T := ⟨S65536x128, .f32⟩) main_call3_v0) (TRef.of (T := ⟨S65536x128, .f32⟩) main_v100) maximumf ]

theorem tr_main_call3_cst (V : Valuation τ sig (Elt F)) :
    HloOp.result ((TRef.nullary (TRef.of (T := ⟨S_, .f32⟩) main_call3_cst) (constant S_ .f32 0x00000000#32)) : HloOp τ sig (Elt F)) V (Proc.devRef .tc main_call3_cst)
      = ((constant S_ .f32 0x00000000#32) : (⟨S_, .f32⟩ : BufTy).Contents (Elt F)) := by
  rw [nullary_result]; rfl
theorem tr_main_call3_v0 (V : Valuation τ sig (Elt F)) :
    HloOp.result ((TRef.unary (TRef.of (T := ⟨S_, .f32⟩) main_call3_cst) (TRef.of (T := ⟨S65536x128, .f32⟩) main_call3_v0) (broadcastInDim S65536x128 ![] bcast_S_S65536x128)) : HloOp τ sig (Elt F)) V (Proc.devRef .tc main_call3_v0)
      = (((broadcastInDim S65536x128 ![] bcast_S_S65536x128)) (V (Proc.devRef .tc main_call3_cst)) : (⟨S65536x128, .f32⟩ : BufTy).Contents (Elt F)) := by
  rw [unary_result]; rfl
theorem tr_main_v100 (V : Valuation τ sig (Elt F)) :
    HloOp.result ((TRef.binary (TRef.of (T := ⟨S65536x128, .f32⟩) main_v99) (TRef.of (T := ⟨S65536x128, .f32⟩) main_call3_v0) (TRef.of (T := ⟨S65536x128, .f32⟩) main_v100) maximumf) : HloOp τ sig (Elt F)) V (Proc.devRef .tc main_v100)
      = ((maximumf) (V (Proc.devRef .tc main_v99)) (V (Proc.devRef .tc main_call3_v0)) : (⟨S65536x128, .f32⟩ : BufTy).Contents (Elt F)) := by
  rw [binary_result]; rfl

variable (W : Valuation τ sig (Elt Ideal))

theorem pI_v67 (a7 : _)
    (h7 : W (Proc.devRef .tc main_arg7) = a7) :
    after (pI (F := Ideal)) W (Proc.devRef .tc main_v67) = val_main_v67 (F := Ideal) a7 := by
  dsimp only [pI]; after_results_simp; rw [h7]; rfl
theorem pI_v68 (a0 a1 a2 a4 a5 a6 a7 : _)
    (h_v63 : W (Proc.devRef .tc main_v63) = val_main_v63 (F := Ideal) a0 a1 a2 a4 a5 a6 a7)
    (h6 : W (Proc.devRef .tc main_arg6) = a6) :
    after (pI (F := Ideal)) W (Proc.devRef .tc main_v68) = val_main_v68 (F := Ideal) a0 a1 a2 a4 a5 a6 a7 := by
  dsimp only [pI]; after_results_simp; rw [h_v63, h6]; rfl
theorem pI_keep_v15 : after (pI (F := Ideal)) W (Proc.devRef .tc main_v15) = W (Proc.devRef .tc main_v15) := by
  dsimp only [pI]; after_results_simp
theorem pI_keep_v18 : after (pI (F := Ideal)) W (Proc.devRef .tc main_v18) = W (Proc.devRef .tc main_v18) := by
  dsimp only [pI]; after_results_simp
theorem pI_keep_v26 : after (pI (F := Ideal)) W (Proc.devRef .tc main_v26) = W (Proc.devRef .tc main_v26) := by
  dsimp only [pI]; after_results_simp
theorem pI_keep_arg6 : after (pI (F := Ideal)) W (Proc.devRef .tc main_arg6) = W (Proc.devRef .tc main_arg6) := by
  dsimp only [pI]; after_results_simp
theorem pI_keep_arg7 : after (pI (F := Ideal)) W (Proc.devRef .tc main_arg7) = W (Proc.devRef .tc main_arg7) := by
  dsimp only [pI]; after_results_simp
theorem pI_keep_arg8 : after (pI (F := Ideal)) W (Proc.devRef .tc main_arg8) = W (Proc.devRef .tc main_arg8) := by
  dsimp only [pI]; after_results_simp
theorem pI_keep_arg9 : after (pI (F := Ideal)) W (Proc.devRef .tc main_arg9) = W (Proc.devRef .tc main_arg9) := by
  dsimp only [pI]; after_results_simp

theorem pJ_v83 (a1 : _)
    (h_v26 : W (Proc.devRef .tc main_v26) = val_main_v26 (F := Ideal) a1)
    (h_v18 : W (Proc.devRef .tc main_v18) = val_main_v18 (F := Ideal) a1)
    (h_v15 : W (Proc.devRef .tc main_v15) = val_main_v15 (F := Ideal) a1) :
    after (pJ (F := Ideal)) W (Proc.devRef .tc main_v83) = val_main_v83 (F := Ideal) a1 := by
  dsimp only [pJ]; after_results_simp; rw [h_v26, h_v18, h_v15]; rfl
theorem pJ_keep_v15 : after (pJ (F := Ideal)) W (Proc.devRef .tc main_v15) = W (Proc.devRef .tc main_v15) := by
  dsimp only [pJ]; after_results_simp
theorem pJ_keep_v18 : after (pJ (F := Ideal)) W (Proc.devRef .tc main_v18) = W (Proc.devRef .tc main_v18) := by
  dsimp only [pJ]; after_results_simp
theorem pJ_keep_v26 : after (pJ (F := Ideal)) W (Proc.devRef .tc main_v26) = W (Proc.devRef .tc main_v26) := by
  dsimp only [pJ]; after_results_simp
theorem pJ_keep_arg6 : after (pJ (F := Ideal)) W (Proc.devRef .tc main_arg6) = W (Proc.devRef .tc main_arg6) := by
  dsimp only [pJ]; after_results_simp
theorem pJ_keep_arg7 : after (pJ (F := Ideal)) W (Proc.devRef .tc main_arg7) = W (Proc.devRef .tc main_arg7) := by
  dsimp only [pJ]; after_results_simp
theorem pJ_keep_arg8 : after (pJ (F := Ideal)) W (Proc.devRef .tc main_arg8) = W (Proc.devRef .tc main_arg8) := by
  dsimp only [pJ]; after_results_simp
theorem pJ_keep_arg9 : after (pJ (F := Ideal)) W (Proc.devRef .tc main_arg9) = W (Proc.devRef .tc main_arg9) := by
  dsimp only [pJ]; after_results_simp
theorem pJ_keep_v68 : after (pJ (F := Ideal)) W (Proc.devRef .tc main_v68) = W (Proc.devRef .tc main_v68) := by
  dsimp only [pJ]; after_results_simp
theorem pJ_keep_v67 : after (pJ (F := Ideal)) W (Proc.devRef .tc main_v67) = W (Proc.devRef .tc main_v67) := by
  dsimp only [pJ]; after_results_simp

theorem pK_v93 (a0 a1 a2 a4 a5 a6 a7 : _)
    (h_v83 : W (Proc.devRef .tc main_v83) = val_main_v83 (F := Ideal) a1)
    (h_v68 : W (Proc.devRef .tc main_v68) = val_main_v68 (F := Ideal) a0 a1 a2 a4 a5 a6 a7)
    (h_v15 : W (Proc.devRef .tc main_v15) = val_main_v15 (F := Ideal) a1) :
    after (pK (F := Ideal)) W (Proc.devRef .tc main_v93) = val_main_v93 (F := Ideal) a0 a1 a2 a4 a5 a6 a7 := by
  dsimp only [pK]; after_results_simp; rw [h_v83, h_v68, h_v15]; rfl
theorem pK_keep_v15 : after (pK (F := Ideal)) W (Proc.devRef .tc main_v15) = W (Proc.devRef .tc main_v15) := by
  dsimp only [pK]; after_results_simp
theorem pK_keep_v18 : after (pK (F := Ideal)) W (Proc.devRef .tc main_v18) = W (Proc.devRef .tc main_v18) := by
  dsimp only [pK]; after_results_simp
theorem pK_keep_v26 : after (pK (F := Ideal)) W (Proc.devRef .tc main_v26) = W (Proc.devRef .tc main_v26) := by
  dsimp only [pK]; after_results_simp
theorem pK_keep_arg6 : after (pK (F := Ideal)) W (Proc.devRef .tc main_arg6) = W (Proc.devRef .tc main_arg6) := by
  dsimp only [pK]; after_results_simp
theorem pK_keep_arg7 : after (pK (F := Ideal)) W (Proc.devRef .tc main_arg7) = W (Proc.devRef .tc main_arg7) := by
  dsimp only [pK]; after_results_simp
theorem pK_keep_arg8 : after (pK (F := Ideal)) W (Proc.devRef .tc main_arg8) = W (Proc.devRef .tc main_arg8) := by
  dsimp only [pK]; after_results_simp
theorem pK_keep_arg9 : after (pK (F := Ideal)) W (Proc.devRef .tc main_arg9) = W (Proc.devRef .tc main_arg9) := by
  dsimp only [pK]; after_results_simp
theorem pK_keep_v67 : after (pK (F := Ideal)) W (Proc.devRef .tc main_v67) = W (Proc.devRef .tc main_v67) := by
  dsimp only [pK]; after_results_simp

theorem pL_v99 (a0 a1 a2 a4 a5 a6 a7 : _)
    (h_v67 : W (Proc.devRef .tc main_v67) = val_main_v67 (F := Ideal) a7)
    (h_v93 : W (Proc.devRef .tc main_v93) = val_main_v93 (F := Ideal) a0 a1 a2 a4 a5 a6 a7)
    (h_v18 : W (Proc.devRef .tc main_v18) = val_main_v18 (F := Ideal) a1) :
    after (pL (F := Ideal)) W (Proc.devRef .tc main_v99) = val_main_v99 (F := Ideal) a0 a1 a2 a4 a5 a6 a7 := by
  dsimp only [pL]; after_results_simp; rw [h_v67, h_v93, h_v18]; rfl
theorem pL_keep_v15 : after (pL (F := Ideal)) W (Proc.devRef .tc main_v15) = W (Proc.devRef .tc main_v15) := by
  dsimp only [pL]; after_results_simp
theorem pL_keep_v18 : after (pL (F := Ideal)) W (Proc.devRef .tc main_v18) = W (Proc.devRef .tc main_v18) := by
  dsimp only [pL]; after_results_simp
theorem pL_keep_v26 : after (pL (F := Ideal)) W (Proc.devRef .tc main_v26) = W (Proc.devRef .tc main_v26) := by
  dsimp only [pL]; after_results_simp
theorem pL_keep_arg6 : after (pL (F := Ideal)) W (Proc.devRef .tc main_arg6) = W (Proc.devRef .tc main_arg6) := by
  dsimp only [pL]; after_results_simp
theorem pL_keep_arg7 : after (pL (F := Ideal)) W (Proc.devRef .tc main_arg7) = W (Proc.devRef .tc main_arg7) := by
  dsimp only [pL]; after_results_simp
theorem pL_keep_arg8 : after (pL (F := Ideal)) W (Proc.devRef .tc main_arg8) = W (Proc.devRef .tc main_arg8) := by
  dsimp only [pL]; after_results_simp
theorem pL_keep_arg9 : after (pL (F := Ideal)) W (Proc.devRef .tc main_arg9) = W (Proc.devRef .tc main_arg9) := by
  dsimp only [pL]; after_results_simp

theorem pM_v100 (a0 a1 a2 a4 a5 a6 a7 : _)
    (h_v99 : W (Proc.devRef .tc main_v99) = val_main_v99 (F := Ideal) a0 a1 a2 a4 a5 a6 a7) :
    after (pM (F := Ideal)) W (Proc.devRef .tc main_v100) = val_main_v100 (F := Ideal) a0 a1 a2 a4 a5 a6 a7 := by
  dsimp only [pM]
  simp only [after_cons, after_nil]
  rw [tr_main_v100, tr_main_call3_v0, tr_main_call3_cst]
  after_results_simp
  rw [h_v99]
  rfl
theorem pM_keep_v15 : after (pM (F := Ideal)) W (Proc.devRef .tc main_v15) = W (Proc.devRef .tc main_v15) := by
  dsimp only [pM]; after_results_simp
theorem pM_keep_v18 : after (pM (F := Ideal)) W (Proc.devRef .tc main_v18) = W (Proc.devRef .tc main_v18) := by
  dsimp only [pM]; after_results_simp
theorem pM_keep_v26 : after (pM (F := Ideal)) W (Proc.devRef .tc main_v26) = W (Proc.devRef .tc main_v26) := by
  dsimp only [pM]; after_results_simp
theorem pM_keep_arg6 : after (pM (F := Ideal)) W (Proc.devRef .tc main_arg6) = W (Proc.devRef .tc main_arg6) := by
  dsimp only [pM]; after_results_simp
theorem pM_keep_arg7 : after (pM (F := Ideal)) W (Proc.devRef .tc main_arg7) = W (Proc.devRef .tc main_arg7) := by
  dsimp only [pM]; after_results_simp
theorem pM_keep_arg8 : after (pM (F := Ideal)) W (Proc.devRef .tc main_arg8) = W (Proc.devRef .tc main_arg8) := by
  dsimp only [pM]; after_results_simp
theorem pM_keep_arg9 : after (pM (F := Ideal)) W (Proc.devRef .tc main_arg9) = W (Proc.devRef .tc main_arg9) := by
  dsimp only [pM]; after_results_simp

end Cert.Bridge.Ref

end
-- ==== Proof.RefChainHead.lean ====
/-
  The first 127 operations of the reference program, composed: running the short pieces one after the other from any
  contents `W` leaves the second layer's output, the two edge lists and the inverse square roots of the degrees at the
  stages of the same names, read off the argument buffers, and leaves the argument buffers as they were.
-/
import proofs.«118539_j77197742178636_1_alg».proof.Proof.RefChainHead1
import proofs.«118539_j77197742178636_1_alg».proof.Proof.RefChainHead2
import proofs.«118539_j77197742178636_1_alg».proof.Proof.RefChainHead3

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable {F : FTy → Type} [FloatOps F]

/-- The first 127 operations, as the pieces in order. -/
def headOps : List (HloOp τ sig (Elt F)) :=
  pA1 ++ pA2 ++ pA3 ++ pB ++ pC1 ++ pC2 ++ pD ++ pE ++ pF ++ pG ++ pH ++ pI ++ pJ ++ pK ++ pL ++ pM

variable (W : Valuation τ sig (Elt Ideal))

/-- The contents after operations 0–7. -/
def V_pA1 : Valuation τ sig (Elt Ideal) := after (pA1 (F := Ideal)) W
theorem V_pA1_arg6 : V_pA1 W (Proc.devRef .tc main_arg6) = W (Proc.devRef .tc main_arg6) := by
  unfold V_pA1; rw [pA1_keep_arg6]
theorem V_pA1_arg7 : V_pA1 W (Proc.devRef .tc main_arg7) = W (Proc.devRef .tc main_arg7) := by
  unfold V_pA1; rw [pA1_keep_arg7]
theorem V_pA1_arg8 : V_pA1 W (Proc.devRef .tc main_arg8) = W (Proc.devRef .tc main_arg8) := by
  unfold V_pA1; rw [pA1_keep_arg8]
theorem V_pA1_arg9 : V_pA1 W (Proc.devRef .tc main_arg9) = W (Proc.devRef .tc main_arg9) := by
  unfold V_pA1; rw [pA1_keep_arg9]
theorem V_pA1_v7 : V_pA1 W (Proc.devRef .tc main_v7) = val_main_v7 (F := Ideal) (W (Proc.devRef .tc main_arg2)) (W (Proc.devRef .tc main_arg4)) (W (Proc.devRef .tc main_arg5)) := by
  unfold V_pA1; exact pA1_v7 W _ _ _ rfl rfl rfl
theorem V_pA1_arg0 : V_pA1 W (Proc.devRef .tc main_arg0) = W (Proc.devRef .tc main_arg0) := by
  unfold V_pA1; rw [pA1_keep_arg0]
theorem V_pA1_arg1 : V_pA1 W (Proc.devRef .tc main_arg1) = W (Proc.devRef .tc main_arg1) := by
  unfold V_pA1; rw [pA1_keep_arg1]

/-- The contents after operations 0–10. -/
def V_pA2 : Valuation τ sig (Elt Ideal) := after (pA2 (F := Ideal)) (V_pA1 W)
theorem V_pA2_arg6 : V_pA2 W (Proc.devRef .tc main_arg6) = W (Proc.devRef .tc main_arg6) := by
  unfold V_pA2; rw [pA2_keep_arg6]; exact V_pA1_arg6 W
theorem V_pA2_arg7 : V_pA2 W (Proc.devRef .tc main_arg7) = W (Proc.devRef .tc main_arg7) := by
  unfold V_pA2; rw [pA2_keep_arg7]; exact V_pA1_arg7 W
theorem V_pA2_arg8 : V_pA2 W (Proc.devRef .tc main_arg8) = W (Proc.devRef .tc main_arg8) := by
  unfold V_pA2; rw [pA2_keep_arg8]; exact V_pA1_arg8 W
theorem V_pA2_arg9 : V_pA2 W (Proc.devRef .tc main_arg9) = W (Proc.devRef .tc main_arg9) := by
  unfold V_pA2; rw [pA2_keep_arg9]; exact V_pA1_arg9 W
theorem V_pA2_arg0 : V_pA2 W (Proc.devRef .tc main_arg0) = W (Proc.devRef .tc main_arg0) := by
  unfold V_pA2; rw [pA2_keep_arg0]; exact V_pA1_arg0 W
theorem V_pA2_v8 : V_pA2 W (Proc.devRef .tc main_v8) = val_main_v8 (F := Ideal) (W (Proc.devRef .tc main_arg2)) (W (Proc.devRef .tc main_arg4)) (W (Proc.devRef .tc main_arg5)) := by
  unfold V_pA2; exact pA2_v8 (V_pA1 W) _ _ _ (V_pA1_v7 W)
theorem V_pA2_arg1 : V_pA2 W (Proc.devRef .tc main_arg1) = W (Proc.devRef .tc main_arg1) := by
  unfold V_pA2; rw [pA2_keep_arg1]; exact V_pA1_arg1 W

/-- The contents after operations 0–13. -/
def V_pA3 : Valuation τ sig (Elt Ideal) := after (pA3 (F := Ideal)) (V_pA2 W)
theorem V_pA3_arg6 : V_pA3 W (Proc.devRef .tc main_arg6) = W (Proc.devRef .tc main_arg6) := by
  unfold V_pA3; rw [pA3_keep_arg6]; exact V_pA2_arg6 W
theorem V_pA3_arg7 : V_pA3 W (Proc.devRef .tc main_arg7) = W (Proc.devRef .tc main_arg7) := by
  unfold V_pA3; rw [pA3_keep_arg7]; exact V_pA2_arg7 W
theorem V_pA3_arg8 : V_pA3 W (Proc.devRef .tc main_arg8) = W (Proc.devRef .tc main_arg8) := by
  unfold V_pA3; rw [pA3_keep_arg8]; exact V_pA2_arg8 W
theorem V_pA3_arg9 : V_pA3 W (Proc.devRef .tc main_arg9) = W (Proc.devRef .tc main_arg9) := by
  unfold V_pA3; rw [pA3_keep_arg9]; exact V_pA2_arg9 W
theorem V_pA3_arg1 : V_pA3 W (Proc.devRef .tc main_arg1) = W (Proc.devRef .tc main_arg1) := by
  unfold V_pA3; rw [pA3_keep_arg1]; exact V_pA2_arg1 W
theorem V_pA3_v11 : V_pA3 W (Proc.devRef .tc main_v11) = val_main_v11 (F := Ideal) (W (Proc.devRef .tc main_arg0)) (W (Proc.devRef .tc main_arg2)) (W (Proc.devRef .tc main_arg4)) (W (Proc.devRef .tc main_arg5)) := by
  unfold V_pA3; exact pA3_v11 (V_pA2 W) _ _ _ _ (V_pA2_v8 W) (V_pA2_arg0 W)

/-- The contents after operations 0–20. -/
def V_pB : Valuation τ sig (Elt Ideal) := after (pB (F := Ideal)) (V_pA3 W)
theorem V_pB_v15 : V_pB W (Proc.devRef .tc main_v15) = val_main_v15 (F := Ideal) (W (Proc.devRef .tc main_arg1)) := by
  unfold V_pB; exact pB_v15 (V_pA3 W) _ (V_pA3_arg1 W)
theorem V_pB_v18 : V_pB W (Proc.devRef .tc main_v18) = val_main_v18 (F := Ideal) (W (Proc.devRef .tc main_arg1)) := by
  unfold V_pB; exact pB_v18 (V_pA3 W) _ (V_pA3_arg1 W)
theorem V_pB_arg6 : V_pB W (Proc.devRef .tc main_arg6) = W (Proc.devRef .tc main_arg6) := by
  unfold V_pB; rw [pB_keep_arg6]; exact V_pA3_arg6 W
theorem V_pB_arg7 : V_pB W (Proc.devRef .tc main_arg7) = W (Proc.devRef .tc main_arg7) := by
  unfold V_pB; rw [pB_keep_arg7]; exact V_pA3_arg7 W
theorem V_pB_arg8 : V_pB W (Proc.devRef .tc main_arg8) = W (Proc.devRef .tc main_arg8) := by
  unfold V_pB; rw [pB_keep_arg8]; exact V_pA3_arg8 W
theorem V_pB_arg9 : V_pB W (Proc.devRef .tc main_arg9) = W (Proc.devRef .tc main_arg9) := by
  unfold V_pB; rw [pB_keep_arg9]; exact V_pA3_arg9 W
theorem V_pB_v11 : V_pB W (Proc.devRef .tc main_v11) = val_main_v11 (F := Ideal) (W (Proc.devRef .tc main_arg0)) (W (Proc.devRef .tc main_arg2)) (W (Proc.devRef .tc main_arg4)) (W (Proc.devRef .tc main_arg5)) := by
  unfold V_pB; rw [pB_keep_v11]; exact V_pA3_v11 W

/-- The contents after operations 0–30. -/
def V_pC1 : Valuation τ sig (Elt Ideal) := after (pC1 (F := Ideal)) (V_pB W)
theorem V_pC1_v15 : V_pC1 W (Proc.devRef .tc main_v15) = val_main_v15 (F := Ideal) (W (Proc.devRef .tc main_arg1)) := by
  unfold V_pC1; rw [pC1_keep_v15]; exact V_pB_v15 W
theorem V_pC1_v18 : V_pC1 W (Proc.devRef .tc main_v18) = val_main_v18 (F := Ideal) (W (Proc.devRef .tc main_arg1)) := by
  unfold V_pC1; rw [pC1_keep_v18]; exact V_pB_v18 W
theorem V_pC1_arg6 : V_pC1 W (Proc.devRef .tc main_arg6) = W (Proc.devRef .tc main_arg6) := by
  unfold V_pC1; rw [pC1_keep_arg6]; exact V_pB_arg6 W
theorem V_pC1_arg7 : V_pC1 W (Proc.devRef .tc main_arg7) = W (Proc.devRef .tc main_arg7) := by
  unfold V_pC1; rw [pC1_keep_arg7]; exact V_pB_arg7 W
theorem V_pC1_arg8 : V_pC1 W (Proc.devRef .tc main_arg8) = W (Proc.devRef .tc main_arg8) := by
  unfold V_pC1; rw [pC1_keep_arg8]; exact V_pB_arg8 W
theorem V_pC1_arg9 : V_pC1 W (Proc.devRef .tc main_arg9) = W (Proc.devRef .tc main_arg9) := by
  unfold V_pC1; rw [pC1_keep_arg9]; exact V_pB_arg9 W
theorem V_pC1_v24 : V_pC1 W (Proc.devRef .tc main_v24) = val_main_v24 (F := Ideal) (W (Proc.devRef .tc main_arg1)) := by
  unfold V_pC1; exact pC1_v24 (V_pB W) _ (V_pB_v18 W)
theorem V_pC1_v25 : V_pC1 W (Proc.devRef .tc main_v25) = val_main_v25 (F := Ideal) (W (Proc.devRef .tc main_arg1)) := by
  unfold V_pC1; exact pC1_v25 (V_pB W) _ (V_pB_v18 W)
theorem V_pC1_v11 : V_pC1 W (Proc.devRef .tc main_v11) = val_main_v11 (F := Ideal) (W (Proc.devRef .tc main_arg0)) (W (Proc.devRef .tc main_arg2)) (W (Proc.devRef .tc main_arg4)) (W (Proc.devRef .tc main_arg5)) := by
  unfold V_pC1; rw [pC1_keep_v11]; exact V_pB_v11 W

/-- The contents after operations 0–34. -/
def V_pC2 : Valuation τ sig (Elt Ideal) := after (pC2 (F := Ideal)) (V_pC1 W)
theorem V_pC2_v15 : V_pC2 W (Proc.devRef .tc main_v15) = val_main_v15 (F := Ideal) (W (Proc.devRef .tc main_arg1)) := by
  unfold V_pC2; rw [pC2_keep_v15]; exact V_pC1_v15 W
theorem V_pC2_v18 : V_pC2 W (Proc.devRef .tc main_v18) = val_main_v18 (F := Ideal) (W (Proc.devRef .tc main_arg1)) := by
  unfold V_pC2; rw [pC2_keep_v18]; exact V_pC1_v18 W
theorem V_pC2_v26 : V_pC2 W (Proc.devRef .tc main_v26) = val_main_v26 (F := Ideal) (W (Proc.devRef .tc main_arg1)) := by
  unfold V_pC2; exact pC2_v26 (V_pC1 W) _ (V_pC1_v24 W) (V_pC1_v25 W)
theorem V_pC2_arg6 : V_pC2 W (Proc.devRef .tc main_arg6) = W (Proc.devRef .tc main_arg6) := by
  unfold V_pC2; rw [pC2_keep_arg6]; exact V_pC1_arg6 W
theorem V_pC2_arg7 : V_pC2 W (Proc.devRef .tc main_arg7) = W (Proc.devRef .tc main_arg7) := by
  unfold V_pC2; rw [pC2_keep_arg7]; exact V_pC1_arg7 W
theorem V_pC2_arg8 : V_pC2 W (Proc.devRef .tc main_arg8) = W (Proc.devRef .tc main_arg8) := by
  unfold V_pC2; rw [pC2_keep_arg8]; exact V_pC1_arg8 W
theorem V_pC2_arg9 : V_pC2 W (Proc.devRef .tc main_arg9) = W (Proc.devRef .tc main_arg9) := by
  unfold V_pC2; rw [pC2_keep_arg9]; exact V_pC1_arg9 W
theorem V_pC2_v11 : V_pC2 W (Proc.devRef .tc main_v11) = val_main_v11 (F := Ideal) (W (Proc.devRef .tc main_arg0)) (W (Proc.devRef .tc main_arg2)) (W (Proc.devRef .tc main_arg4)) (W (Proc.devRef .tc main_arg5)) := by
  unfold V_pC2; rw [pC2_keep_v11]; exact V_pC1_v11 W

/-- The contents after operations 0–39. -/
def V_pD : Valuation τ sig (Elt Ideal) := after (pD (F := Ideal)) (V_pC2 W)
theorem V_pD_v15 : V_pD W (Proc.devRef .tc main_v15) = val_main_v15 (F := Ideal) (W (Proc.devRef .tc main_arg1)) := by
  unfold V_pD; rw [pD_keep_v15]; exact V_pC2_v15 W
theorem V_pD_v18 : V_pD W (Proc.devRef .tc main_v18) = val_main_v18 (F := Ideal) (W (Proc.devRef .tc main_arg1)) := by
  unfold V_pD; rw [pD_keep_v18]; exact V_pC2_v18 W
theorem V_pD_v26 : V_pD W (Proc.devRef .tc main_v26) = val_main_v26 (F := Ideal) (W (Proc.devRef .tc main_arg1)) := by
  unfold V_pD; rw [pD_keep_v26]; exact V_pC2_v26 W
theorem V_pD_arg6 : V_pD W (Proc.devRef .tc main_arg6) = W (Proc.devRef .tc main_arg6) := by
  unfold V_pD; rw [pD_keep_arg6]; exact V_pC2_arg6 W
theorem V_pD_arg7 : V_pD W (Proc.devRef .tc main_arg7) = W (Proc.devRef .tc main_arg7) := by
  unfold V_pD; rw [pD_keep_arg7]; exact V_pC2_arg7 W
theorem V_pD_arg8 : V_pD W (Proc.devRef .tc main_arg8) = W (Proc.devRef .tc main_arg8) := by
  unfold V_pD; rw [pD_keep_arg8]; exact V_pC2_arg8 W
theorem V_pD_arg9 : V_pD W (Proc.devRef .tc main_arg9) = W (Proc.devRef .tc main_arg9) := by
  unfold V_pD; rw [pD_keep_arg9]; exact V_pC2_arg9 W
theorem V_pD_v31 : V_pD W (Proc.devRef .tc main_v31) = val_main_v31 (F := Ideal) (W (Proc.devRef .tc main_arg0)) (W (Proc.devRef .tc main_arg2)) (W (Proc.devRef .tc main_arg4)) (W (Proc.devRef .tc main_arg5)) (W (Proc.devRef .tc main_arg6)) := by
  unfold V_pD; exact pD_v31 (V_pC2 W) _ _ _ _ _ (V_pC2_v11 W) (V_pC2_arg6 W)
theorem V_pD_v30 : V_pD W (Proc.devRef .tc main_v30) = val_main_v30 (F := Ideal) (W (Proc.devRef .tc main_arg7)) := by
  unfold V_pD; exact pD_v30 (V_pC2 W) _ (V_pC2_arg7 W)

/-- The contents after operations 0–58. -/
def V_pE : Valuation τ sig (Elt Ideal) := after (pE (F := Ideal)) (V_pD W)
theorem V_pE_v15 : V_pE W (Proc.devRef .tc main_v15) = val_main_v15 (F := Ideal) (W (Proc.devRef .tc main_arg1)) := by
  unfold V_pE; rw [pE_keep_v15]; exact V_pD_v15 W
theorem V_pE_v18 : V_pE W (Proc.devRef .tc main_v18) = val_main_v18 (F := Ideal) (W (Proc.devRef .tc main_arg1)) := by
  unfold V_pE; rw [pE_keep_v18]; exact V_pD_v18 W
theorem V_pE_v26 : V_pE W (Proc.devRef .tc main_v26) = val_main_v26 (F := Ideal) (W (Proc.devRef .tc main_arg1)) := by
  unfold V_pE; rw [pE_keep_v26]; exact V_pD_v26 W
theorem V_pE_arg6 : V_pE W (Proc.devRef .tc main_arg6) = W (Proc.devRef .tc main_arg6) := by
  unfold V_pE; rw [pE_keep_arg6]; exact V_pD_arg6 W
theorem V_pE_arg7 : V_pE W (Proc.devRef .tc main_arg7) = W (Proc.devRef .tc main_arg7) := by
  unfold V_pE; rw [pE_keep_arg7]; exact V_pD_arg7 W
theorem V_pE_arg8 : V_pE W (Proc.devRef .tc main_arg8) = W (Proc.devRef .tc main_arg8) := by
  unfold V_pE; rw [pE_keep_arg8]; exact V_pD_arg8 W
theorem V_pE_arg9 : V_pE W (Proc.devRef .tc main_arg9) = W (Proc.devRef .tc main_arg9) := by
  unfold V_pE; rw [pE_keep_arg9]; exact V_pD_arg9 W
theorem V_pE_v31 : V_pE W (Proc.devRef .tc main_v31) = val_main_v31 (F := Ideal) (W (Proc.devRef .tc main_arg0)) (W (Proc.devRef .tc main_arg2)) (W (Proc.devRef .tc main_arg4)) (W (Proc.devRef .tc main_arg5)) (W (Proc.devRef .tc main_arg6)) := by
  unfold V_pE; rw [pE_keep_v31]; exact V_pD_v31 W
theorem V_pE_v46 : V_pE W (Proc.devRef .tc main_v46) = val_main_v46 (F := Ideal) (W (Proc.devRef .tc main_arg1)) := by
  unfold V_pE; exact pE_v46 (V_pD W) _ (V_pD_v26 W) (V_pD_v18 W) (V_pD_v15 W)
theorem V_pE_v30 : V_pE W (Proc.devRef .tc main_v30) = val_main_v30 (F := Ideal) (W (Proc.devRef .tc main_arg7)) := by
  unfold V_pE; rw [pE_keep_v30]; exact V_pD_v30 W

/-- The contents after operations 0–70. -/
def V_pF : Valuation τ sig (Elt Ideal) := after (pF (F := Ideal)) (V_pE W)
theorem V_pF_v15 : V_pF W (Proc.devRef .tc main_v15) = val_main_v15 (F := Ideal) (W (Proc.devRef .tc main_arg1)) := by
  unfold V_pF; rw [pF_keep_v15]; exact V_pE_v15 W
theorem V_pF_v18 : V_pF W (Proc.devRef .tc main_v18) = val_main_v18 (F := Ideal) (W (Proc.devRef .tc main_arg1)) := by
  unfold V_pF; rw [pF_keep_v18]; exact V_pE_v18 W
theorem V_pF_v26 : V_pF W (Proc.devRef .tc main_v26) = val_main_v26 (F := Ideal) (W (Proc.devRef .tc main_arg1)) := by
  unfold V_pF; rw [pF_keep_v26]; exact V_pE_v26 W
theorem V_pF_arg6 : V_pF W (Proc.devRef .tc main_arg6) = W (Proc.devRef .tc main_arg6) := by
  unfold V_pF; rw [pF_keep_arg6]; exact V_pE_arg6 W
theorem V_pF_arg7 : V_pF W (Proc.devRef .tc main_arg7) = W (Proc.devRef .tc main_arg7) := by
  unfold V_pF; rw [pF_keep_arg7]; exact V_pE_arg7 W
theorem V_pF_arg8 : V_pF W (Proc.devRef .tc main_arg8) = W (Proc.devRef .tc main_arg8) := by
  unfold V_pF; rw [pF_keep_arg8]; exact V_pE_arg8 W
theorem V_pF_arg9 : V_pF W (Proc.devRef .tc main_arg9) = W (Proc.devRef .tc main_arg9) := by
  unfold V_pF; rw [pF_keep_arg9]; exact V_pE_arg9 W
theorem V_pF_v56 : V_pF W (Proc.devRef .tc main_v56) = val_main_v56 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) := by
  unfold V_pF; exact pF_v56 (V_pE W) _ _ _ _ _ _ (V_pE_v46 W) (V_pE_v31 W) (V_pE_v15 W)
theorem V_pF_v30 : V_pF W (Proc.devRef .tc main_v30) = val_main_v30 (F := Ideal) (W (Proc.devRef .tc main_arg7)) := by
  unfold V_pF; rw [pF_keep_v30]; exact V_pE_v30 W

/-- The contents after operations 0–77. -/
def V_pG : Valuation τ sig (Elt Ideal) := after (pG (F := Ideal)) (V_pF W)
theorem V_pG_v15 : V_pG W (Proc.devRef .tc main_v15) = val_main_v15 (F := Ideal) (W (Proc.devRef .tc main_arg1)) := by
  unfold V_pG; rw [pG_keep_v15]; exact V_pF_v15 W
theorem V_pG_v18 : V_pG W (Proc.devRef .tc main_v18) = val_main_v18 (F := Ideal) (W (Proc.devRef .tc main_arg1)) := by
  unfold V_pG; rw [pG_keep_v18]; exact V_pF_v18 W
theorem V_pG_v26 : V_pG W (Proc.devRef .tc main_v26) = val_main_v26 (F := Ideal) (W (Proc.devRef .tc main_arg1)) := by
  unfold V_pG; rw [pG_keep_v26]; exact V_pF_v26 W
theorem V_pG_arg6 : V_pG W (Proc.devRef .tc main_arg6) = W (Proc.devRef .tc main_arg6) := by
  unfold V_pG; rw [pG_keep_arg6]; exact V_pF_arg6 W
theorem V_pG_arg7 : V_pG W (Proc.devRef .tc main_arg7) = W (Proc.devRef .tc main_arg7) := by
  unfold V_pG; rw [pG_keep_arg7]; exact V_pF_arg7 W
theorem V_pG_arg8 : V_pG W (Proc.devRef .tc main_arg8) = W (Proc.devRef .tc main_arg8) := by
  unfold V_pG; rw [pG_keep_arg8]; exact V_pF_arg8 W
theorem V_pG_arg9 : V_pG W (Proc.devRef .tc main_arg9) = W (Proc.devRef .tc main_arg9) := by
  unfold V_pG; rw [pG_keep_arg9]; exact V_pF_arg9 W
theorem V_pG_v62 : V_pG W (Proc.devRef .tc main_v62) = val_main_v62 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) := by
  unfold V_pG; exact pG_v62 (V_pF W) _ _ _ _ _ _ _ (V_pF_v30 W) (V_pF_v56 W) (V_pF_v18 W)

/-- The contents after operations 0–80. -/
def V_pH : Valuation τ sig (Elt Ideal) := after (pH (F := Ideal)) (V_pG W)
theorem V_pH_v15 : V_pH W (Proc.devRef .tc main_v15) = val_main_v15 (F := Ideal) (W (Proc.devRef .tc main_arg1)) := by
  unfold V_pH; rw [pH_keep_v15]; exact V_pG_v15 W
theorem V_pH_v18 : V_pH W (Proc.devRef .tc main_v18) = val_main_v18 (F := Ideal) (W (Proc.devRef .tc main_arg1)) := by
  unfold V_pH; rw [pH_keep_v18]; exact V_pG_v18 W
theorem V_pH_v26 : V_pH W (Proc.devRef .tc main_v26) = val_main_v26 (F := Ideal) (W (Proc.devRef .tc main_arg1)) := by
  unfold V_pH; rw [pH_keep_v26]; exact V_pG_v26 W
theorem V_pH_arg6 : V_pH W (Proc.devRef .tc main_arg6) = W (Proc.devRef .tc main_arg6) := by
  unfold V_pH; rw [pH_keep_arg6]; exact V_pG_arg6 W
theorem V_pH_arg7 : V_pH W (Proc.devRef .tc main_arg7) = W (Proc.devRef .tc main_arg7) := by
  unfold V_pH; rw [pH_keep_arg7]; exact V_pG_arg7 W
theorem V_pH_arg8 : V_pH W (Proc.devRef .tc main_arg8) = W (Proc.devRef .tc main_arg8) := by
  unfold V_pH; rw [pH_keep_arg8]; exact V_pG_arg8 W
theorem V_pH_arg9 : V_pH W (Proc.devRef .tc main_arg9) = W (Proc.devRef .tc main_arg9) := by
  unfold V_pH; rw [pH_keep_arg9]; exact V_pG_arg9 W
theorem V_pH_v63 : V_pH W (Proc.devRef .tc main_v63) = val_main_v63 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) := by
  unfold V_pH; exact pH_v63 (V_pG W) _ _ _ _ _ _ _ (V_pG_v62 W)

/-- The contents after operations 0–85. -/
def V_pI : Valuation τ sig (Elt Ideal) := after (pI (F := Ideal)) (V_pH W)
theorem V_pI_v15 : V_pI W (Proc.devRef .tc main_v15) = val_main_v15 (F := Ideal) (W (Proc.devRef .tc main_arg1)) := by
  unfold V_pI; rw [pI_keep_v15]; exact V_pH_v15 W
theorem V_pI_v18 : V_pI W (Proc.devRef .tc main_v18) = val_main_v18 (F := Ideal) (W (Proc.devRef .tc main_arg1)) := by
  unfold V_pI; rw [pI_keep_v18]; exact V_pH_v18 W
theorem V_pI_v26 : V_pI W (Proc.devRef .tc main_v26) = val_main_v26 (F := Ideal) (W (Proc.devRef .tc main_arg1)) := by
  unfold V_pI; rw [pI_keep_v26]; exact V_pH_v26 W
theorem V_pI_arg6 : V_pI W (Proc.devRef .tc main_arg6) = W (Proc.devRef .tc main_arg6) := by
  unfold V_pI; rw [pI_keep_arg6]; exact V_pH_arg6 W
theorem V_pI_arg7 : V_pI W (Proc.devRef .tc main_arg7) = W (Proc.devRef .tc main_arg7) := by
  unfold V_pI; rw [pI_keep_arg7]; exact V_pH_arg7 W
theorem V_pI_arg8 : V_pI W (Proc.devRef .tc main_arg8) = W (Proc.devRef .tc main_arg8) := by
  unfold V_pI; rw [pI_keep_arg8]; exact V_pH_arg8 W
theorem V_pI_arg9 : V_pI W (Proc.devRef .tc main_arg9) = W (Proc.devRef .tc main_arg9) := by
  unfold V_pI; rw [pI_keep_arg9]; exact V_pH_arg9 W
theorem V_pI_v68 : V_pI W (Proc.devRef .tc main_v68) = val_main_v68 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) := by
  unfold V_pI; exact pI_v68 (V_pH W) _ _ _ _ _ _ _ (V_pH_v63 W) (V_pH_arg6 W)
theorem V_pI_v67 : V_pI W (Proc.devRef .tc main_v67) = val_main_v67 (F := Ideal) (W (Proc.devRef .tc main_arg7)) := by
  unfold V_pI; exact pI_v67 (V_pH W) _ (V_pH_arg7 W)

/-- The contents after operations 0–104. -/
def V_pJ : Valuation τ sig (Elt Ideal) := after (pJ (F := Ideal)) (V_pI W)
theorem V_pJ_v15 : V_pJ W (Proc.devRef .tc main_v15) = val_main_v15 (F := Ideal) (W (Proc.devRef .tc main_arg1)) := by
  unfold V_pJ; rw [pJ_keep_v15]; exact V_pI_v15 W
theorem V_pJ_v18 : V_pJ W (Proc.devRef .tc main_v18) = val_main_v18 (F := Ideal) (W (Proc.devRef .tc main_arg1)) := by
  unfold V_pJ; rw [pJ_keep_v18]; exact V_pI_v18 W
theorem V_pJ_v26 : V_pJ W (Proc.devRef .tc main_v26) = val_main_v26 (F := Ideal) (W (Proc.devRef .tc main_arg1)) := by
  unfold V_pJ; rw [pJ_keep_v26]; exact V_pI_v26 W
theorem V_pJ_arg6 : V_pJ W (Proc.devRef .tc main_arg6) = W (Proc.devRef .tc main_arg6) := by
  unfold V_pJ; rw [pJ_keep_arg6]; exact V_pI_arg6 W
theorem V_pJ_arg7 : V_pJ W (Proc.devRef .tc main_arg7) = W (Proc.devRef .tc main_arg7) := by
  unfold V_pJ; rw [pJ_keep_arg7]; exact V_pI_arg7 W
theorem V_pJ_arg8 : V_pJ W (Proc.devRef .tc main_arg8) = W (Proc.devRef .tc main_arg8) := by
  unfold V_pJ; rw [pJ_keep_arg8]; exact V_pI_arg8 W
theorem V_pJ_arg9 : V_pJ W (Proc.devRef .tc main_arg9) = W (Proc.devRef .tc main_arg9) := by
  unfold V_pJ; rw [pJ_keep_arg9]; exact V_pI_arg9 W
theorem V_pJ_v68 : V_pJ W (Proc.devRef .tc main_v68) = val_main_v68 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) := by
  unfold V_pJ; rw [pJ_keep_v68]; exact V_pI_v68 W
theorem V_pJ_v83 : V_pJ W (Proc.devRef .tc main_v83) = val_main_v83 (F := Ideal) (W (Proc.devRef .tc main_arg1)) := by
  unfold V_pJ; exact pJ_v83 (V_pI W) _ (V_pI_v26 W) (V_pI_v18 W) (V_pI_v15 W)
theorem V_pJ_v67 : V_pJ W (Proc.devRef .tc main_v67) = val_main_v67 (F := Ideal) (W (Proc.devRef .tc main_arg7)) := by
  unfold V_pJ; rw [pJ_keep_v67]; exact V_pI_v67 W

/-- The contents after operations 0–116. -/
def V_pK : Valuation τ sig (Elt Ideal) := after (pK (F := Ideal)) (V_pJ W)
theorem V_pK_v15 : V_pK W (Proc.devRef .tc main_v15) = val_main_v15 (F := Ideal) (W (Proc.devRef .tc main_arg1)) := by
  unfold V_pK; rw [pK_keep_v15]; exact V_pJ_v15 W
theorem V_pK_v18 : V_pK W (Proc.devRef .tc main_v18) = val_main_v18 (F := Ideal) (W (Proc.devRef .tc main_arg1)) := by
  unfold V_pK; rw [pK_keep_v18]; exact V_pJ_v18 W
theorem V_pK_v26 : V_pK W (Proc.devRef .tc main_v26) = val_main_v26 (F := Ideal) (W (Proc.devRef .tc main_arg1)) := by
  unfold V_pK; rw [pK_keep_v26]; exact V_pJ_v26 W
theorem V_pK_arg6 : V_pK W (Proc.devRef .tc main_arg6) = W (Proc.devRef .tc main_arg6) := by
  unfold V_pK; rw [pK_keep_arg6]; exact V_pJ_arg6 W
theorem V_pK_arg7 : V_pK W (Proc.devRef .tc main_arg7) = W (Proc.devRef .tc main_arg7) := by
  unfold V_pK; rw [pK_keep_arg7]; exact V_pJ_arg7 W
theorem V_pK_arg8 : V_pK W (Proc.devRef .tc main_arg8) = W (Proc.devRef .tc main_arg8) := by
  unfold V_pK; rw [pK_keep_arg8]; exact V_pJ_arg8 W
theorem V_pK_arg9 : V_pK W (Proc.devRef .tc main_arg9) = W (Proc.devRef .tc main_arg9) := by
  unfold V_pK; rw [pK_keep_arg9]; exact V_pJ_arg9 W
theorem V_pK_v93 : V_pK W (Proc.devRef .tc main_v93) = val_main_v93 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) := by
  unfold V_pK; exact pK_v93 (V_pJ W) _ _ _ _ _ _ _ (V_pJ_v83 W) (V_pJ_v68 W) (V_pJ_v15 W)
theorem V_pK_v67 : V_pK W (Proc.devRef .tc main_v67) = val_main_v67 (F := Ideal) (W (Proc.devRef .tc main_arg7)) := by
  unfold V_pK; rw [pK_keep_v67]; exact V_pJ_v67 W

/-- The contents after operations 0–123. -/
def V_pL : Valuation τ sig (Elt Ideal) := after (pL (F := Ideal)) (V_pK W)
theorem V_pL_v15 : V_pL W (Proc.devRef .tc main_v15) = val_main_v15 (F := Ideal) (W (Proc.devRef .tc main_arg1)) := by
  unfold V_pL; rw [pL_keep_v15]; exact V_pK_v15 W
theorem V_pL_v18 : V_pL W (Proc.devRef .tc main_v18) = val_main_v18 (F := Ideal) (W (Proc.devRef .tc main_arg1)) := by
  unfold V_pL; rw [pL_keep_v18]; exact V_pK_v18 W
theorem V_pL_v26 : V_pL W (Proc.devRef .tc main_v26) = val_main_v26 (F := Ideal) (W (Proc.devRef .tc main_arg1)) := by
  unfold V_pL; rw [pL_keep_v26]; exact V_pK_v26 W
theorem V_pL_arg6 : V_pL W (Proc.devRef .tc main_arg6) = W (Proc.devRef .tc main_arg6) := by
  unfold V_pL; rw [pL_keep_arg6]; exact V_pK_arg6 W
theorem V_pL_arg7 : V_pL W (Proc.devRef .tc main_arg7) = W (Proc.devRef .tc main_arg7) := by
  unfold V_pL; rw [pL_keep_arg7]; exact V_pK_arg7 W
theorem V_pL_arg8 : V_pL W (Proc.devRef .tc main_arg8) = W (Proc.devRef .tc main_arg8) := by
  unfold V_pL; rw [pL_keep_arg8]; exact V_pK_arg8 W
theorem V_pL_arg9 : V_pL W (Proc.devRef .tc main_arg9) = W (Proc.devRef .tc main_arg9) := by
  unfold V_pL; rw [pL_keep_arg9]; exact V_pK_arg9 W
theorem V_pL_v99 : V_pL W (Proc.devRef .tc main_v99) = val_main_v99 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) := by
  unfold V_pL; exact pL_v99 (V_pK W) _ _ _ _ _ _ _ (V_pK_v67 W) (V_pK_v93 W) (V_pK_v18 W)

/-- The contents after operations 0–126. -/
def V_pM : Valuation τ sig (Elt Ideal) := after (pM (F := Ideal)) (V_pL W)
theorem V_pM_v100 : V_pM W (Proc.devRef .tc main_v100) = val_main_v100 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) := by
  unfold V_pM; exact pM_v100 (V_pL W) _ _ _ _ _ _ _ (V_pL_v99 W)
theorem V_pM_v15 : V_pM W (Proc.devRef .tc main_v15) = val_main_v15 (F := Ideal) (W (Proc.devRef .tc main_arg1)) := by
  unfold V_pM; rw [pM_keep_v15]; exact V_pL_v15 W
theorem V_pM_v18 : V_pM W (Proc.devRef .tc main_v18) = val_main_v18 (F := Ideal) (W (Proc.devRef .tc main_arg1)) := by
  unfold V_pM; rw [pM_keep_v18]; exact V_pL_v18 W
theorem V_pM_v26 : V_pM W (Proc.devRef .tc main_v26) = val_main_v26 (F := Ideal) (W (Proc.devRef .tc main_arg1)) := by
  unfold V_pM; rw [pM_keep_v26]; exact V_pL_v26 W
theorem V_pM_arg6 : V_pM W (Proc.devRef .tc main_arg6) = W (Proc.devRef .tc main_arg6) := by
  unfold V_pM; rw [pM_keep_arg6]; exact V_pL_arg6 W
theorem V_pM_arg7 : V_pM W (Proc.devRef .tc main_arg7) = W (Proc.devRef .tc main_arg7) := by
  unfold V_pM; rw [pM_keep_arg7]; exact V_pL_arg7 W
theorem V_pM_arg8 : V_pM W (Proc.devRef .tc main_arg8) = W (Proc.devRef .tc main_arg8) := by
  unfold V_pM; rw [pM_keep_arg8]; exact V_pL_arg8 W
theorem V_pM_arg9 : V_pM W (Proc.devRef .tc main_arg9) = W (Proc.devRef .tc main_arg9) := by
  unfold V_pM; rw [pM_keep_arg9]; exact V_pL_arg9 W

/-- Running the 127 operations is running the pieces in turn. -/
theorem after_head : after (headOps (F := Ideal)) W = V_pM W := by
  unfold headOps
  simp only [StableHlo.after_append]
  rfl

theorem head_v100 : after (headOps (F := Ideal)) W (Proc.devRef .tc main_v100) = val_main_v100 (F := Ideal) (W (Proc.devRef .tc main_arg0)) (W (Proc.devRef .tc main_arg1)) (W (Proc.devRef .tc main_arg2)) (W (Proc.devRef .tc main_arg4)) (W (Proc.devRef .tc main_arg5)) (W (Proc.devRef .tc main_arg6)) (W (Proc.devRef .tc main_arg7)) := by
  rw [after_head]; exact V_pM_v100 W
theorem head_v15 : after (headOps (F := Ideal)) W (Proc.devRef .tc main_v15) = val_main_v15 (F := Ideal) (W (Proc.devRef .tc main_arg1)) := by
  rw [after_head]; exact V_pM_v15 W
theorem head_v18 : after (headOps (F := Ideal)) W (Proc.devRef .tc main_v18) = val_main_v18 (F := Ideal) (W (Proc.devRef .tc main_arg1)) := by
  rw [after_head]; exact V_pM_v18 W
theorem head_v26 : after (headOps (F := Ideal)) W (Proc.devRef .tc main_v26) = val_main_v26 (F := Ideal) (W (Proc.devRef .tc main_arg1)) := by
  rw [after_head]; exact V_pM_v26 W
theorem head_arg6 : after (headOps (F := Ideal)) W (Proc.devRef .tc main_arg6) = W (Proc.devRef .tc main_arg6) := by
  rw [after_head]; exact V_pM_arg6 W
theorem head_arg7 : after (headOps (F := Ideal)) W (Proc.devRef .tc main_arg7) = W (Proc.devRef .tc main_arg7) := by
  rw [after_head]; exact V_pM_arg7 W
theorem head_arg8 : after (headOps (F := Ideal)) W (Proc.devRef .tc main_arg8) = W (Proc.devRef .tc main_arg8) := by
  rw [after_head]; exact V_pM_arg8 W
theorem head_arg9 : after (headOps (F := Ideal)) W (Proc.devRef .tc main_arg9) = W (Proc.devRef .tc main_arg9) := by
  rw [after_head]; exact V_pM_arg9 W

end Cert.Bridge.Ref

end
-- ==== Proof.RefChainTailDefs.lean ====
/-
  The reference's last stretch of host operations — from the third layer's weight slice to the result — as a list,
  and the same list cut into eight consecutive pieces.
-/
import proofs.«118539_j77197742178636_1_alg».proof.Proof.RefReadP

import Idealize.ShloMosaic.Lib.StableHlo.Run

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable {F : FTy → Type} [FloatOps F]

/-- The stretch: 66 operations, in program order. -/
def tailOps : List (HloOp τ sig (Elt F)) :=
  [ unary main_arg6 main_v101 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v101 main_v102 rfl shapeCasts_S1x128x128_S128x128,
    unary main_arg7 main_v103 ((extractStridedSlice S1x128 ![2, 0] · slices_S3x128_S1x128_2_0) : (⟨S3x128, .f32⟩ : BufTy).Contents (Elt F) → (⟨S1x128, .f32⟩ : BufTy).Contents (Elt F)),
    reshape main_v103 main_v104 rfl shapeCasts_S1x128_S128,
    binary main_v100 main_v102 main_v105 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)),
    nullary main_c_16 (constantI S_ 32 0#32),
    unary main_c_16 main_v106 (broadcastInDim S1114112 ![] bcast_S_S1114112 : (⟨S_, .i32⟩ : BufTy).Contents (Elt F) → (⟨S1114112, .i32⟩ : BufTy).Contents (Elt F)),
    binary main_v15 main_v106 main_v107 (cmpi .slt : (⟨S1114112, .i32⟩ : BufTy).Contents (Elt F) → (⟨S1114112, .i32⟩ : BufTy).Contents (Elt F) → (⟨S1114112, .i1⟩ : BufTy).Contents (Elt F)),
    nullary main_c_17 (constantI S_ 32 65536#32),
    unary main_c_17 main_v108 (broadcastInDim S1114112 ![] bcast_S_S1114112 : (⟨S_, .i32⟩ : BufTy).Contents (Elt F) → (⟨S1114112, .i32⟩ : BufTy).Contents (Elt F)),
    binary main_v15 main_v108 main_v109 (addi : (⟨S1114112, .i32⟩ : BufTy).Contents (Elt F) → (⟨S1114112, .i32⟩ : BufTy).Contents (Elt F) → (⟨S1114112, .i32⟩ : BufTy).Contents (Elt F)),
    ternary main_v107 main_v109 main_v15 main_v110 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v110 main_v111 (broadcastInDim S1114112x1 ![0] bcast_S1114112_S1114112x1_0 : (⟨S1114112, .i32⟩ : BufTy).Contents (Elt F) → (⟨S1114112x1, .i32⟩ : BufTy).Contents (Elt F)),
    binary main_v26 main_v111 main_v112 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    nullary main_c_18 (constantI S_ 32 0#32),
    unary main_c_18 main_v113 (broadcastInDim S1114112 ![] bcast_S_S1114112 : (⟨S_, .i32⟩ : BufTy).Contents (Elt F) → (⟨S1114112, .i32⟩ : BufTy).Contents (Elt F)),
    binary main_v18 main_v113 main_v114 (cmpi .slt : (⟨S1114112, .i32⟩ : BufTy).Contents (Elt F) → (⟨S1114112, .i32⟩ : BufTy).Contents (Elt F) → (⟨S1114112, .i1⟩ : BufTy).Contents (Elt F)),
    nullary main_c_19 (constantI S_ 32 65536#32),
    unary main_c_19 main_v115 (broadcastInDim S1114112 ![] bcast_S_S1114112 : (⟨S_, .i32⟩ : BufTy).Contents (Elt F) → (⟨S1114112, .i32⟩ : BufTy).Contents (Elt F)),
    binary main_v18 main_v115 main_v116 (addi : (⟨S1114112, .i32⟩ : BufTy).Contents (Elt F) → (⟨S1114112, .i32⟩ : BufTy).Contents (Elt F) → (⟨S1114112, .i32⟩ : BufTy).Contents (Elt F)),
    ternary main_v114 main_v116 main_v18 main_v117 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v117 main_v118 (broadcastInDim S1114112x1 ![0] bcast_S1114112_S1114112x1_0 : (⟨S1114112, .i32⟩ : BufTy).Contents (Elt F) → (⟨S1114112x1, .i32⟩ : BufTy).Contents (Elt F)),
    binary main_v26 main_v118 main_v119 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v112 main_v119 main_v120 (mulf : (⟨S1114112, .f32⟩ : BufTy).Contents (Elt F) → (⟨S1114112, .f32⟩ : BufTy).Contents (Elt F) → (⟨S1114112, .f32⟩ : BufTy).Contents (Elt F)),
    nullary main_c_20 (constantI S_ 32 0#32),
    unary main_c_20 main_v121 (broadcastInDim S1114112 ![] bcast_S_S1114112 : (⟨S_, .i32⟩ : BufTy).Contents (Elt F) → (⟨S1114112, .i32⟩ : BufTy).Contents (Elt F)),
    binary main_v15 main_v121 main_v122 (cmpi .slt : (⟨S1114112, .i32⟩ : BufTy).Contents (Elt F) → (⟨S1114112, .i32⟩ : BufTy).Contents (Elt F) → (⟨S1114112, .i1⟩ : BufTy).Contents (Elt F)),
    nullary main_c_21 (constantI S_ 32 65536#32),
    unary main_c_21 main_v123 (broadcastInDim S1114112 ![] bcast_S_S1114112 : (⟨S_, .i32⟩ : BufTy).Contents (Elt F) → (⟨S1114112, .i32⟩ : BufTy).Contents (Elt F)),
    binary main_v15 main_v123 main_v124 (addi : (⟨S1114112, .i32⟩ : BufTy).Contents (Elt F) → (⟨S1114112, .i32⟩ : BufTy).Contents (Elt F) → (⟨S1114112, .i32⟩ : BufTy).Contents (Elt F)),
    ternary main_v122 main_v124 main_v15 main_v125 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v125 main_v126 (broadcastInDim S1114112x1 ![0] bcast_S1114112_S1114112x1_0 : (⟨S1114112, .i32⟩ : BufTy).Contents (Elt F) → (⟨S1114112x1, .i32⟩ : BufTy).Contents (Elt F)),
    binary main_v105 main_v126 main_v127 ((fun x i => Host.gather gather_S65536x128_S1114112x1_S1114112x128_1_0_n_n_0_1_1128 x i) : (⟨S65536x128, .f32⟩ : BufTy).Contents (Elt F) → (⟨S1114112x1, .i32⟩ : BufTy).Contents (Elt F) → (⟨S1114112x128, .f32⟩ : BufTy).Contents (Elt F)),
    unary main_v120 main_v128 (broadcastInDim S1114112x1 ![0] bcast_S1114112_S1114112x1_0 : (⟨S1114112, .f32⟩ : BufTy).Contents (Elt F) → (⟨S1114112x1, .f32⟩ : BufTy).Contents (Elt F)),
    unary main_v128 main_v129 (broadcastInDim S1114112x128 ![0, 1] bcast_S1114112x1_S1114112x128_0_1 : (⟨S1114112x1, .f32⟩ : BufTy).Contents (Elt F) → (⟨S1114112x128, .f32⟩ : BufTy).Contents (Elt F)),
    binary main_v127 main_v129 main_v130 (mulf : (⟨S1114112x128, .f32⟩ : BufTy).Contents (Elt F) → (⟨S1114112x128, .f32⟩ : BufTy).Contents (Elt F) → (⟨S1114112x128, .f32⟩ : BufTy).Contents (Elt F)),
    nullary main_cst_22 (constant S_ .f32 0x00000000#32),
    unary main_cst_22 main_v131 (broadcastInDim S65536x128 ![] bcast_S_S65536x128 : (⟨S_, .f32⟩ : BufTy).Contents (Elt F) → (⟨S65536x128, .f32⟩ : BufTy).Contents (Elt F)),
    unary main_v18 main_v132 (broadcastInDim S1114112x1 ![0] bcast_S1114112_S1114112x1_0 : (⟨S1114112, .i32⟩ : BufTy).Contents (Elt F) → (⟨S1114112x1, .i32⟩ : BufTy).Contents (Elt F)),
    ternary main_v131 main_v132 main_v130 main_v133 ((fun x i u => Host.scatterAdd scatter_S65536x128_S1114112x1_S1114112x128_1_0_0_1 x i u) : (⟨S65536x128, .f32⟩ : BufTy).Contents (Elt F) → (⟨S1114112x1, .i32⟩ : BufTy).Contents (Elt F) → (⟨S1114112x128, .f32⟩ : BufTy).Contents (Elt F) → (⟨S65536x128, .f32⟩ : BufTy).Contents (Elt F)),
    unary main_v104 main_v134 (broadcastInDim S1x128 ![1] bcast_S128_S1x128_1 : (⟨S128, .f32⟩ : BufTy).Contents (Elt F) → (⟨S1x128, .f32⟩ : BufTy).Contents (Elt F)),
    unary main_v134 main_v135 (broadcastInDim S65536x128 ![0, 1] bcast_S1x128_S65536x128_0_1 : (⟨S1x128, .f32⟩ : BufTy).Contents (Elt F) → (⟨S65536x128, .f32⟩ : BufTy).Contents (Elt F)),
    binary main_v133 main_v135 main_v136 (addf : (⟨S65536x128, .f32⟩ : BufTy).Contents (Elt F) → (⟨S65536x128, .f32⟩ : BufTy).Contents (Elt F) → (⟨S65536x128, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S65536x128, .f32⟩) main_call4_v0) (broadcastInDim S65536x128 ![] bcast_S_S65536x128),
    TRef.binary (TRef.of (T := ⟨S65536x128, .f32⟩) main_v136) (TRef.of (T := ⟨S65536x128, .f32⟩) main_call4_v0) (TRef.of (T := ⟨S65536x128, .f32⟩) main_v137) maximumf,
    unary main_arg8 main_v138 ((transpose S128x40 [1, 0] · transposes_S40x128_S128x40_1_0) : (⟨S40x128, .f32⟩ : BufTy).Contents (Elt F) → (⟨S128x40, .f32⟩ : BufTy).Contents (Elt F)),
    binary main_v137 main_v138 main_v139 ((fun l r => Host.dotGeneral dot_S65536x128_S128x40_S65536x40_1_0_0_1_n_n none l r) : (⟨S65536x128, .f32⟩ : BufTy).Contents (Elt F) → (⟨S128x40, .f32⟩ : BufTy).Contents (Elt F) → (⟨S65536x40, .f32⟩ : BufTy).Contents (Elt F)),
    unary main_arg9 main_v140 (broadcastInDim S1x40 ![1] bcast_S40_S1x40_1 : (⟨S40, .f32⟩ : BufTy).Contents (Elt F) → (⟨S1x40, .f32⟩ : BufTy).Contents (Elt F)),
    unary main_v140 main_v141 (broadcastInDim S65536x40 ![0, 1] bcast_S1x40_S65536x40_0_1 : (⟨S1x40, .f32⟩ : BufTy).Contents (Elt F) → (⟨S65536x40, .f32⟩ : BufTy).Contents (Elt F)),
    binary main_v139 main_v141 main_v142 (addf : (⟨S65536x40, .f32⟩ : BufTy).Contents (Elt F) → (⟨S65536x40, .f32⟩ : BufTy).Contents (Elt F) → (⟨S65536x40, .f32⟩ : BufTy).Contents (Elt F)),
    TRef.nullary (TRef.of (T := ⟨S_, .f32⟩) main_call5_cst) (constant S_ .f32 0xFF800000#32),
    TRef.binary (TRef.of (T := ⟨S65536x40, .f32⟩) main_v142) (TRef.of (T := ⟨S_, .f32⟩) main_call5_cst) (TRef.of (T := ⟨S65536, .f32⟩) main_call5_v0) (fun x v => Host.reduce FloatOps.maximumf x v reducesTo_S65536x40_S65536_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S65536, .f32⟩) main_call5_v1) (broadcastInDim S65536 ![] bcast_S_S65536),
    TRef.binary (TRef.of (T := ⟨S65536, .f32⟩) main_call5_v1) (TRef.of (T := ⟨S65536, .f32⟩) main_call5_v0) (TRef.of (T := ⟨S65536, .f32⟩) main_call5_v2) maximumf,
    TRef.unary (TRef.of (T := ⟨S65536, .f32⟩) main_call5_v2) (TRef.of (T := ⟨S65536x1, .f32⟩) main_call5_v3) (broadcastInDim S65536x1 ![0] bcast_S65536_S65536x1_0),
    TRef.unary (TRef.of (T := ⟨S65536x1, .f32⟩) main_call5_v3) (TRef.of (T := ⟨S65536x40, .f32⟩) main_call5_v4) (broadcastInDim S65536x40 ![0, 1] bcast_S65536x1_S65536x40_0_1),
    TRef.binary (TRef.of (T := ⟨S65536x40, .f32⟩) main_v142) (TRef.of (T := ⟨S65536x40, .f32⟩) main_call5_v4) (TRef.of (T := ⟨S65536x40, .f32⟩) main_call5_v5) subf,
    TRef.unary (TRef.of (T := ⟨S65536x40, .f32⟩) main_call5_v5) (TRef.of (T := ⟨S65536x40, .f32⟩) main_call5_v6) Host.exp,
    TRef.nullary (TRef.of (T := ⟨S_, .f32⟩) main_call5_cst_1) (constant S_ .f32 0x00000000#32),
    TRef.binary (TRef.of (T := ⟨S65536x40, .f32⟩) main_call5_v6) (TRef.of (T := ⟨S_, .f32⟩) main_call5_cst_1) (TRef.of (T := ⟨S65536, .f32⟩) main_call5_v7) (fun x v => Host.reduceAdd x v reducesTo_S65536x40_S65536_d1 h_S_),
    TRef.unary (TRef.of (T := ⟨S65536, .f32⟩) main_call5_v7) (TRef.of (T := ⟨S65536x1, .f32⟩) main_call5_v8) (broadcastInDim S65536x1 ![0] bcast_S65536_S65536x1_0),
    TRef.unary (TRef.of (T := ⟨S65536x1, .f32⟩) main_call5_v8) (TRef.of (T := ⟨S65536x1, .f32⟩) main_call5_v9) Host.log,
    TRef.unary (TRef.of (T := ⟨S65536x1, .f32⟩) main_call5_v9) (TRef.of (T := ⟨S65536x40, .f32⟩) main_call5_v10) (broadcastInDim S65536x40 ![0, 1] bcast_S65536x1_S65536x40_0_1),
    TRef.binary (TRef.of (T := ⟨S65536x40, .f32⟩) main_call5_v5) (TRef.of (T := ⟨S65536x40, .f32⟩) main_call5_v10) (TRef.of (T := ⟨S65536x40, .f32⟩) main_v143) subf ]

/-- The third layer's weight and bias slices, and the hidden state times the weight. -/
def t1 : List (HloOp τ sig (Elt F)) :=
  [ unary main_arg6 main_v101 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v101 main_v102 rfl shapeCasts_S1x128x128_S128x128,
    unary main_arg7 main_v103 ((extractStridedSlice S1x128 ![2, 0] · slices_S3x128_S1x128_2_0) : (⟨S3x128, .f32⟩ : BufTy).Contents (Elt F) → (⟨S1x128, .f32⟩ : BufTy).Contents (Elt F)),
    reshape main_v103 main_v104 rfl shapeCasts_S1x128_S128,
    binary main_v100 main_v102 main_v105 ((fun l r => Host.dotGeneral dot_S65536x128_S128x128_S65536x128_1_0_0_1_n_n none l r) : (⟨S65536x128, .f32⟩ : BufTy).Contents (Elt F) → (⟨S128x128, .f32⟩ : BufTy).Contents (Elt F) → (⟨S65536x128, .f32⟩ : BufTy).Contents (Elt F)) ]

/-- The normalisation once more: the inverse square-root degrees gathered at the sources and at the targets, multiplied. -/
def t2 : List (HloOp τ sig (Elt F)) :=
  [ nullary main_c_16 (constantI S_ 32 0#32),
    unary main_c_16 main_v106 (broadcastInDim S1114112 ![] bcast_S_S1114112 : (⟨S_, .i32⟩ : BufTy).Contents (Elt F) → (⟨S1114112, .i32⟩ : BufTy).Contents (Elt F)),
    binary main_v15 main_v106 main_v107 (cmpi .slt : (⟨S1114112, .i32⟩ : BufTy).Contents (Elt F) → (⟨S1114112, .i32⟩ : BufTy).Contents (Elt F) → (⟨S1114112, .i1⟩ : BufTy).Contents (Elt F)),
    nullary main_c_17 (constantI S_ 32 65536#32),
    unary main_c_17 main_v108 (broadcastInDim S1114112 ![] bcast_S_S1114112 : (⟨S_, .i32⟩ : BufTy).Contents (Elt F) → (⟨S1114112, .i32⟩ : BufTy).Contents (Elt F)),
    binary main_v15 main_v108 main_v109 (addi : (⟨S1114112, .i32⟩ : BufTy).Contents (Elt F) → (⟨S1114112, .i32⟩ : BufTy).Contents (Elt F) → (⟨S1114112, .i32⟩ : BufTy).Contents (Elt F)),
    ternary main_v107 main_v109 main_v15 main_v110 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v110 main_v111 (broadcastInDim S1114112x1 ![0] bcast_S1114112_S1114112x1_0 : (⟨S1114112, .i32⟩ : BufTy).Contents (Elt F) → (⟨S1114112x1, .i32⟩ : BufTy).Contents (Elt F)),
    binary main_v26 main_v111 main_v112 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    nullary main_c_18 (constantI S_ 32 0#32),
    unary main_c_18 main_v113 (broadcastInDim S1114112 ![] bcast_S_S1114112 : (⟨S_, .i32⟩ : BufTy).Contents (Elt F) → (⟨S1114112, .i32⟩ : BufTy).Contents (Elt F)),
    binary main_v18 main_v113 main_v114 (cmpi .slt : (⟨S1114112, .i32⟩ : BufTy).Contents (Elt F) → (⟨S1114112, .i32⟩ : BufTy).Contents (Elt F) → (⟨S1114112, .i1⟩ : BufTy).Contents (Elt F)),
    nullary main_c_19 (constantI S_ 32 65536#32),
    unary main_c_19 main_v115 (broadcastInDim S1114112 ![] bcast_S_S1114112 : (⟨S_, .i32⟩ : BufTy).Contents (Elt F) → (⟨S1114112, .i32⟩ : BufTy).Contents (Elt F)),
    binary main_v18 main_v115 main_v116 (addi : (⟨S1114112, .i32⟩ : BufTy).Contents (Elt F) → (⟨S1114112, .i32⟩ : BufTy).Contents (Elt F) → (⟨S1114112, .i32⟩ : BufTy).Contents (Elt F)),
    ternary main_v114 main_v116 main_v18 main_v117 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v117 main_v118 (broadcastInDim S1114112x1 ![0] bcast_S1114112_S1114112x1_0 : (⟨S1114112, .i32⟩ : BufTy).Contents (Elt F) → (⟨S1114112x1, .i32⟩ : BufTy).Contents (Elt F)),
    binary main_v26 main_v118 main_v119 ((fun x i => Host.gather gather_S65536_S1114112x1_S1114112_n_0_n_n_0_1_1 x i) : (⟨S65536, .f32⟩ : BufTy).Contents (Elt F) → (⟨S1114112x1, .i32⟩ : BufTy).Contents (Elt F) → (⟨S1114112, .f32⟩ : BufTy).Contents (Elt F)),
    binary main_v112 main_v119 main_v120 (mulf : (⟨S1114112, .f32⟩ : BufTy).Contents (Elt F) → (⟨S1114112, .f32⟩ : BufTy).Contents (Elt F) → (⟨S1114112, .f32⟩ : BufTy).Contents (Elt F)) ]

/-- The transformed rows gathered at the sources, each scaled by its edge's normalisation. -/
def t3 : List (HloOp τ sig (Elt F)) :=
  [ nullary main_c_20 (constantI S_ 32 0#32),
    unary main_c_20 main_v121 (broadcastInDim S1114112 ![] bcast_S_S1114112 : (⟨S_, .i32⟩ : BufTy).Contents (Elt F) → (⟨S1114112, .i32⟩ : BufTy).Contents (Elt F)),
    binary main_v15 main_v121 main_v122 (cmpi .slt : (⟨S1114112, .i32⟩ : BufTy).Contents (Elt F) → (⟨S1114112, .i32⟩ : BufTy).Contents (Elt F) → (⟨S1114112, .i1⟩ : BufTy).Contents (Elt F)),
    nullary main_c_21 (constantI S_ 32 65536#32),
    unary main_c_21 main_v123 (broadcastInDim S1114112 ![] bcast_S_S1114112 : (⟨S_, .i32⟩ : BufTy).Contents (Elt F) → (⟨S1114112, .i32⟩ : BufTy).Contents (Elt F)),
    binary main_v15 main_v123 main_v124 (addi : (⟨S1114112, .i32⟩ : BufTy).Contents (Elt F) → (⟨S1114112, .i32⟩ : BufTy).Contents (Elt F) → (⟨S1114112, .i32⟩ : BufTy).Contents (Elt F)),
    ternary main_v122 main_v124 main_v15 main_v125 (select : (⟨S1114112, .i1⟩ : BufTy).Contents (Elt F) → (⟨S1114112, .i32⟩ : BufTy).Contents (Elt F) → (⟨S1114112, .i32⟩ : BufTy).Contents (Elt F) → (⟨S1114112, .i32⟩ : BufTy).Contents (Elt F)),
    unary main_v125 main_v126 (broadcastInDim S1114112x1 ![0] bcast_S1114112_S1114112x1_0 : (⟨S1114112, .i32⟩ : BufTy).Contents (Elt F) → (⟨S1114112x1, .i32⟩ : BufTy).Contents (Elt F)),
    binary main_v105 main_v126 main_v127 ((fun x i => Host.gather gather_S65536x128_S1114112x1_S1114112x128_1_0_n_n_0_1_1128 x i) : (⟨S65536x128, .f32⟩ : BufTy).Contents (Elt F) → (⟨S1114112x1, .i32⟩ : BufTy).Contents (Elt F) → (⟨S1114112x128, .f32⟩ : BufTy).Contents (Elt F)),
    unary main_v120 main_v128 (broadcastInDim S1114112x1 ![0] bcast_S1114112_S1114112x1_0 : (⟨S1114112, .f32⟩ : BufTy).Contents (Elt F) → (⟨S1114112x1, .f32⟩ : BufTy).Contents (Elt F)),
    unary main_v128 main_v129 (broadcastInDim S1114112x128 ![0, 1] bcast_S1114112x1_S1114112x128_0_1 : (⟨S1114112x1, .f32⟩ : BufTy).Contents (Elt F) → (⟨S1114112x128, .f32⟩ : BufTy).Contents (Elt F)),
    binary main_v127 main_v129 main_v130 (mulf : (⟨S1114112x128, .f32⟩ : BufTy).Contents (Elt F) → (⟨S1114112x128, .f32⟩ : BufTy).Contents (Elt F) → (⟨S1114112x128, .f32⟩ : BufTy).Contents (Elt F)) ]

/-- The scaled rows added up at the targets, plus the layer's bias. -/
def t4 : List (HloOp τ sig (Elt F)) :=
  [ nullary main_cst_22 (constant S_ .f32 0x00000000#32),
    unary main_cst_22 main_v131 (broadcastInDim S65536x128 ![] bcast_S_S65536x128 : (⟨S_, .f32⟩ : BufTy).Contents (Elt F) → (⟨S65536x128, .f32⟩ : BufTy).Contents (Elt F)),
    unary main_v18 main_v132 (broadcastInDim S1114112x1 ![0] bcast_S1114112_S1114112x1_0 : (⟨S1114112, .i32⟩ : BufTy).Contents (Elt F) → (⟨S1114112x1, .i32⟩ : BufTy).Contents (Elt F)),
    ternary main_v131 main_v132 main_v130 main_v133 ((fun x i u => Host.scatterAdd scatter_S65536x128_S1114112x1_S1114112x128_1_0_0_1 x i u) : (⟨S65536x128, .f32⟩ : BufTy).Contents (Elt F) → (⟨S1114112x1, .i32⟩ : BufTy).Contents (Elt F) → (⟨S1114112x128, .f32⟩ : BufTy).Contents (Elt F) → (⟨S65536x128, .f32⟩ : BufTy).Contents (Elt F)),
    unary main_v104 main_v134 (broadcastInDim S1x128 ![1] bcast_S128_S1x128_1 : (⟨S128, .f32⟩ : BufTy).Contents (Elt F) → (⟨S1x128, .f32⟩ : BufTy).Contents (Elt F)),
    unary main_v134 main_v135 (broadcastInDim S65536x128 ![0, 1] bcast_S1x128_S65536x128_0_1 : (⟨S1x128, .f32⟩ : BufTy).Contents (Elt F) → (⟨S65536x128, .f32⟩ : BufTy).Contents (Elt F)),
    binary main_v133 main_v135 main_v136 (addf : (⟨S65536x128, .f32⟩ : BufTy).Contents (Elt F) → (⟨S65536x128, .f32⟩ : BufTy).Contents (Elt F) → (⟨S65536x128, .f32⟩ : BufTy).Contents (Elt F)) ]

/-- The clamp at zero. -/
def t5 : List (HloOp τ sig (Elt F)) :=
  [ TRef.nullary (TRef.of (T := ⟨S_, .f32⟩) main_call4_cst) (constant S_ .f32 0x00000000#32),
    TRef.unary (TRef.of (T := ⟨S_, .f32⟩) main_call4_cst) (TRef.of (T := ⟨S65536x128, .f32⟩) main_call4_v0) (broadcastInDim S65536x128 ![] bcast_S_S65536x128),
    TRef.binary (TRef.of (T := ⟨S65536x128, .f32⟩) main_v136) (TRef.of (T := ⟨S65536x128, .f32⟩) main_call4_v0) (TRef.of (T := ⟨S65536x128, .f32⟩) main_v137) maximumf ]

/-- The logits: the clamped rows times the transposed output weight, plus the output bias. -/
def t6 : List (HloOp τ sig (Elt F)) :=
  [ unary main_arg8 main_v138 ((transpose S128x40 [1, 0] · transposes_S40x128_S128x40_1_0) : (⟨S40x128, .f32⟩ : BufTy).Contents (Elt F) → (⟨S128x40, .f32⟩ : BufTy).Contents (Elt F)),
    binary main_v137 main_v138 main_v139 ((fun l r => Host.dotGeneral dot_S65536x128_S128x40_S65536x40_1_0_0_1_n_n none l r) : (⟨S65536x128, .f32⟩ : BufTy).Contents (Elt F) → (⟨S128x40, .f32⟩ : BufTy).Contents (Elt F) → (⟨S65536x40, .f32⟩ : BufTy).Contents (Elt F)),
    unary main_arg9 main_v140 (broadcastInDim S1x40 ![1] bcast_S40_S1x40_1 : (⟨S40, .f32⟩ : BufTy).Contents (Elt F) → (⟨S1x40, .f32⟩ : BufTy).Contents (Elt F)),
    unary main_v140 main_v141 (broadcastInDim S65536x40 ![0, 1] bcast_S1x40_S65536x40_0_1 : (⟨S1x40, .f32⟩ : BufTy).Contents (Elt F) → (⟨S65536x40, .f32⟩ : BufTy).Contents (Elt F)),
    binary main_v139 main_v141 main_v142 (addf : (⟨S65536x40, .f32⟩ : BufTy).Contents (Elt F) → (⟨S65536x40, .f32⟩ : BufTy).Contents (Elt F) → (⟨S65536x40, .f32⟩ : BufTy).Contents (Elt F)) ]

/-- The log-softmax's first half: each row minus its maximum. -/
def t7 : List (HloOp τ sig (Elt F)) :=
  [ TRef.nullary (TRef.of (T := ⟨S_, .f32⟩) main_call5_cst) (constant S_ .f32 0xFF800000#32),
    TRef.binary (TRef.of (T := ⟨S65536x40, .f32⟩) main_v142) (TRef.of (T := ⟨S_, .f32⟩) main_call5_cst) (TRef.of (T := ⟨S65536, .f32⟩) main_call5_v0) (fun x v => Host.reduce FloatOps.maximumf x v reducesTo_S65536x40_S65536_d1 h_S_),
    TRef.nullary (TRef.of (T := ⟨S_, .f32⟩) main_call5_cst_0) (constant S_ .f32 0xFF800000#32),
    TRef.unary (TRef.of (T := ⟨S_, .f32⟩) main_call5_cst_0) (TRef.of (T := ⟨S65536, .f32⟩) main_call5_v1) (broadcastInDim S65536 ![] bcast_S_S65536),
    TRef.binary (TRef.of (T := ⟨S65536, .f32⟩) main_call5_v1) (TRef.of (T := ⟨S65536, .f32⟩) main_call5_v0) (TRef.of (T := ⟨S65536, .f32⟩) main_call5_v2) maximumf,
    TRef.unary (TRef.of (T := ⟨S65536, .f32⟩) main_call5_v2) (TRef.of (T := ⟨S65536x1, .f32⟩) main_call5_v3) (broadcastInDim S65536x1 ![0] bcast_S65536_S65536x1_0),
    TRef.unary (TRef.of (T := ⟨S65536x1, .f32⟩) main_call5_v3) (TRef.of (T := ⟨S65536x40, .f32⟩) main_call5_v4) (broadcastInDim S65536x40 ![0, 1] bcast_S65536x1_S65536x40_0_1),
    TRef.binary (TRef.of (T := ⟨S65536x40, .f32⟩) main_v142) (TRef.of (T := ⟨S65536x40, .f32⟩) main_call5_v4) (TRef.of (T := ⟨S65536x40, .f32⟩) main_call5_v5) subf ]

/-- The log-softmax's second half: minus the logarithm of the row's sum of exponentials. -/
def t8 : List (HloOp τ sig (Elt F)) :=
  [ TRef.unary (TRef.of (T := ⟨S65536x40, .f32⟩) main_call5_v5) (TRef.of (T := ⟨S65536x40, .f32⟩) main_call5_v6) Host.exp,
    TRef.nullary (TRef.of (T := ⟨S_, .f32⟩) main_call5_cst_1) (constant S_ .f32 0x00000000#32),
    TRef.binary (TRef.of (T := ⟨S65536x40, .f32⟩) main_call5_v6) (TRef.of (T := ⟨S_, .f32⟩) main_call5_cst_1) (TRef.of (T := ⟨S65536, .f32⟩) main_call5_v7) (fun x v => Host.reduceAdd x v reducesTo_S65536x40_S65536_d1 h_S_),
    TRef.unary (TRef.of (T := ⟨S65536, .f32⟩) main_call5_v7) (TRef.of (T := ⟨S65536x1, .f32⟩) main_call5_v8) (broadcastInDim S65536x1 ![0] bcast_S65536_S65536x1_0),
    TRef.unary (TRef.of (T := ⟨S65536x1, .f32⟩) main_call5_v8) (TRef.of (T := ⟨S65536x1, .f32⟩) main_call5_v9) Host.log,
    TRef.unary (TRef.of (T := ⟨S65536x1, .f32⟩) main_call5_v9) (TRef.of (T := ⟨S65536x40, .f32⟩) main_call5_v10) (broadcastInDim S65536x40 ![0, 1] bcast_S65536x1_S65536x40_0_1),
    TRef.binary (TRef.of (T := ⟨S65536x40, .f32⟩) main_call5_v5) (TRef.of (T := ⟨S65536x40, .f32⟩) main_call5_v10) (TRef.of (T := ⟨S65536x40, .f32⟩) main_v143) subf ]

/-- The stretch is its pieces, in order. -/
theorem tailOps_eq : (tailOps : List (HloOp τ sig (Elt F))) = t1 ++ (t2 ++ (t3 ++ (t4 ++ (t5 ++ (t6 ++ (t7 ++ t8)))))) := rfl

end Cert.Bridge.Ref

end
-- ==== Proof.RefChainTailCalls.lean ====
/-
  The operations of the two small functions the reference calls in its last stretch (the clamp at zero after the
  third layer, and the row-wise log-softmax). Each is written over references that carry their tensor's type; at these
  literal references it is the plain operation at the same buffers with the same function, whatever the function is.
-/
import proofs.«118539_j77197742178636_1_alg».proof.Proof.Gen.ReferenceIdeal
import Idealize.ShloMosaic.Lib.StableHlo.Run

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen

variable {F : FTy → Type} [FloatOps F]

theorem op_main_call4_cst (g : (⟨S_, .f32⟩ : BufTy).Contents (Elt F)) :
    (TRef.nullary (TRef.of (T := ⟨S_, .f32⟩) main_call4_cst) g : HloOp τ sig (Elt F)) = nullary main_call4_cst g (TRef.of (T := ⟨S_, .f32⟩) main_call4_cst).dev := rfl

theorem op_main_call4_v0 (g : (⟨S_, .f32⟩ : BufTy).Contents (Elt F) → (⟨S65536x128, .f32⟩ : BufTy).Contents (Elt F)) :
    (TRef.unary (TRef.of (T := ⟨S_, .f32⟩) main_call4_cst) (TRef.of (T := ⟨S65536x128, .f32⟩) main_call4_v0) g : HloOp τ sig (Elt F)) = unary main_call4_cst main_call4_v0 g (TRef.of (T := ⟨S_, .f32⟩) main_call4_cst).dev (TRef.of (T := ⟨S65536x128, .f32⟩) main_call4_v0).dev := rfl

theorem op_main_v137 (g : (⟨S65536x128, .f32⟩ : BufTy).Contents (Elt F) → (⟨S65536x128, .f32⟩ : BufTy).Contents (Elt F) → (⟨S65536x128, .f32⟩ : BufTy).Contents (Elt F)) :
    (TRef.binary (TRef.of (T := ⟨S65536x128, .f32⟩) main_v136) (TRef.of (T := ⟨S65536x128, .f32⟩) main_call4_v0) (TRef.of (T := ⟨S65536x128, .f32⟩) main_v137) g : HloOp τ sig (Elt F)) = binary main_v136 main_call4_v0 main_v137 g (TRef.of (T := ⟨S65536x128, .f32⟩) main_v136).dev (TRef.of (T := ⟨S65536x128, .f32⟩) main_call4_v0).dev (TRef.of (T := ⟨S65536x128, .f32⟩) main_v137).dev := rfl

theorem op_main_call5_cst (g : (⟨S_, .f32⟩ : BufTy).Contents (Elt F)) :
    (TRef.nullary (TRef.of (T := ⟨S_, .f32⟩) main_call5_cst) g : HloOp τ sig (Elt F)) = nullary main_call5_cst g (TRef.of (T := ⟨S_, .f32⟩) main_call5_cst).dev := rfl

theorem op_main_call5_v0 (g : (⟨S65536x40, .f32⟩ : BufTy).Contents (Elt F) → (⟨S_, .f32⟩ : BufTy).Contents (Elt F) → (⟨S65536, .f32⟩ : BufTy).Contents (Elt F)) :
    (TRef.binary (TRef.of (T := ⟨S65536x40, .f32⟩) main_v142) (TRef.of (T := ⟨S_, .f32⟩) main_call5_cst) (TRef.of (T := ⟨S65536, .f32⟩) main_call5_v0) g : HloOp τ sig (Elt F)) = binary main_v142 main_call5_cst main_call5_v0 g (TRef.of (T := ⟨S65536x40, .f32⟩) main_v142).dev (TRef.of (T := ⟨S_, .f32⟩) main_call5_cst).dev (TRef.of (T := ⟨S65536, .f32⟩) main_call5_v0).dev := rfl

theorem op_main_call5_cst_0 (g : (⟨S_, .f32⟩ : BufTy).Contents (Elt F)) :
    (TRef.nullary (TRef.of (T := ⟨S_, .f32⟩) main_call5_cst_0) g : HloOp τ sig (Elt F)) = nullary main_call5_cst_0 g (TRef.of (T := ⟨S_, .f32⟩) main_call5_cst_0).dev := rfl

theorem op_main_call5_v1 (g : (⟨S_, .f32⟩ : BufTy).Contents (Elt F) → (⟨S65536, .f32⟩ : BufTy).Contents (Elt F)) :
    (TRef.unary (TRef.of (T := ⟨S_, .f32⟩) main_call5_cst_0) (TRef.of (T := ⟨S65536, .f32⟩) main_call5_v1) g : HloOp τ sig (Elt F)) = unary main_call5_cst_0 main_call5_v1 g (TRef.of (T := ⟨S_, .f32⟩) main_call5_cst_0).dev (TRef.of (T := ⟨S65536, .f32⟩) main_call5_v1).dev := rfl

theorem op_main_call5_v2 (g : (⟨S65536, .f32⟩ : BufTy).Contents (Elt F) → (⟨S65536, .f32⟩ : BufTy).Contents (Elt F) → (⟨S65536, .f32⟩ : BufTy).Contents (Elt F)) :
    (TRef.binary (TRef.of (T := ⟨S65536, .f32⟩) main_call5_v1) (TRef.of (T := ⟨S65536, .f32⟩) main_call5_v0) (TRef.of (T := ⟨S65536, .f32⟩) main_call5_v2) g : HloOp τ sig (Elt F)) = binary main_call5_v1 main_call5_v0 main_call5_v2 g (TRef.of (T := ⟨S65536, .f32⟩) main_call5_v1).dev (TRef.of (T := ⟨S65536, .f32⟩) main_call5_v0).dev (TRef.of (T := ⟨S65536, .f32⟩) main_call5_v2).dev := rfl

theorem op_main_call5_v3 (g : (⟨S65536, .f32⟩ : BufTy).Contents (Elt F) → (⟨S65536x1, .f32⟩ : BufTy).Contents (Elt F)) :
    (TRef.unary (TRef.of (T := ⟨S65536, .f32⟩) main_call5_v2) (TRef.of (T := ⟨S65536x1, .f32⟩) main_call5_v3) g : HloOp τ sig (Elt F)) = unary main_call5_v2 main_call5_v3 g (TRef.of (T := ⟨S65536, .f32⟩) main_call5_v2).dev (TRef.of (T := ⟨S65536x1, .f32⟩) main_call5_v3).dev := rfl

theorem op_main_call5_v4 (g : (⟨S65536x1, .f32⟩ : BufTy).Contents (Elt F) → (⟨S65536x40, .f32⟩ : BufTy).Contents (Elt F)) :
    (TRef.unary (TRef.of (T := ⟨S65536x1, .f32⟩) main_call5_v3) (TRef.of (T := ⟨S65536x40, .f32⟩) main_call5_v4) g : HloOp τ sig (Elt F)) = unary main_call5_v3 main_call5_v4 g (TRef.of (T := ⟨S65536x1, .f32⟩) main_call5_v3).dev (TRef.of (T := ⟨S65536x40, .f32⟩) main_call5_v4).dev := rfl

theorem op_main_call5_v5 (g : (⟨S65536x40, .f32⟩ : BufTy).Contents (Elt F) → (⟨S65536x40, .f32⟩ : BufTy).Contents (Elt F) → (⟨S65536x40, .f32⟩ : BufTy).Contents (Elt F)) :
    (TRef.binary (TRef.of (T := ⟨S65536x40, .f32⟩) main_v142) (TRef.of (T := ⟨S65536x40, .f32⟩) main_call5_v4) (TRef.of (T := ⟨S65536x40, .f32⟩) main_call5_v5) g : HloOp τ sig (Elt F)) = binary main_v142 main_call5_v4 main_call5_v5 g (TRef.of (T := ⟨S65536x40, .f32⟩) main_v142).dev (TRef.of (T := ⟨S65536x40, .f32⟩) main_call5_v4).dev (TRef.of (T := ⟨S65536x40, .f32⟩) main_call5_v5).dev := rfl

theorem op_main_call5_v6 (g : (⟨S65536x40, .f32⟩ : BufTy).Contents (Elt F) → (⟨S65536x40, .f32⟩ : BufTy).Contents (Elt F)) :
    (TRef.unary (TRef.of (T := ⟨S65536x40, .f32⟩) main_call5_v5) (TRef.of (T := ⟨S65536x40, .f32⟩) main_call5_v6) g : HloOp τ sig (Elt F)) = unary main_call5_v5 main_call5_v6 g (TRef.of (T := ⟨S65536x40, .f32⟩) main_call5_v5).dev (TRef.of (T := ⟨S65536x40, .f32⟩) main_call5_v6).dev := rfl

theorem op_main_call5_cst_1 (g : (⟨S_, .f32⟩ : BufTy).Contents (Elt F)) :
    (TRef.nullary (TRef.of (T := ⟨S_, .f32⟩) main_call5_cst_1) g : HloOp τ sig (Elt F)) = nullary main_call5_cst_1 g (TRef.of (T := ⟨S_, .f32⟩) main_call5_cst_1).dev := rfl

theorem op_main_call5_v7 (g : (⟨S65536x40, .f32⟩ : BufTy).Contents (Elt F) → (⟨S_, .f32⟩ : BufTy).Contents (Elt F) → (⟨S65536, .f32⟩ : BufTy).Contents (Elt F)) :
    (TRef.binary (TRef.of (T := ⟨S65536x40, .f32⟩) main_call5_v6) (TRef.of (T := ⟨S_, .f32⟩) main_call5_cst_1) (TRef.of (T := ⟨S65536, .f32⟩) main_call5_v7) g : HloOp τ sig (Elt F)) = binary main_call5_v6 main_call5_cst_1 main_call5_v7 g (TRef.of (T := ⟨S65536x40, .f32⟩) main_call5_v6).dev (TRef.of (T := ⟨S_, .f32⟩) main_call5_cst_1).dev (TRef.of (T := ⟨S65536, .f32⟩) main_call5_v7).dev := rfl

theorem op_main_call5_v8 (g : (⟨S65536, .f32⟩ : BufTy).Contents (Elt F) → (⟨S65536x1, .f32⟩ : BufTy).Contents (Elt F)) :
    (TRef.unary (TRef.of (T := ⟨S65536, .f32⟩) main_call5_v7) (TRef.of (T := ⟨S65536x1, .f32⟩) main_call5_v8) g : HloOp τ sig (Elt F)) = unary main_call5_v7 main_call5_v8 g (TRef.of (T := ⟨S65536, .f32⟩) main_call5_v7).dev (TRef.of (T := ⟨S65536x1, .f32⟩) main_call5_v8).dev := rfl

theorem op_main_call5_v9 (g : (⟨S65536x1, .f32⟩ : BufTy).Contents (Elt F) → (⟨S65536x1, .f32⟩ : BufTy).Contents (Elt F)) :
    (TRef.unary (TRef.of (T := ⟨S65536x1, .f32⟩) main_call5_v8) (TRef.of (T := ⟨S65536x1, .f32⟩) main_call5_v9) g : HloOp τ sig (Elt F)) = unary main_call5_v8 main_call5_v9 g (TRef.of (T := ⟨S65536x1, .f32⟩) main_call5_v8).dev (TRef.of (T := ⟨S65536x1, .f32⟩) main_call5_v9).dev := rfl

theorem op_main_call5_v10 (g : (⟨S65536x1, .f32⟩ : BufTy).Contents (Elt F) → (⟨S65536x40, .f32⟩ : BufTy).Contents (Elt F)) :
    (TRef.unary (TRef.of (T := ⟨S65536x1, .f32⟩) main_call5_v9) (TRef.of (T := ⟨S65536x40, .f32⟩) main_call5_v10) g : HloOp τ sig (Elt F)) = unary main_call5_v9 main_call5_v10 g (TRef.of (T := ⟨S65536x1, .f32⟩) main_call5_v9).dev (TRef.of (T := ⟨S65536x40, .f32⟩) main_call5_v10).dev := rfl

theorem op_main_v143 (g : (⟨S65536x40, .f32⟩ : BufTy).Contents (Elt F) → (⟨S65536x40, .f32⟩ : BufTy).Contents (Elt F) → (⟨S65536x40, .f32⟩ : BufTy).Contents (Elt F)) :
    (TRef.binary (TRef.of (T := ⟨S65536x40, .f32⟩) main_call5_v5) (TRef.of (T := ⟨S65536x40, .f32⟩) main_call5_v10) (TRef.of (T := ⟨S65536x40, .f32⟩) main_v143) g : HloOp τ sig (Elt F)) = binary main_call5_v5 main_call5_v10 main_v143 g (TRef.of (T := ⟨S65536x40, .f32⟩) main_call5_v5).dev (TRef.of (T := ⟨S65536x40, .f32⟩) main_call5_v10).dev (TRef.of (T := ⟨S65536x40, .f32⟩) main_v143).dev := rfl

end Cert.Bridge.Ref

end
-- ==== Proof.RefChainTailA1.lean ====
/-
  The reference's last stretch, the pieces around the products: the third layer's weight and bias slices with the hidden
  state times the weight, and the logits (the clamped rows times the transposed output weight, plus the output bias).
  What each piece leaves in the buffer it is read at is the reference's stage of that name, given the stages the piece
  starts from; the buffers a piece does not write keep their contents.
-/
import proofs.«118539_j77197742178636_1_alg».proof.Proof.RefReadP
import proofs.«118539_j77197742178636_1_alg».proof.Proof.RefChainTailDefs
import proofs.«118539_j77197742178636_1_alg».proof.Proof.RefChainTailCalls
import Idealize.ShloMosaic.Lib.StableHlo.Run

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable (W : Valuation τ sig (Elt Ideal))

theorem t1_v105 (a0 a1 a2 a4 a5 a6 a7 : _)
    (h100 : W (Proc.devRef .tc main_v100) = val_main_v100 (F := Ideal) a0 a1 a2 a4 a5 a6 a7)
    (h6 : W (Proc.devRef .tc main_arg6) = a6) :
    after (t1 (F := Ideal)) W (Proc.devRef .tc main_v105) = val_main_v105 (F := Ideal) a0 a1 a2 a4 a5 a6 a7 := by
  dsimp only [t1]
  after_results_simp
  rw [h100, h6]
  rfl

theorem t1_v104 (a7 : _)
    (h7 : W (Proc.devRef .tc main_arg7) = a7) :
    after (t1 (F := Ideal)) W (Proc.devRef .tc main_v104) = val_main_v104 (F := Ideal) a7 := by
  dsimp only [t1]
  after_results_simp
  rw [h7]
  rfl

theorem t1_keep_v15 : after (t1 (F := Ideal)) W (Proc.devRef .tc main_v15) = W (Proc.devRef .tc main_v15) := by
  dsimp only [t1]
  after_results_simp

theorem t1_keep_v18 : after (t1 (F := Ideal)) W (Proc.devRef .tc main_v18) = W (Proc.devRef .tc main_v18) := by
  dsimp only [t1]
  after_results_simp

theorem t1_keep_v26 : after (t1 (F := Ideal)) W (Proc.devRef .tc main_v26) = W (Proc.devRef .tc main_v26) := by
  dsimp only [t1]
  after_results_simp

theorem t1_keep_arg8 : after (t1 (F := Ideal)) W (Proc.devRef .tc main_arg8) = W (Proc.devRef .tc main_arg8) := by
  dsimp only [t1]
  after_results_simp

theorem t1_keep_arg9 : after (t1 (F := Ideal)) W (Proc.devRef .tc main_arg9) = W (Proc.devRef .tc main_arg9) := by
  dsimp only [t1]
  after_results_simp

theorem t6_v142 (a0 a1 a2 a4 a5 a6 a7 a8 a9 : _)
    (h137 : W (Proc.devRef .tc main_v137) = val_main_v137 (F := Ideal) a0 a1 a2 a4 a5 a6 a7)
    (h8 : W (Proc.devRef .tc main_arg8) = a8)
    (h9 : W (Proc.devRef .tc main_arg9) = a9) :
    after (t6 (F := Ideal)) W (Proc.devRef .tc main_v142) = val_main_v142 (F := Ideal) a0 a1 a2 a4 a5 a6 a7 a8 a9 := by
  dsimp only [t6]
  after_results_simp
  rw [h137, h8, h9]
  rfl

end Cert.Bridge.Ref

end
-- ==== Proof.RefChainTailA2.lean ====
/-
  The reference's last stretch, the normalisation once more: the inverse square-root degrees gathered at the sources
  and at the targets and multiplied, as the reference's stage of that name; the buffers the piece does not write keep
  their contents.
-/
import proofs.«118539_j77197742178636_1_alg».proof.Proof.RefReadP
import proofs.«118539_j77197742178636_1_alg».proof.Proof.RefChainTailDefs
import proofs.«118539_j77197742178636_1_alg».proof.Proof.RefChainTailCalls
import Idealize.ShloMosaic.Lib.StableHlo.Run

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable (W : Valuation τ sig (Elt Ideal))

theorem t2_v120 (a1 : _)
    (h15 : W (Proc.devRef .tc main_v15) = val_main_v15 (F := Ideal) a1)
    (h18 : W (Proc.devRef .tc main_v18) = val_main_v18 (F := Ideal) a1)
    (h26 : W (Proc.devRef .tc main_v26) = val_main_v26 (F := Ideal) a1) :
    after (t2 (F := Ideal)) W (Proc.devRef .tc main_v120) = val_main_v120 (F := Ideal) a1 := by
  dsimp only [t2]
  after_results_simp
  rw [h15, h18, h26]
  rfl

theorem t2_keep_v15 : after (t2 (F := Ideal)) W (Proc.devRef .tc main_v15) = W (Proc.devRef .tc main_v15) := by
  dsimp only [t2]
  after_results_simp

theorem t2_keep_v18 : after (t2 (F := Ideal)) W (Proc.devRef .tc main_v18) = W (Proc.devRef .tc main_v18) := by
  dsimp only [t2]
  after_results_simp

theorem t2_keep_v105 : after (t2 (F := Ideal)) W (Proc.devRef .tc main_v105) = W (Proc.devRef .tc main_v105) := by
  dsimp only [t2]
  after_results_simp

theorem t2_keep_v104 : after (t2 (F := Ideal)) W (Proc.devRef .tc main_v104) = W (Proc.devRef .tc main_v104) := by
  dsimp only [t2]
  after_results_simp

theorem t2_keep_arg8 : after (t2 (F := Ideal)) W (Proc.devRef .tc main_arg8) = W (Proc.devRef .tc main_arg8) := by
  dsimp only [t2]
  after_results_simp

theorem t2_keep_arg9 : after (t2 (F := Ideal)) W (Proc.devRef .tc main_arg9) = W (Proc.devRef .tc main_arg9) := by
  dsimp only [t2]
  after_results_simp

end Cert.Bridge.Ref

end
-- ==== Proof.RefChainTailA3.lean ====
/-
  The reference's last stretch, the third layer's message passing: the transformed rows gathered at the sources and
  scaled by the normalisation, then added up at the targets with the layer's bias, as the reference's stages of those
  names; the buffers a piece does not write keep their contents.
-/
import proofs.«118539_j77197742178636_1_alg».proof.Proof.RefReadP
import proofs.«118539_j77197742178636_1_alg».proof.Proof.RefChainTailDefs
import proofs.«118539_j77197742178636_1_alg».proof.Proof.RefChainTailCalls
import Idealize.ShloMosaic.Lib.StableHlo.Run

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable (W : Valuation τ sig (Elt Ideal))

theorem t3_v130 (a0 a1 a2 a4 a5 a6 a7 : _)
    (h15 : W (Proc.devRef .tc main_v15) = val_main_v15 (F := Ideal) a1)
    (h105 : W (Proc.devRef .tc main_v105) = val_main_v105 (F := Ideal) a0 a1 a2 a4 a5 a6 a7)
    (h120 : W (Proc.devRef .tc main_v120) = val_main_v120 (F := Ideal) a1) :
    after (t3 (F := Ideal)) W (Proc.devRef .tc main_v130) = val_main_v130 (F := Ideal) a0 a1 a2 a4 a5 a6 a7 := by
  dsimp only [t3]
  after_results_simp
  rw [h15, h105, h120]
  rfl

theorem t3_keep_v18 : after (t3 (F := Ideal)) W (Proc.devRef .tc main_v18) = W (Proc.devRef .tc main_v18) := by
  dsimp only [t3]
  after_results_simp

theorem t3_keep_v104 : after (t3 (F := Ideal)) W (Proc.devRef .tc main_v104) = W (Proc.devRef .tc main_v104) := by
  dsimp only [t3]
  after_results_simp

theorem t3_keep_arg8 : after (t3 (F := Ideal)) W (Proc.devRef .tc main_arg8) = W (Proc.devRef .tc main_arg8) := by
  dsimp only [t3]
  after_results_simp

theorem t3_keep_arg9 : after (t3 (F := Ideal)) W (Proc.devRef .tc main_arg9) = W (Proc.devRef .tc main_arg9) := by
  dsimp only [t3]
  after_results_simp

theorem t4_v136 (a0 a1 a2 a4 a5 a6 a7 : _)
    (h18 : W (Proc.devRef .tc main_v18) = val_main_v18 (F := Ideal) a1)
    (h130 : W (Proc.devRef .tc main_v130) = val_main_v130 (F := Ideal) a0 a1 a2 a4 a5 a6 a7)
    (h104 : W (Proc.devRef .tc main_v104) = val_main_v104 (F := Ideal) a7) :
    after (t4 (F := Ideal)) W (Proc.devRef .tc main_v136) = val_main_v136 (F := Ideal) a0 a1 a2 a4 a5 a6 a7 := by
  dsimp only [t4]
  after_results_simp
  rw [h18, h130, h104]
  rfl

theorem t4_keep_arg8 : after (t4 (F := Ideal)) W (Proc.devRef .tc main_arg8) = W (Proc.devRef .tc main_arg8) := by
  dsimp only [t4]
  after_results_simp

theorem t4_keep_arg9 : after (t4 (F := Ideal)) W (Proc.devRef .tc main_arg9) = W (Proc.devRef .tc main_arg9) := by
  dsimp only [t4]
  after_results_simp

end Cert.Bridge.Ref

end
-- ==== Proof.RefChainTailB.lean ====
/-
  The reference's last stretch, the pieces made of a called function's operations: the clamp at zero after the third
  layer, and the two halves of the row-wise log-softmax. What each piece leaves in the buffer it is read at is the
  reference's stage of that name, given the stages the piece starts from; the buffers a piece does not write keep
  their contents.
-/
import proofs.«118539_j77197742178636_1_alg».proof.Proof.RefReadP
import proofs.«118539_j77197742178636_1_alg».proof.Proof.RefChainTailDefs
import proofs.«118539_j77197742178636_1_alg».proof.Proof.RefChainTailCalls
import Idealize.ShloMosaic.Lib.StableHlo.Run

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

variable (W : Valuation τ sig (Elt Ideal))

theorem t5_v137 (a0 a1 a2 a4 a5 a6 a7 : _)
    (h136 : W (Proc.devRef .tc main_v136) = val_main_v136 (F := Ideal) a0 a1 a2 a4 a5 a6 a7) :
    after (t5 (F := Ideal)) W (Proc.devRef .tc main_v137) = val_main_v137 (F := Ideal) a0 a1 a2 a4 a5 a6 a7 := by
  dsimp only [t5]
  rw [op_main_call4_cst (F := Ideal), op_main_call4_v0 (F := Ideal), op_main_v137 (F := Ideal)]
  after_results_simp
  rw [h136]
  rfl

theorem t5_keep_arg8 : after (t5 (F := Ideal)) W (Proc.devRef .tc main_arg8) = W (Proc.devRef .tc main_arg8) := by
  dsimp only [t5]
  rw [op_main_call4_cst (F := Ideal), op_main_call4_v0 (F := Ideal), op_main_v137 (F := Ideal)]
  after_results_simp

theorem t5_keep_arg9 : after (t5 (F := Ideal)) W (Proc.devRef .tc main_arg9) = W (Proc.devRef .tc main_arg9) := by
  dsimp only [t5]
  rw [op_main_call4_cst (F := Ideal), op_main_call4_v0 (F := Ideal), op_main_v137 (F := Ideal)]
  after_results_simp

theorem t7_c5 (a0 a1 a2 a4 a5 a6 a7 a8 a9 : _)
    (h142 : W (Proc.devRef .tc main_v142) = val_main_v142 (F := Ideal) a0 a1 a2 a4 a5 a6 a7 a8 a9) :
    after (t7 (F := Ideal)) W (Proc.devRef .tc main_call5_v5) = val_main_call5_v5 (F := Ideal) a0 a1 a2 a4 a5 a6 a7 a8 a9 := by
  dsimp only [t7]
  rw [op_main_call5_cst (F := Ideal), op_main_call5_v0 (F := Ideal), op_main_call5_cst_0 (F := Ideal), op_main_call5_v1 (F := Ideal), op_main_call5_v2 (F := Ideal), op_main_call5_v3 (F := Ideal), op_main_call5_v4 (F := Ideal), op_main_call5_v5 (F := Ideal)]
  after_results_simp
  rw [h142]
  rfl

theorem t8_v143 (a0 a1 a2 a4 a5 a6 a7 a8 a9 : _)
    (hc5 : W (Proc.devRef .tc main_call5_v5) = val_main_call5_v5 (F := Ideal) a0 a1 a2 a4 a5 a6 a7 a8 a9) :
    after (t8 (F := Ideal)) W (Proc.devRef .tc main_v143) = val_main_v143 (F := Ideal) a0 a1 a2 a4 a5 a6 a7 a8 a9 := by
  dsimp only [t8]
  rw [op_main_call5_v6 (F := Ideal), op_main_call5_cst_1 (F := Ideal), op_main_call5_v7 (F := Ideal), op_main_call5_v8 (F := Ideal), op_main_call5_v9 (F := Ideal), op_main_call5_v10 (F := Ideal), op_main_v143 (F := Ideal)]
  after_results_simp
  rw [hc5]
  rfl

end Cert.Bridge.Ref

end
-- ==== Proof.RefChainTail.lean ====
/-
  The reference's last stretch as a whole: from buffer contents where the second layer's clamped output, the two edge
  lists, the inverse square-root degrees and the last four arguments are what the reference's stages of those names
  say, the 66 operations leave the result buffer at the reference's last stage. The stretch is its eight pieces run in
  order; each piece's value feeds the next, and the buffers read later pass through the pieces that do not write them.
-/
import proofs.«118539_j77197742178636_1_alg».proof.Proof.RefReadP
import proofs.«118539_j77197742178636_1_alg».proof.Proof.RefChainTailDefs
import proofs.«118539_j77197742178636_1_alg».proof.Proof.RefChainTailA1
import proofs.«118539_j77197742178636_1_alg».proof.Proof.RefChainTailA2
import proofs.«118539_j77197742178636_1_alg».proof.Proof.RefChainTailA3
import proofs.«118539_j77197742178636_1_alg».proof.Proof.RefChainTailB
import Idealize.ShloMosaic.Lib.StableHlo.Run
import Idealize.ShloMosaic.Lib.Pipeline.Frame

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

theorem tail_v143 (W : Valuation τ sig (Elt Ideal)) (a0 a1 a2 a4 a5 a6 a7 a8 a9 : _)
    (h100 : W (Proc.devRef .tc main_v100) = val_main_v100 (F := Ideal) a0 a1 a2 a4 a5 a6 a7)
    (h15 : W (Proc.devRef .tc main_v15) = val_main_v15 (F := Ideal) a1)
    (h18 : W (Proc.devRef .tc main_v18) = val_main_v18 (F := Ideal) a1)
    (h26 : W (Proc.devRef .tc main_v26) = val_main_v26 (F := Ideal) a1)
    (h6 : W (Proc.devRef .tc main_arg6) = a6) (h7 : W (Proc.devRef .tc main_arg7) = a7)
    (h8 : W (Proc.devRef .tc main_arg8) = a8) (h9 : W (Proc.devRef .tc main_arg9) = a9) :
    after (tailOps (F := Ideal)) W (Proc.devRef .tc main_v143) = val_main_v143 (F := Ideal) a0 a1 a2 a4 a5 a6 a7 a8 a9 := by
  rw [tailOps_eq]
  simp only [StableHlo.after_append]
  -- the buffers each piece starts from, read through the pieces before it
  have e1_15 : after t1 W (Proc.devRef .tc main_v15) = val_main_v15 (F := Ideal) a1 := by rw [t1_keep_v15]; exact h15
  have e1_18 : after t1 W (Proc.devRef .tc main_v18) = val_main_v18 (F := Ideal) a1 := by rw [t1_keep_v18]; exact h18
  have e1_26 : after t1 W (Proc.devRef .tc main_v26) = val_main_v26 (F := Ideal) a1 := by rw [t1_keep_v26]; exact h26
  have e1_105 := t1_v105 W a0 a1 a2 a4 a5 a6 a7 h100 h6
  have e1_104 := t1_v104 W a7 h7
  have e2_120 := t2_v120 (after t1 W) a1 e1_15 e1_18 e1_26
  have e2_15 : after t2 (after t1 W) (Proc.devRef .tc main_v15) = val_main_v15 (F := Ideal) a1 := by rw [t2_keep_v15]; exact e1_15
  have e2_18 : after t2 (after t1 W) (Proc.devRef .tc main_v18) = val_main_v18 (F := Ideal) a1 := by rw [t2_keep_v18]; exact e1_18
  have e2_105 : after t2 (after t1 W) (Proc.devRef .tc main_v105) = val_main_v105 (F := Ideal) a0 a1 a2 a4 a5 a6 a7 := by rw [t2_keep_v105]; exact e1_105
  have e2_104 : after t2 (after t1 W) (Proc.devRef .tc main_v104) = val_main_v104 (F := Ideal) a7 := by rw [t2_keep_v104]; exact e1_104
  have e3_130 := t3_v130 (after t2 (after t1 W)) a0 a1 a2 a4 a5 a6 a7 e2_15 e2_105 e2_120
  have e3_18 : after t3 (after t2 (after t1 W)) (Proc.devRef .tc main_v18) = val_main_v18 (F := Ideal) a1 := by rw [t3_keep_v18]; exact e2_18
  have e3_104 : after t3 (after t2 (after t1 W)) (Proc.devRef .tc main_v104) = val_main_v104 (F := Ideal) a7 := by rw [t3_keep_v104]; exact e2_104
  have e4_136 := t4_v136 (after t3 (after t2 (after t1 W))) a0 a1 a2 a4 a5 a6 a7 e3_18 e3_130 e3_104
  have e5_137 := t5_v137 (after t4 (after t3 (after t2 (after t1 W)))) a0 a1 a2 a4 a5 a6 a7 e4_136
  have e5_8 : after t5 (after t4 (after t3 (after t2 (after t1 W)))) (Proc.devRef .tc main_arg8) = a8 := by
    rw [t5_keep_arg8, t4_keep_arg8, t3_keep_arg8, t2_keep_arg8, t1_keep_arg8]; exact h8
  have e5_9 : after t5 (after t4 (after t3 (after t2 (after t1 W)))) (Proc.devRef .tc main_arg9) = a9 := by
    rw [t5_keep_arg9, t4_keep_arg9, t3_keep_arg9, t2_keep_arg9, t1_keep_arg9]; exact h9
  have e6_142 := t6_v142 (after t5 (after t4 (after t3 (after t2 (after t1 W))))) a0 a1 a2 a4 a5 a6 a7 a8 a9 e5_137 e5_8 e5_9
  have e7_c5 := t7_c5 (after t6 (after t5 (after t4 (after t3 (after t2 (after t1 W)))))) a0 a1 a2 a4 a5 a6 a7 a8 a9 e6_142
  exact t8_v143 (after t7 (after t6 (after t5 (after t4 (after t3 (after t2 (after t1 W))))))) a0 a1 a2 a4 a5 a6 a7 a8 a9 e7_c5

end Cert.Bridge.Ref

end
-- ==== Proof.RefChain.lean ====
/-
  The reference program's run, read: every weakly fair execution of its 193 operations terminates with the result
  buffer at the last stage (the row-wise log-softmax of the output layer) as the stages read it off the argument
  buffers, and the arguments unchanged. The operation list is its first 127 operations followed by the last 66; the
  first part leaves the second layer's output, the edge lists and the normalisation's factors, which is what the
  second part reads.
-/
import proofs.«118539_j77197742178636_1_alg».proof.Proof.RefRunP
import proofs.«118539_j77197742178636_1_alg».proof.Proof.RefChainHead
import proofs.«118539_j77197742178636_1_alg».proof.Proof.RefChainTail

set_option maxRecDepth 16384

noncomputable section

namespace Cert.Bridge.Ref

open Idealize.ShloMosaic Idealize.ShloMosaic.TcCoe Idealize.ShloMosaic.StableHlo Idealize.SL.Sem
open Cert.ReferenceIdeal Cert.ReferenceIdeal.Gen
open Cert.ReferenceIdeal.ReadP

/-- The program's operations are the first 127 followed by the last 66. -/
theorem ops_split : (Cert.ReferenceIdeal.ValueP.ops : List (HloOp τ sig (Elt Ideal))) = headOps (F := Ideal) ++ tailOps (F := Ideal) := rfl

/-- The result buffer after all the operations, from any contents: the last stage of the argument buffers. -/
theorem after_ops_v143 (W : Valuation τ sig (Elt Ideal)) :
    after (Cert.ReferenceIdeal.ValueP.ops (F := Ideal)) W (Proc.devRef .tc main_v143)
      = val_main_v143 (F := Ideal) (W (Proc.devRef .tc main_arg0)) (W (Proc.devRef .tc main_arg1)) (W (Proc.devRef .tc main_arg2))
          (W (Proc.devRef .tc main_arg4)) (W (Proc.devRef .tc main_arg5)) (W (Proc.devRef .tc main_arg6)) (W (Proc.devRef .tc main_arg7))
          (W (Proc.devRef .tc main_arg8)) (W (Proc.devRef .tc main_arg9)) := by
  rw [ops_split, StableHlo.after_append]
  exact tail_v143 _ _ _ _ _ _ _ _ _ _ (head_v100 W) (head_v15 W) (head_v18 W) (head_v26 W) (head_arg6 W) (head_arg7 W) (head_arg8 W) (head_arg9 W)

set_option maxHeartbeats 4000000 in
/-- THE REFERENCE'S RUN: every weakly fair execution terminates, the result at the last stage of the arguments, the
    arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v143) = val_main_v143 (F := Ideal) (m ((c.tc : Thread nD τ).loc main_arg0)) (m ((c.tc : Thread nD τ).loc main_arg1)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run (defs (F := Ideal)) _ _).mono (fun _ h c => ⟨(h c main_v143).trans (after_ops_v143 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq Cert.ReferenceIdeal.ValueP.scopedRefs_eq Cert.ReferenceIdeal.ValueP.scopedSems_eq (defs (F := Ideal)) (main (F := Ideal)) (fun _ => Cert.ReferenceIdeal.ValueP.ops (F := Ideal)) (Cert.ReferenceIdeal.ValueP.main_eq (F := Ideal)) (fun _ => Cert.ReferenceIdeal.ValueP.ops_sub (F := Ideal)) m ρ)

end Cert.Bridge.Ref

end
-- ==== Proof.lean ====
/-
  The certificate of the graph network's forward pass: a per-graph dynamic-weight product, three rounds of
  normalised message passing (dense transform, gather at the edge sources, scale, sum at the edge targets, bias, clamp
  at zero) and a linear output layer with a row-wise log-softmax, computed by five kernel regions among host
  operations, against the plain array program that computes the same quantities.

  On the extended reals the two programs compute the same function of the arguments stage by stage. Every matrix
  product of a region, taken block of rows by block of rows on the matrix unit into a zero accumulator, is the host's
  dot_general of the same two arrays (the same sum over the contracted axis, entry by entry; a change of float format
  is the identity); the host operations between the regions are the reference's own operations in the same order; the
  last region's row maximum, shift, exponential sum and logarithm are the reference's log-softmax. No algebraic law that
  needs finite operands is used, so the precondition is not opened.

  The three frames: the two kernel programs' are the generated frame certificates; the reference's is its run with the
  result dropped. The idealization rewrote no operation, so its conjunct is trivial.
-/
import proofs.«118539_j77197742178636_1_alg».proof.Defs
import proofs.«118539_j77197742178636_1_alg».proof.Proof.Gen.Kernel
import proofs.«118539_j77197742178636_1_alg».proof.Proof.Gen.Kernel.Skeleton
import proofs.«118539_j77197742178636_1_alg».proof.Proof.Gen.Kernel.Launch
import proofs.«118539_j77197742178636_1_alg».proof.Proof.Gen.Kernel.Points
import proofs.«118539_j77197742178636_1_alg».proof.Proof.Gen.Kernel.Frame
import proofs.«118539_j77197742178636_1_alg».proof.Proof.Gen.KernelIdeal
import proofs.«118539_j77197742178636_1_alg».proof.Proof.Gen.KernelIdeal.Skeleton
import proofs.«118539_j77197742178636_1_alg».proof.Proof.Gen.KernelIdeal.Launch
import proofs.«118539_j77197742178636_1_alg».proof.Proof.Gen.KernelIdeal.Points
import proofs.«118539_j77197742178636_1_alg».proof.Proof.Gen.KernelIdeal.Frame
import proofs.«118539_j77197742178636_1_alg».proof.Proof.Gen.ReferenceIdeal
import proofs.«118539_j77197742178636_1_alg».proof.Proof.Gen.Pre_finite_inputs
import proofs.«118539_j77197742178636_1_alg».proof.Proof.KernelRun
import proofs.«118539_j77197742178636_1_alg».proof.Proof.ChainRun
import proofs.«118539_j77197742178636_1_alg».proof.Proof.RefChain
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, the result dropped. -/
theorem frame_referenceIdeal : Cert.frame_ReferenceIdeal := fun m ρ _ =>
  (θ_run Cert.ReferenceIdeal.defs _ _).mono (fun _ h c => (h c).2) (Cert.Bridge.Ref.ref_run m ρ)

/-- Both programs end at the reference's last stage of the (agreeing) argument arrays. -/
theorem algebraic : Cert.algebraic_KernelIdeal_ReferenceIdeal := by
  intro m ρ m' ρ' _ hagree
  refine ⟨fun c => Cert.ReferenceIdeal.ReadP.val_main_v143 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.Bridge.Chain.result m ρ c), (h c).2⟩)
      (Cert.KernelIdeal.RunValue.run_result m ρ)
  · refine (θ_run Cert.ReferenceIdeal.defs _ _).mono (fun r h c => ⟨(h c).1.trans ?_, (h c).2⟩)
      (Cert.Bridge.Ref.ref_run m' ρ')
    rw [(hagree c).1, (hagree c).2.1, (hagree c).2.2.1, (hagree c).2.2.2.2.1, (hagree c).2.2.2.2.2.1,
      (hagree c).2.2.2.2.2.2.1, (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
